-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v61)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v61) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v65) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x512 : Shape := ⟨2, ![100000, 512]⟩
abbrev S512x16 : Shape := ⟨2, ![512, 16]⟩
abbrev S16 : Shape := ⟨1, ![16]⟩
abbrev S16x40 : Shape := ⟨2, ![16, 40]⟩
abbrev S40 : Shape := ⟨1, ![40]⟩
abbrev S2x3200000 : Shape := ⟨2, ![2, 3200000]⟩
abbrev S_ : Shape := ⟨0, ![]⟩

class Facts : Prop where
  bcast_S_S100000x512 : S_.BroadcastsInDim S100000x512 (![] : Fin 0 → Fin S100000x512.rank)
  reducesTo_S100000x512_S_d0_1 : S100000x512.ReducesTo [0, 1] S_
  h_S_ : 0 < S_.numel
  bcast_S_S512x16 : S_.BroadcastsInDim S512x16 (![] : Fin 0 → Fin S512x16.rank)
  reducesTo_S512x16_S_d0_1 : S512x16.ReducesTo [0, 1] S_
  bcast_S_S16 : S_.BroadcastsInDim S16 (![] : Fin 0 → Fin S16.rank)
  reducesTo_S16_S_d0 : S16.ReducesTo [0] S_
  bcast_S_S16x40 : S_.BroadcastsInDim S16x40 (![] : Fin 0 → Fin S16x40.rank)
  reducesTo_S16x40_S_d0_1 : S16x40.ReducesTo [0, 1] S_
  bcast_S_S40 : S_.BroadcastsInDim S40 (![] : Fin 0 → Fin S40.rank)
  reducesTo_S40_S_d0 : S40.ReducesTo [0] S_

variable [Facts]

def fn_part1 {F : FTy → Type} [FloatOps F] (main_arg4 : FVec F S40 .f32) (main_v13 : IVec S_ 1) (main_v16 : IVec S16x40 1) : IVec S_ 1 :=
  let main_c_5 : IVec S_ 1 := constantI S_ 1 1#1
  let main_v17 : IVec S_ 1 := (fun x v => Host.reduce IntOp.andi x v reducesTo_S16x40_S_d0_1 h_S_) main_v16 main_c_5
  let main_v18 : IVec S_ 1 := andi main_v13 main_v17
  let main_v19 : FVec F S40 .f32 := Host.absf main_arg4
  let main_cst_6 : FVec F S_ .f32 := constant S_ .f32 0x7F800000#32
  let main_v20 : FVec F S40 .f32 := broadcastInDim S40 ![] bcast_S_S40 main_cst_6
  let main_v21 : IVec S40 1 := cmpf .olt main_v19 main_v20
  let main_c_7 : IVec S_ 1 := constantI S_ 1 1#1
  let main_v22 : IVec S_ 1 := (fun x v => Host.reduce IntOp.andi x v reducesTo_S40_S_d0 h_S_) main_v21 main_c_7
  let main_v23 : IVec S_ 1 := andi main_v18 main_v22
  main_v23

def fn {F : FTy → Type} [FloatOps F] (main_arg0 : FVec F S100000x512 .f32) (main_arg1 : FVec F S512x16 .f32) (main_arg2 : FVec F S16 .f32) (main_arg3 : FVec F S16x40 .f32) (main_arg4 : FVec F S40 .f32) (main_arg5 : IVec S2x3200000 32) : IVec S_ 1 :=
  let main_v0 : FVec F S100000x512 .f32 := Host.absf main_arg0
  let main_cst : FVec F S_ .f32 := constant S_ .f32 0x7F800000#32
  let main_v1 : FVec F S100000x512 .f32 := broadcastInDim S100000x512 ![] bcast_S_S100000x512 main_cst
  let main_v2 : IVec S100000x512 1 := cmpf .olt main_v0 main_v1
  let main_c : IVec S_ 1 := constantI S_ 1 1#1
  let main_v3 : IVec S_ 1 := (fun x v => Host.reduce IntOp.andi x v reducesTo_S100000x512_S_d0_1 h_S_) main_v2 main_c
  let main_v4 : FVec F S512x16 .f32 := Host.absf main_arg1
  let main_cst_0 : FVec F S_ .f32 := constant S_ .f32 0x7F800000#32
  let main_v5 : FVec F S512x16 .f32 := broadcastInDim S512x16 ![] bcast_S_S512x16 main_cst_0
  let main_v6 : IVec S512x16 1 := cmpf .olt main_v4 main_v5
  let main_c_1 : IVec S_ 1 := constantI S_ 1 1#1
  let main_v7 : IVec S_ 1 := (fun x v => Host.reduce IntOp.andi x v reducesTo_S512x16_S_d0_1 h_S_) main_v6 main_c_1
  let main_v8 : IVec S_ 1 := andi main_v3 main_v7
  let main_v9 : FVec F S16 .f32 := Host.absf main_arg2
  let main_cst_2 : FVec F S_ .f32 := constant S_ .f32 0x7F800000#32
  let main_v10 : FVec F S16 .f32 := broadcastInDim S16 ![] bcast_S_S16 main_cst_2
  let main_v11 : IVec S16 1 := cmpf .olt main_v9 main_v10
  let main_c_3 : IVec S_ 1 := constantI S_ 1 1#1
  let main_v12 : IVec S_ 1 := (fun x v => Host.reduce IntOp.andi x v reducesTo_S16_S_d0 h_S_) main_v11 main_c_3
  let main_v13 : IVec S_ 1 := andi main_v8 main_v12
  let main_v14 : FVec F S16x40 .f32 := Host.absf main_arg3
  let main_cst_4 : FVec F S_ .f32 := constant S_ .f32 0x7F800000#32
  let main_v15 : FVec F S16x40 .f32 := broadcastInDim S16x40 ![] bcast_S_S16x40 main_cst_4
  let main_v16 : IVec S16x40 1 := cmpf .olt main_v14 main_v15
  fn_part1 (F := F) main_arg4 main_v13 main_v16
-- ==== Kernel.lean ====
abbrev S100000x512 : Shape := ⟨2, ![100000, 512]⟩
abbrev S512x16 : Shape := ⟨2, ![512, 16]⟩
abbrev S16 : Shape := ⟨1, ![16]⟩
abbrev S16x40 : Shape := ⟨2, ![16, 40]⟩
abbrev S40 : Shape := ⟨1, ![40]⟩
abbrev S2x3200000 : Shape := ⟨2, ![2, 3200000]⟩
abbrev S100000 : Shape := ⟨1, ![100000]⟩
abbrev S1x3200000 : Shape := ⟨2, ![1, 3200000]⟩
abbrev S3200000 : Shape := ⟨1, ![3200000]⟩
abbrev S3300000 : Shape := ⟨1, ![3300000]⟩
abbrev S_ : Shape := ⟨0, ![]⟩
abbrev S3300000x1 : Shape := ⟨2, ![3300000, 1]⟩
abbrev S100000x16 : Shape := ⟨2, ![100000, 16]⟩
abbrev S2000x512 : Shape := ⟨2, ![2000, 512]⟩
abbrev S2000x16 : Shape := ⟨2, ![2000, 16]⟩
abbrev S3300000x16 : Shape := ⟨2, ![3300000, 16]⟩
abbrev S1x16 : Shape := ⟨2, ![1, 16]⟩
abbrev S10000x16 : Shape := ⟨2, ![10000, 16]⟩
abbrev S100000x40 : Shape := ⟨2, ![100000, 40]⟩
abbrev S10000x40 : Shape := ⟨2, ![10000, 40]⟩
abbrev S3300000x40 : Shape := ⟨2, ![3300000, 40]⟩
abbrev S1x40 : Shape := ⟨2, ![1, 40]⟩
abbrev S10000 : Shape := ⟨1, ![10000]⟩
abbrev S10000x1 : Shape := ⟨2, ![10000, 1]⟩

abbrev nBuf : Space → Nat
  | .hbm => 84
  | .vmem => 20
  | .smem => 0
  | _ => 0

abbrev bufTy : (tb : Table) → Fin (tcTables nBuf tb) → BufTy
  | .hbm, ⟨0, _⟩ => ⟨S100000x512, .f32⟩
  | .hbm, ⟨1, _⟩ => ⟨S512x16, .f32⟩
  | .hbm, ⟨2, _⟩ => ⟨S16, .f32⟩
  | .hbm, ⟨3, _⟩ => ⟨S16x40, .f32⟩
  | .hbm, ⟨4, _⟩ => ⟨S40, .f32⟩
  | .hbm, ⟨5, _⟩ => ⟨S2x3200000, .i32⟩
  | .hbm, ⟨6, _⟩ => ⟨S100000, .i32⟩
  | .hbm, ⟨7, _⟩ => ⟨S1x3200000, .i32⟩
  | .hbm, ⟨8, _⟩ => ⟨S3200000, .i32⟩
  | .hbm, ⟨9, _⟩ => ⟨S3300000, .i32⟩
  | .hbm, ⟨10, _⟩ => ⟨S1x3200000, .i32⟩
  | .hbm, ⟨11, _⟩ => ⟨S3200000, .i32⟩
  | .hbm, ⟨12, _⟩ => ⟨S3300000, .i32⟩
  | .hbm, ⟨13, _⟩ => ⟨S_, .f32⟩
  | .hbm, ⟨14, _⟩ => ⟨S3300000, .f32⟩
  | .hbm, ⟨15, _⟩ => ⟨S_, .f32⟩
  | .hbm, ⟨16, _⟩ => ⟨S100000, .f32⟩
  | .hbm, ⟨17, _⟩ => ⟨S3300000x1, .i32⟩
  | .hbm, ⟨18, _⟩ => ⟨S100000, .f32⟩
  | .hbm, ⟨19, _⟩ => ⟨S_, .f32⟩
  | .hbm, ⟨20, _⟩ => ⟨S100000, .f32⟩
  | .hbm, ⟨21, _⟩ => ⟨S100000, .i1⟩
  | .hbm, ⟨22, _⟩ => ⟨S100000, .f32⟩
  | .hbm, ⟨23, _⟩ => ⟨S_, .f32⟩
  | .hbm, ⟨24, _⟩ => ⟨S_, .f32⟩
  | .hbm, ⟨25, _⟩ => ⟨S100000, .f32⟩
  | .hbm, ⟨26, _⟩ => ⟨S100000, .f32⟩
  | .hbm, ⟨27, _⟩ => ⟨S_, .i32⟩
  | .hbm, ⟨28, _⟩ => ⟨S3300000, .i32⟩
  | .hbm, ⟨29, _⟩ => ⟨S3300000, .i1⟩
  | .hbm, ⟨30, _⟩ => ⟨S_, .i32⟩
  | .hbm, ⟨31, _⟩ => ⟨S3300000, .i32⟩
  | .hbm, ⟨32, _⟩ => ⟨S3300000, .i32⟩
  | .hbm, ⟨33, _⟩ => ⟨S3300000, .i32⟩
  | .hbm, ⟨34, _⟩ => ⟨S3300000x1, .i32⟩
  | .hbm, ⟨35, _⟩ => ⟨S3300000, .f32⟩
  | .hbm, ⟨36, _⟩ => ⟨S_, .i32⟩
  | .hbm, ⟨37, _⟩ => ⟨S3300000, .i32⟩
  | .hbm, ⟨38, _⟩ => ⟨S3300000, .i1⟩
  | .hbm, ⟨39, _⟩ => ⟨S_, .i32⟩
  | .hbm, ⟨40, _⟩ => ⟨S3300000, .i32⟩
  | .hbm, ⟨41, _⟩ => ⟨S3300000, .i32⟩
  | .hbm, ⟨42, _⟩ => ⟨S3300000, .i32⟩
  | .hbm, ⟨43, _⟩ => ⟨S3300000x1, .i32⟩
  | .hbm, ⟨44, _⟩ => ⟨S3300000, .f32⟩
  | .hbm, ⟨45, _⟩ => ⟨S3300000, .f32⟩
  | .hbm, ⟨46, _⟩ => ⟨S100000x16, .f32⟩
  | .hbm, ⟨47, _⟩ => ⟨S_, .i32⟩
  | .hbm, ⟨48, _⟩ => ⟨S3300000, .i32⟩
  | .hbm, ⟨49, _⟩ => ⟨S3300000, .i1⟩
  | .hbm, ⟨50, _⟩ => ⟨S_, .i32⟩
  | .hbm, ⟨51, _⟩ => ⟨S3300000, .i32⟩
  | .hbm, ⟨52, _⟩ => ⟨S3300000, .i32⟩
  | .hbm, ⟨53, _⟩ => ⟨S3300000, .i32⟩
  | .hbm, ⟨54, _⟩ => ⟨S3300000x1, .i32⟩
  | .hbm, ⟨55, _⟩ => ⟨S3300000x16, .f32⟩
  | .hbm, ⟨56, _⟩ => ⟨S3300000x1, .f32⟩
  | .hbm, ⟨57, _⟩ => ⟨S3300000x16, .f32⟩
  | .hbm, ⟨58, _⟩ => ⟨S3300000x16, .f32⟩
  | .hbm, ⟨59, _⟩ => ⟨S_, .f32⟩
  | .hbm, ⟨60, _⟩ => ⟨S100000x16, .f32⟩
  | .hbm, ⟨61, _⟩ => ⟨S3300000x1, .i32⟩
  | .hbm, ⟨62, _⟩ => ⟨S100000x16, .f32⟩
  | .hbm, ⟨63, _⟩ => ⟨S1x16, .f32⟩
  | .hbm, ⟨64, _⟩ => ⟨S100000x16, .f32⟩
  | .hbm, ⟨65, _⟩ => ⟨S100000x40, .f32⟩
  | .hbm, ⟨66, _⟩ => ⟨S_, .i32⟩
  | .hbm, ⟨67, _⟩ => ⟨S3300000, .i32⟩
  | .hbm, ⟨68, _⟩ => ⟨S3300000, .i1⟩
  | .hbm, ⟨69, _⟩ => ⟨S_, .i32⟩
  | .hbm, ⟨70, _⟩ => ⟨S3300000, .i32⟩
  | .hbm, ⟨71, _⟩ => ⟨S3300000, .i32⟩
  | .hbm, ⟨72, _⟩ => ⟨S3300000, .i32⟩
  | .hbm, ⟨73, _⟩ => ⟨S3300000x1, .i32⟩
  | .hbm, ⟨74, _⟩ => ⟨S3300000x40, .f32⟩
  | .hbm, ⟨75, _⟩ => ⟨S3300000x1, .f32⟩
  | .hbm, ⟨76, _⟩ => ⟨S3300000x40, .f32⟩
  | .hbm, ⟨77, _⟩ => ⟨S3300000x40, .f32⟩
  | .hbm, ⟨78, _⟩ => ⟨S_, .f32⟩
  | .hbm, ⟨79, _⟩ => ⟨S100000x40, .f32⟩
  | .hbm, ⟨80, _⟩ => ⟨S3300000x1, .i32⟩
  | .hbm, ⟨81, _⟩ => ⟨S100000x40, .f32⟩
  | .hbm, ⟨82, _⟩ => ⟨S1x40, .f32⟩
  | .hbm, ⟨83, _⟩ => ⟨S100000x40, .f32⟩
  | .local _ .vmem, ⟨0, _⟩ => ⟨S2000x512, .f32⟩
  | .local _ .vmem, ⟨1, _⟩ => ⟨S2000x512, .f32⟩
  | .local _ .vmem, ⟨2, _⟩ => ⟨S512x16, .f32⟩
  | .local _ .vmem, ⟨3, _⟩ => ⟨S2000x16, .f32⟩
  | .local _ .vmem, ⟨4, _⟩ => ⟨S2000x16, .f32⟩
  | .local _ .vmem, ⟨5, _⟩ => ⟨S10000x16, .f32⟩
  | .local _ .vmem, ⟨6, _⟩ => ⟨S10000x16, .f32⟩
  | .local _ .vmem, ⟨7, _⟩ => ⟨S1x16, .f32⟩
  | .local _ .vmem, ⟨8, _⟩ => ⟨S10000x16, .f32⟩
  | .local _ .vmem, ⟨9, _⟩ => ⟨S10000x16, .f32⟩
  | .local _ .vmem, ⟨10, _⟩ => ⟨S10000x16, .f32⟩
  | .local _ .vmem, ⟨11, _⟩ => ⟨S10000x16, .f32⟩
  | .local _ .vmem, ⟨12, _⟩ => ⟨S16x40, .f32⟩
  | .local _ .vmem, ⟨13, _⟩ => ⟨S10000x40, .f32⟩
  | .local _ .vmem, ⟨14, _⟩ => ⟨S10000x40, .f32⟩
  | .local _ .vmem, ⟨15, _⟩ => ⟨S10000x40, .f32⟩
  | .local _ .vmem, ⟨16, _⟩ => ⟨S10000x40, .f32⟩
  | .local _ .vmem, ⟨17, _⟩ => ⟨S1x40, .f32⟩
  | .local _ .vmem, ⟨18, _⟩ => ⟨S10000x40, .f32⟩
  | .local _ .vmem, ⟨19, _⟩ => ⟨S10000x40, .f32⟩
  | _, _ => ⟨S100000x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst : Ref sig .tc := ⟨.hbm, 13, rfl⟩
abbrev main_v7 : Ref sig .tc := ⟨.hbm, 14, rfl⟩
abbrev main_cst_0 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_1 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_cst_2 : Ref sig .tc := ⟨.hbm, 23, rfl⟩
abbrev main_call0_v0 : Ref sig .tc := ⟨.hbm, 24, rfl⟩
abbrev main_call0_v1 : Ref sig .tc := ⟨.hbm, 25, rfl⟩
abbrev main_v14 : Ref sig .tc := ⟨.hbm, 26, rfl⟩
abbrev main_c : Ref sig .tc := ⟨.hbm, 27, rfl⟩
abbrev main_v15 : Ref sig .tc := ⟨.hbm, 28, rfl⟩
abbrev main_v16 : Ref sig .tc := ⟨.hbm, 29, rfl⟩
abbrev main_c_3 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_c_4 : Ref sig .tc := ⟨.hbm, 36, rfl⟩
abbrev main_v22 : Ref sig .tc := ⟨.hbm, 37, rfl⟩
abbrev main_v23 : Ref sig .tc := ⟨.hbm, 38, rfl⟩
abbrev main_c_5 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_c_6 : Ref sig .tc := ⟨.hbm, 47, rfl⟩
abbrev main_v31 : Ref sig .tc := ⟨.hbm, 48, rfl⟩
abbrev main_v32 : Ref sig .tc := ⟨.hbm, 49, rfl⟩
abbrev main_c_7 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_cst_8 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_c_9 : Ref sig .tc := ⟨.hbm, 66, rfl⟩
abbrev main_v47 : Ref sig .tc := ⟨.hbm, 67, rfl⟩
abbrev main_v48 : Ref sig .tc := ⟨.hbm, 68, rfl⟩
abbrev main_c_10 : Ref sig .tc := ⟨.hbm, 69, rfl⟩
abbrev main_v49 : Ref sig .tc := ⟨.hbm, 70, rfl⟩
abbrev main_v50 : Ref sig .tc := ⟨.hbm, 71, rfl⟩
abbrev main_v51 : Ref sig .tc := ⟨.hbm, 72, rfl⟩
abbrev main_v52 : Ref sig .tc := ⟨.hbm, 73, rfl⟩
abbrev main_v53 : Ref sig .tc := ⟨.hbm, 74, rfl⟩
abbrev main_v54 : Ref sig .tc := ⟨.hbm, 75, rfl⟩
abbrev main_v55 : Ref sig .tc := ⟨.hbm, 76, rfl⟩
abbrev main_v56 : Ref sig .tc := ⟨.hbm, 77, rfl⟩
abbrev main_cst_11 : Ref sig .tc := ⟨.hbm, 78, rfl⟩
abbrev main_v57 : Ref sig .tc := ⟨.hbm, 79, rfl⟩
abbrev main_v58 : Ref sig .tc := ⟨.hbm, 80, rfl⟩
abbrev main_v59 : Ref sig .tc := ⟨.hbm, 81, rfl⟩
abbrev main_v60 : Ref sig .tc := ⟨.hbm, 82, rfl⟩
abbrev main_v61 : Ref sig .tc := ⟨.hbm, 83, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg2_1 : Ref sig .tc := ⟨.vmem, 9, rfl⟩
abbrev cc2_stg0_0 : Ref sig .tc := ⟨.vmem, 10, rfl⟩
abbrev cc2_stg0_1 : Ref sig .tc := ⟨.vmem, 11, rfl⟩
abbrev cc2_stg1_0 : Ref sig .tc := ⟨.vmem, 12, rfl⟩
abbrev cc2_stg2_0 : Ref sig .tc := ⟨.vmem, 13, rfl⟩
abbrev cc2_stg2_1 : Ref sig .tc := ⟨.vmem, 14, rfl⟩
abbrev cc3_stg0_0 : Ref sig .tc := ⟨.vmem, 15, rfl⟩
abbrev cc3_stg0_1 : Ref sig .tc := ⟨.vmem, 16, rfl⟩
abbrev cc3_stg1_0 : Ref sig .tc := ⟨.vmem, 17, rfl⟩
abbrev cc3_stg2_0 : Ref sig .tc := ⟨.vmem, 18, rfl⟩
abbrev cc3_stg2_1 : Ref sig .tc := ⟨.vmem, 19, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem2_1 : DmaSem sig := 9
abbrev cc2_sem0_0 : DmaSem sig := 10
abbrev cc2_sem0_1 : DmaSem sig := 11
abbrev cc2_sem1_0 : DmaSem sig := 12
abbrev cc2_sem2_0 : DmaSem sig := 13
abbrev cc2_sem2_1 : DmaSem sig := 14
abbrev cc3_sem0_0 : DmaSem sig := 15
abbrev cc3_sem0_1 : DmaSem sig := 16
abbrev cc3_sem1_0 : DmaSem sig := 17
abbrev cc3_sem2_0 : DmaSem sig := 18
abbrev cc3_sem2_1 : DmaSem sig := 19

abbrev nD : Nat := 1
abbrev τ : Topo := Topo.v7x

variable {F : FTy → Type} [FloatOps F]

abbrev grid0 : Pipeline.Grid := ⟨1, ![50], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2000x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S512x16 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S2000x16 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S10000x16 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1x16 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S10000x16 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev grid2 : Pipeline.Grid := ⟨1, ![10], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S10000x16 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S16x40 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 2 → Memref sig .tc .vmem S10000x40 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev grid3 : Pipeline.Grid := ⟨1, ![10], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S10000x40 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S1x40 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 2 → Memref sig .tc .vmem S10000x40 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

class Facts₀ : Prop where
  slices_S2x3200000_S1x3200000_0_0 : S2x3200000.Slices ![0, 0] S1x3200000
  shapeCasts_S1x3200000_S3200000 : S1x3200000.ShapeCasts S3200000
  concatenates_S3200000_S100000_S3300000_d0 : Shape.Concatenates [S3200000, S100000] S3300000 0
  slices_S2x3200000_S1x3200000_1_0 : S2x3200000.Slices ![1, 0] S1x3200000
  bcast_S_S3300000 : S_.BroadcastsInDim S3300000 (![] : Fin 0 → Fin S3300000.rank)
  bcast_S_S100000 : S_.BroadcastsInDim S100000 (![] : Fin 0 → Fin S100000.rank)
  bcast_S3300000_S3300000x1_0 : S3300000.BroadcastsInDim S3300000x1 (![0] : Fin 1 → Fin S3300000x1.rank)
  inb_S2000x512_S2000x512_0_0 : ∀ a, (![0, 0] : Fin 2 → Nat) a + S2000x512.size a ≤ S2000x512.size a
  h_S2000x512 : 0 < S2000x512.numel
  bitsLt_bf16_f32 : FTy.bits .bf16 < FTy.bits .f32
  inb_S512x16_S512x16_0_0 : ∀ a, (![0, 0] : Fin 2 → Nat) a + S512x16.size a ≤ S512x16.size a
  h_S512x16 : 0 < S512x16.numel
  inb_S2000x16_S2000x16_0_0 : ∀ a, (![0, 0] : Fin 2 → Nat) a + S2000x16.size a ≤ S2000x16.size a
  h_S2000x16 : 0 < S2000x16.numel
  bcast_S3300000x1_S3300000x16_0_1 : S3300000x1.BroadcastsInDim S3300000x16 (![0, 1] : Fin 2 → Fin S3300000x16.rank)
  bcast_S_S100000x16 : S_.BroadcastsInDim S100000x16 (![] : Fin 0 → Fin S100000x16.rank)
  shapeCasts_S16_S1x16 : S16.ShapeCasts S1x16
  inb_S10000x16_S10000x16_0_0 : ∀ a, (![0, 0] : Fin 2 → Nat) a + S10000x16.size a ≤ S10000x16.size a
  h_S10000x16 : 0 < S10000x16.numel
  shapeCasts_S10000x16_S10000x16 : S10000x16.ShapeCasts S10000x16
  inb_S1x16_S1x16_0_0 : ∀ a, (![0, 0] : Fin 2 → Nat) a + S1x16.size a ≤ S1x16.size a
  h_S1x16 : 0 < S1x16.numel
  shapeCasts_S1x16_S1x16 : S1x16.ShapeCasts S1x16
  broadcasts_S1x16_S10000x16 : S1x16.Broadcasts S10000x16
  inb_S16x40_S16x40_0_0 : ∀ a, (![0, 0] : Fin 2 → Nat) a + S16x40.size a ≤ S16x40.size a
  h_S16x40 : 0 < S16x40.numel
  inb_S10000x40_S10000x40_0_0 : ∀ a, (![0, 0] : Fin 2 → Nat) a + S10000x40.size a ≤ S10000x40.size a
  h_S10000x40 : 0 < S10000x40.numel
  bcast_S3300000x1_S3300000x40_0_1 : S3300000x1.BroadcastsInDim S3300000x40 (![0, 1] : Fin 2 → Fin S3300000x40.rank)
  bcast_S_S100000x40 : S_.BroadcastsInDim S100000x40 (![] : Fin 0 → Fin S100000x40.rank)
  shapeCasts_S40_S1x40 : S40.ShapeCasts S1x40
  shapeCasts_S10000x40_S10000x40 : S10000x40.ShapeCasts S10000x40
  inb_S1x40_S1x40_0_0 : ∀ a, (![0, 0] : Fin 2 → Nat) a + S1x40.size a ≤ S1x40.size a
  h_S1x40 : 0 < S1x40.numel
  shapeCasts_S1x40_S1x40 : S1x40.ShapeCasts S1x40
  broadcasts_S1x40_S10000x40 : S1x40.Broadcasts S10000x40
  reduces_S10000x40_S10000 : S10000x40.Reduces [1] S10000
  shapeCasts_S10000_S10000x1 : S10000.ShapeCasts S10000x1
  broadcasts_S10000x1_S10000x40 : S10000x1.Broadcasts S10000x40
  scatter_S100000_S3300000x1_S3300000_n_0_0_1_wf : ScatterDims.WF S100000 S3300000x1 S3300000 [] [0] [0] 1
  gather_S100000_S3300000x1_S3300000_n_0_n_n_0_1_1_wf : GatherDims.WF S100000 S3300000x1 S3300000 [] [0] [] [0] [] 1 ![1]
  dot_S2000x512_S512x16_S2000x16_1_0_0_1_n_n_wf : DotDims.WF S2000x512 S512x16 S2000x16 [1] [0] [0] [1] [] []
  gather_S100000x16_S3300000x1_S3300000x16_1_0_n_n_0_1_116_wf : GatherDims.WF S100000x16 S3300000x1 S3300000x16 [1] [0] [] [0] [] 1 ![1, 16]
  scatter_S100000x16_S3300000x1_S3300000x16_1_0_0_1_wf : ScatterDims.WF S100000x16 S3300000x1 S3300000x16 [1] [0] [0] 1
  dot_S10000x16_S16x40_S10000x40_1_0_0_1_n_n_wf : DotDims.WF S10000x16 S16x40 S10000x40 [1] [0] [0] [1] [] []
  gather_S100000x40_S3300000x1_S3300000x40_1_0_n_n_0_1_140_wf : GatherDims.WF S100000x40 S3300000x1 S3300000x40 [1] [0] [] [0] [] 1 ![1, 40]
  scatter_S100000x40_S3300000x1_S3300000x40_1_0_0_1_wf : ScatterDims.WF S100000x40 S3300000x1 S3300000x40 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x512.size a ≤ S100000x512.size a
  hwx0_0 : ∀ i : grid0.Coords, EltTy.bits .f32 = 32 ∨ (Rect.block (s := S100000x512) S2000x512.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S512x16.size a ≤ S512x16.size a
  hwx0_1 : ∀ i : grid0.Coords, EltTy.bits .f32 = 32 ∨ (Rect.block (s := S512x16) S512x16.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S2000x16.size a ≤ S100000x16.size a
  hwx0_2 : ∀ i : grid0.Coords, EltTy.bits .f32 = 32 ∨ (Rect.block (s := S100000x16) S2000x16.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S10000x16.size a ≤ S100000x16.size a
  hwx1_0 : ∀ i : grid1.Coords, EltTy.bits .f32 = 32 ∨ (Rect.block (s := S100000x16) S10000x16.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1x16.size a ≤ S1x16.size a
  hwx1_1 : ∀ i : grid1.Coords, EltTy.bits .f32 = 32 ∨ (Rect.block (s := S1x16) S1x16.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S10000x16.size a ≤ S100000x16.size a
  hwx1_2 : ∀ i : grid1.Coords, EltTy.bits .f32 = 32 ∨ (Rect.block (s := S100000x16) S10000x16.size (cc1_transform_2 i) (hinb1_2 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S10000x16.size a ≤ S100000x16.size a
  hwx2_0 : ∀ i : grid2.Coords, EltTy.bits .f32 = 32 ∨ (Rect.block (s := S100000x16) S10000x16.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S16x40.size a ≤ S16x40.size a
  hwx2_1 : ∀ i : grid2.Coords, EltTy.bits .f32 = 32 ∨ (Rect.block (s := S16x40) S16x40.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S10000x40.size a ≤ S100000x40.size a
  hwx2_2 : ∀ i : grid2.Coords, EltTy.bits .f32 = 32 ∨ (Rect.block (s := S100000x40) S10000x40.size (cc2_transform_2 i) (hinb2_2 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S10000x40.size a ≤ S100000x40.size a
  hwx3_0 : ∀ i : grid3.Coords, EltTy.bits .f32 = 32 ∨ (Rect.block (s := S100000x40) S10000x40.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S1x40.size a ≤ S1x40.size a
  hwx3_1 : ∀ i : grid3.Coords, EltTy.bits .f32 = 32 ∨ (Rect.block (s := S1x40) S1x40.size (cc3_transform_1 i) (hinb3_1 i)).WholeWords (EltTy.packing .f32)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S10000x40.size a ≤ S100000x40.size a
  hwx3_2 : ∀ i : grid3.Coords, EltTy.bits .f32 = 32 ∨ (Rect.block (s := S100000x40) S10000x40.size (cc3_transform_2 i) (hinb3_2 i)).WholeWords (EltTy.packing .f32)

variable [Facts₀]

def scatter_S100000_S3300000x1_S3300000_n_0_0_1 : ScatterDims S100000 S3300000x1 S3300000 where
  updateWindowDims := []
  insertedWindowDims := [0]
  scatterDimsToOperandDims := [0]
  indexVectorDim := 1
  wf := scatter_S100000_S3300000x1_S3300000_n_0_0_1_wf
def gather_S100000_S3300000x1_S3300000_n_0_n_n_0_1_1 : GatherDims S100000 S3300000x1 S3300000 where
  offsetDims := []
  collapsedSliceDims := [0]
  operandBatchingDims := []
  startIndicesBatchingDims := []
  startIndexMap := [0]
  indexVectorDim := 1
  sliceSizes := ![1]
  wf := gather_S100000_S3300000x1_S3300000_n_0_n_n_0_1_1_wf
def dot_S2000x512_S512x16_S2000x16_1_0_0_1_n_n : DotDims S2000x512 S512x16 S2000x16 where
  lhsContracting := [1]
  rhsContracting := [0]
  lhsNonContracting := [0]
  rhsNonContracting := [1]
  lhsBatch := []
  rhsBatch := []
  wf := dot_S2000x512_S512x16_S2000x16_1_0_0_1_n_n_wf
def gather_S100000x16_S3300000x1_S3300000x16_1_0_n_n_0_1_116 : GatherDims S100000x16 S3300000x1 S3300000x16 where
  offsetDims := [1]
  collapsedSliceDims := [0]
  operandBatchingDims := []
  startIndicesBatchingDims := []
  startIndexMap := [0]
  indexVectorDim := 1
  sliceSizes := ![1, 16]
  wf := gather_S100000x16_S3300000x1_S3300000x16_1_0_n_n_0_1_116_wf
def scatter_S100000x16_S3300000x1_S3300000x16_1_0_0_1 : ScatterDims S100000x16 S3300000x1 S3300000x16 where
  updateWindowDims := [1]
  insertedWindowDims := [0]
  scatterDimsToOperandDims := [0]
  indexVectorDim := 1
  wf := scatter_S100000x16_S3300000x1_S3300000x16_1_0_0_1_wf
def dot_S10000x16_S16x40_S10000x40_1_0_0_1_n_n : DotDims S10000x16 S16x40 S10000x40 where
  lhsContracting := [1]
  rhsContracting := [0]
  lhsNonContracting := [0]
  rhsNonContracting := [1]
  lhsBatch := []
  rhsBatch := []
  wf := dot_S10000x16_S16x40_S10000x40_1_0_0_1_n_n_wf
def gather_S100000x40_S3300000x1_S3300000x40_1_0_n_n_0_1_140 : GatherDims S100000x40 S3300000x1 S3300000x40 where
  offsetDims := [1]
  collapsedSliceDims := [0]
  operandBatchingDims := []
  startIndicesBatchingDims := []
  startIndexMap := [0]
  indexVectorDim := 1
  sliceSizes := ![1, 40]
  wf := gather_S100000x40_S3300000x1_S3300000x40_1_0_n_n_0_1_140_wf
def scatter_S100000x40_S3300000x1_S3300000x40_1_0_0_1 : ScatterDims S100000x40 S3300000x1 S3300000x40 where
  updateWindowDims := [1]
  insertedWindowDims := [0]
  scatterDimsToOperandDims := [0]
  indexVectorDim := 1
  wf := scatter_S100000x40_S3300000x1_S3300000x40_1_0_0_1_wf

abbrev win0_0 : Pipeline.Window sig grid0 :=
  Pipeline.Window.ofSpec (Memref.whole main_arg0) S2000x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S512x16.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v30) S2000x16.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v43) S10000x16.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v44) S1x16.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v45) S10000x16.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

abbrev win2_0 : Pipeline.Window sig grid2 :=
  Pipeline.Window.ofSpec (Memref.whole main_v45) S10000x16.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_arg3) S16x40.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v46) S10000x40.size cc2_transform_2 reads2_2 true false 2 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

abbrev win3_0 : Pipeline.Window sig grid3 :=
  Pipeline.Window.ofSpec (Memref.whole main_v59) S10000x40.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v60) S1x40.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v61) S10000x40.size cc3_transform_2 reads3_2 true false 2 stage3_2 sem3_2
    hrank3 hreads3_2 hinb3_2 nbuf3_2 (Memref.isWhole_whole _) hwx3_2 hstage3_2

abbrev win3 : Fin 3 → Pipeline.Window sig grid3 := fun | 0 => win3_0 | 1 => win3_1 | 2 => win3_2 | ⟨_ + 3, h⟩ => absurd h (Nat.not_lt.2 (Nat.le_add_left _ _))
abbrev spec3 : Fin 3 → Pipeline.WinSpec sig grid3.rank := fun w => (win3 w).toWinSpec

class Facts : Prop extends Facts₀ where

variable [Facts]
-- ==== ReferenceIdeal.lean ====
abbrev S100000x512 : Shape := ⟨2, ![100000, 512]⟩
abbrev S512x16 : Shape := ⟨2, ![512, 16]⟩
abbrev S16 : Shape := ⟨1, ![16]⟩
abbrev S16x40 : Shape := ⟨2, ![16, 40]⟩
abbrev S40 : Shape := ⟨1, ![40]⟩
abbrev S2x3200000 : Shape := ⟨2, ![2, 3200000]⟩
abbrev S100000 : Shape := ⟨1, ![100000]⟩
abbrev S1x3200000 : Shape := ⟨2, ![1, 3200000]⟩
abbrev S3200000 : Shape := ⟨1, ![3200000]⟩
abbrev S3300000 : Shape := ⟨1, ![3300000]⟩
abbrev S_ : Shape := ⟨0, ![]⟩
abbrev S3300000x1 : Shape := ⟨2, ![3300000, 1]⟩
abbrev S100000x16 : Shape := ⟨2, ![100000, 16]⟩
abbrev S3300000x16 : Shape := ⟨2, ![3300000, 16]⟩
abbrev S1x16 : Shape := ⟨2, ![1, 16]⟩
abbrev S100000x40 : Shape := ⟨2, ![100000, 40]⟩
abbrev S3300000x40 : Shape := ⟨2, ![3300000, 40]⟩
abbrev S1x40 : Shape := ⟨2, ![1, 40]⟩
abbrev S100000x1 : Shape := ⟨2, ![100000, 1]⟩

abbrev nBuf : Space → Nat
  | .hbm => 104
  | .vmem => 0
  | .smem => 0
  | _ => 0

abbrev bufTy : (tb : Table) → Fin (tcTables nBuf tb) → BufTy
  | .hbm, ⟨0, _⟩ => ⟨S100000x512, .f32⟩
  | .hbm, ⟨1, _⟩ => ⟨S512x16, .f32⟩
  | .hbm, ⟨2, _⟩ => ⟨S16, .f32⟩
  | .hbm, ⟨3, _⟩ => ⟨S16x40, .f32⟩
  | .hbm, ⟨4, _⟩ => ⟨S40, .f32⟩
  | .hbm, ⟨5, _⟩ => ⟨S2x3200000, .i32⟩
  | .hbm, ⟨6, _⟩ => ⟨S100000, .i32⟩
  | .hbm, ⟨7, _⟩ => ⟨S1x3200000, .i32⟩
  | .hbm, ⟨8, _⟩ => ⟨S3200000, .i32⟩
  | .hbm, ⟨9, _⟩ => ⟨S3300000, .i32⟩
  | .hbm, ⟨10, _⟩ => ⟨S1x3200000, .i32⟩
  | .hbm, ⟨11, _⟩ => ⟨S3200000, .i32⟩
  | .hbm, ⟨12, _⟩ => ⟨S3300000, .i32⟩
  | .hbm, ⟨13, _⟩ => ⟨S_, .f32⟩
  | .hbm, ⟨14, _⟩ => ⟨S3300000, .f32⟩
  | .hbm, ⟨15, _⟩ => ⟨S_, .f32⟩
  | .hbm, ⟨16, _⟩ => ⟨S100000, .f32⟩
  | .hbm, ⟨17, _⟩ => ⟨S3300000x1, .i32⟩
  | .hbm, ⟨18, _⟩ => ⟨S100000, .f32⟩
  | .hbm, ⟨19, _⟩ => ⟨S_, .f32⟩
  | .hbm, ⟨20, _⟩ => ⟨S100000, .f32⟩
  | .hbm, ⟨21, _⟩ => ⟨S100000, .i1⟩
  | .hbm, ⟨22, _⟩ => ⟨S100000, .f32⟩
  | .hbm, ⟨23, _⟩ => ⟨S_, .f32⟩
  | .hbm, ⟨24, _⟩ => ⟨S_, .f32⟩
  | .hbm, ⟨25, _⟩ => ⟨S100000, .f32⟩
  | .hbm, ⟨26, _⟩ => ⟨S100000, .f32⟩
  | .hbm, ⟨27, _⟩ => ⟨S_, .i32⟩
  | .hbm, ⟨28, _⟩ => ⟨S3300000, .i32⟩
  | .hbm, ⟨29, _⟩ => ⟨S3300000, .i1⟩
  | .hbm, ⟨30, _⟩ => ⟨S_, .i32⟩
  | .hbm, ⟨31, _⟩ => ⟨S3300000, .i32⟩
  | .hbm, ⟨32, _⟩ => ⟨S3300000, .i32⟩
  | .hbm, ⟨33, _⟩ => ⟨S3300000, .i32⟩
  | .hbm, ⟨34, _⟩ => ⟨S3300000x1, .i32⟩
  | .hbm, ⟨35, _⟩ => ⟨S3300000, .f32⟩
  | .hbm, ⟨36, _⟩ => ⟨S_, .i32⟩
  | .hbm, ⟨37, _⟩ => ⟨S3300000, .i32⟩
  | .hbm, ⟨38, _⟩ => ⟨S3300000, .i1⟩
  | .hbm, ⟨39, _⟩ => ⟨S_, .i32⟩
  | .hbm, ⟨40, _⟩ => ⟨S3300000, .i32⟩
  | .hbm, ⟨41, _⟩ => ⟨S3300000, .i32⟩
  | .hbm, ⟨42, _⟩ => ⟨S3300000, .i32⟩
  | .hbm, ⟨43, _⟩ => ⟨S3300000x1, .i32⟩
  | .hbm, ⟨44, _⟩ => ⟨S3300000, .f32⟩
  | .hbm, ⟨45, _⟩ => ⟨S3300000, .f32⟩
  | .hbm, ⟨46, _⟩ => ⟨S100000x16, .f32⟩
  | .hbm, ⟨47, _⟩ => ⟨S_, .i32⟩
  | .hbm, ⟨48, _⟩ => ⟨S3300000, .i32⟩
  | .hbm, ⟨49, _⟩ => ⟨S3300000, .i1⟩
  | .hbm, ⟨50, _⟩ => ⟨S_, .i32⟩
  | .hbm, ⟨51, _⟩ => ⟨S3300000, .i32⟩
  | .hbm, ⟨52, _⟩ => ⟨S3300000, .i32⟩
  | .hbm, ⟨53, _⟩ => ⟨S3300000, .i32⟩
  | .hbm, ⟨54, _⟩ => ⟨S3300000x1, .i32⟩
  | .hbm, ⟨55, _⟩ => ⟨S3300000x16, .f32⟩
  | .hbm, ⟨56, _⟩ => ⟨S3300000x1, .f32⟩
  | .hbm, ⟨57, _⟩ => ⟨S3300000x16, .f32⟩
  | .hbm, ⟨58, _⟩ => ⟨S3300000x16, .f32⟩
  | .hbm, ⟨59, _⟩ => ⟨S_, .f32⟩
  | .hbm, ⟨60, _⟩ => ⟨S100000x16, .f32⟩
  | .hbm, ⟨61, _⟩ => ⟨S3300000x1, .i32⟩
  | .hbm, ⟨62, _⟩ => ⟨S100000x16, .f32⟩
  | .hbm, ⟨63, _⟩ => ⟨S1x16, .f32⟩
  | .hbm, ⟨64, _⟩ => ⟨S100000x16, .f32⟩
  | .hbm, ⟨65, _⟩ => ⟨S100000x16, .f32⟩
  | .hbm, ⟨66, _⟩ => ⟨S_, .f32⟩
  | .hbm, ⟨67, _⟩ => ⟨S100000x16, .f32⟩
  | .hbm, ⟨68, _⟩ => ⟨S100000x16, .f32⟩
  | .hbm, ⟨69, _⟩ => ⟨S100000x40, .f32⟩
  | .hbm, ⟨70, _⟩ => ⟨S_, .i32⟩
  | .hbm, ⟨71, _⟩ => ⟨S3300000, .i32⟩
  | .hbm, ⟨72, _⟩ => ⟨S3300000, .i1⟩
  | .hbm, ⟨73, _⟩ => ⟨S_, .i32⟩
  | .hbm, ⟨74, _⟩ => ⟨S3300000, .i32⟩
  | .hbm, ⟨75, _⟩ => ⟨S3300000, .i32⟩
  | .hbm, ⟨76, _⟩ => ⟨S3300000, .i32⟩
  | .hbm, ⟨77, _⟩ => ⟨S3300000x1, .i32⟩
  | .hbm, ⟨78, _⟩ => ⟨S3300000x40, .f32⟩
  | .hbm, ⟨79, _⟩ => ⟨S3300000x1, .f32⟩
  | .hbm, ⟨80, _⟩ => ⟨S3300000x40, .f32⟩
  | .hbm, ⟨81, _⟩ => ⟨S3300000x40, .f32⟩
  | .hbm, ⟨82, _⟩ => ⟨S_, .f32⟩
  | .hbm, ⟨83, _⟩ => ⟨S100000x40, .f32⟩
  | .hbm, ⟨84, _⟩ => ⟨S3300000x1, .i32⟩
  | .hbm, ⟨85, _⟩ => ⟨S100000x40, .f32⟩
  | .hbm, ⟨86, _⟩ => ⟨S1x40, .f32⟩
  | .hbm, ⟨87, _⟩ => ⟨S100000x40, .f32⟩
  | .hbm, ⟨88, _⟩ => ⟨S100000x40, .f32⟩
  | .hbm, ⟨89, _⟩ => ⟨S_, .f32⟩
  | .hbm, ⟨90, _⟩ => ⟨S100000, .f32⟩
  | .hbm, ⟨91, _⟩ => ⟨S_, .f32⟩
  | .hbm, ⟨92, _⟩ => ⟨S100000, .f32⟩
  | .hbm, ⟨93, _⟩ => ⟨S100000, .f32⟩
  | .hbm, ⟨94, _⟩ => ⟨S100000x1, .f32⟩
  | .hbm, ⟨95, _⟩ => ⟨S100000x40, .f32⟩
  | .hbm, ⟨96, _⟩ => ⟨S100000x40, .f32⟩
  | .hbm, ⟨97, _⟩ => ⟨S100000x40, .f32⟩
  | .hbm, ⟨98, _⟩ => ⟨S_, .f32⟩
  | .hbm, ⟨99, _⟩ => ⟨S100000, .f32⟩
  | .hbm, ⟨100, _⟩ => ⟨S100000x1, .f32⟩
  | .hbm, ⟨101, _⟩ => ⟨S100000x1, .f32⟩
  | .hbm, ⟨102, _⟩ => ⟨S100000x40, .f32⟩
  | .hbm, ⟨103, _⟩ => ⟨S100000x40, .f32⟩
  | _, _ => ⟨S100000x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst : Ref sig .tc := ⟨.hbm, 13, rfl⟩
abbrev main_v7 : Ref sig .tc := ⟨.hbm, 14, rfl⟩
abbrev main_cst_0 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_1 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_cst_2 : Ref sig .tc := ⟨.hbm, 23, rfl⟩
abbrev main_call0_v0 : Ref sig .tc := ⟨.hbm, 24, rfl⟩
abbrev main_call0_v1 : Ref sig .tc := ⟨.hbm, 25, rfl⟩
abbrev main_v14 : Ref sig .tc := ⟨.hbm, 26, rfl⟩
abbrev main_c : Ref sig .tc := ⟨.hbm, 27, rfl⟩
abbrev main_v15 : Ref sig .tc := ⟨.hbm, 28, rfl⟩
abbrev main_v16 : Ref sig .tc := ⟨.hbm, 29, rfl⟩
abbrev main_c_3 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_c_4 : Ref sig .tc := ⟨.hbm, 36, rfl⟩
abbrev main_v22 : Ref sig .tc := ⟨.hbm, 37, rfl⟩
abbrev main_v23 : Ref sig .tc := ⟨.hbm, 38, rfl⟩
abbrev main_c_5 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_c_6 : Ref sig .tc := ⟨.hbm, 47, rfl⟩
abbrev main_v31 : Ref sig .tc := ⟨.hbm, 48, rfl⟩
abbrev main_v32 : Ref sig .tc := ⟨.hbm, 49, rfl⟩
abbrev main_c_7 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_cst_8 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_call1_cst : Ref sig .tc := ⟨.hbm, 66, rfl⟩
abbrev main_call1_v0 : Ref sig .tc := ⟨.hbm, 67, rfl⟩
abbrev main_v47 : Ref sig .tc := ⟨.hbm, 68, rfl⟩
abbrev main_v48 : Ref sig .tc := ⟨.hbm, 69, rfl⟩
abbrev main_c_9 : Ref sig .tc := ⟨.hbm, 70, rfl⟩
abbrev main_v49 : Ref sig .tc := ⟨.hbm, 71, rfl⟩
abbrev main_v50 : Ref sig .tc := ⟨.hbm, 72, rfl⟩
abbrev main_c_10 : Ref sig .tc := ⟨.hbm, 73, rfl⟩
abbrev main_v51 : Ref sig .tc := ⟨.hbm, 74, rfl⟩
abbrev main_v52 : Ref sig .tc := ⟨.hbm, 75, rfl⟩
abbrev main_v53 : Ref sig .tc := ⟨.hbm, 76, rfl⟩
abbrev main_v54 : Ref sig .tc := ⟨.hbm, 77, rfl⟩
abbrev main_v55 : Ref sig .tc := ⟨.hbm, 78, rfl⟩
abbrev main_v56 : Ref sig .tc := ⟨.hbm, 79, rfl⟩
abbrev main_v57 : Ref sig .tc := ⟨.hbm, 80, rfl⟩
abbrev main_v58 : Ref sig .tc := ⟨.hbm, 81, rfl⟩
abbrev main_cst_11 : Ref sig .tc := ⟨.hbm, 82, rfl⟩
abbrev main_v59 : Ref sig .tc := ⟨.hbm, 83, rfl⟩
abbrev main_v60 : Ref sig .tc := ⟨.hbm, 84, rfl⟩
abbrev main_v61 : Ref sig .tc := ⟨.hbm, 85, rfl⟩
abbrev main_v62 : Ref sig .tc := ⟨.hbm, 86, rfl⟩
abbrev main_v63 : Ref sig .tc := ⟨.hbm, 87, rfl⟩
abbrev main_v64 : Ref sig .tc := ⟨.hbm, 88, rfl⟩
abbrev main_call2_cst : Ref sig .tc := ⟨.hbm, 89, rfl⟩
abbrev main_call2_v0 : Ref sig .tc := ⟨.hbm, 90, rfl⟩
abbrev main_call2_cst_0 : Ref sig .tc := ⟨.hbm, 91, rfl⟩
abbrev main_call2_v1 : Ref sig .tc := ⟨.hbm, 92, rfl⟩
abbrev main_call2_v2 : Ref sig .tc := ⟨.hbm, 93, rfl⟩
abbrev main_call2_v3 : Ref sig .tc := ⟨.hbm, 94, rfl⟩
abbrev main_call2_v4 : Ref sig .tc := ⟨.hbm, 95, rfl⟩
abbrev main_call2_v5 : Ref sig .tc := ⟨.hbm, 96, rfl⟩
abbrev main_call2_v6 : Ref sig .tc := ⟨.hbm, 97, rfl⟩
abbrev main_call2_cst_1 : Ref sig .tc := ⟨.hbm, 98, rfl⟩
abbrev main_call2_v7 : Ref sig .tc := ⟨.hbm, 99, rfl⟩
abbrev main_call2_v8 : Ref sig .tc := ⟨.hbm, 100, rfl⟩
abbrev main_call2_v9 : Ref sig .tc := ⟨.hbm, 101, rfl⟩
abbrev main_call2_v10 : Ref sig .tc := ⟨.hbm, 102, rfl⟩
abbrev main_v65 : Ref sig .tc := ⟨.hbm, 103, rfl⟩

abbrev nD : Nat := 1
abbrev τ : Topo := Topo.v7x

variable {F : FTy → Type} [FloatOps F]

class Facts₀ : Prop where
  slices_S2x3200000_S1x3200000_0_0 : S2x3200000.Slices ![0, 0] S1x3200000
  shapeCasts_S1x3200000_S3200000 : S1x3200000.ShapeCasts S3200000
  concatenates_S3200000_S100000_S3300000_d0 : Shape.Concatenates [S3200000, S100000] S3300000 0
  slices_S2x3200000_S1x3200000_1_0 : S2x3200000.Slices ![1, 0] S1x3200000
  bcast_S_S3300000 : S_.BroadcastsInDim S3300000 (![] : Fin 0 → Fin S3300000.rank)
  bcast_S_S100000 : S_.BroadcastsInDim S100000 (![] : Fin 0 → Fin S100000.rank)
  bcast_S3300000_S3300000x1_0 : S3300000.BroadcastsInDim S3300000x1 (![0] : Fin 1 → Fin S3300000x1.rank)
  bcast_S3300000x1_S3300000x16_0_1 : S3300000x1.BroadcastsInDim S3300000x16 (![0, 1] : Fin 2 → Fin S3300000x16.rank)
  bcast_S_S100000x16 : S_.BroadcastsInDim S100000x16 (![] : Fin 0 → Fin S100000x16.rank)
  bcast_S16_S1x16_1 : S16.BroadcastsInDim S1x16 (![1] : Fin 1 → Fin S1x16.rank)
  bcast_S1x16_S100000x16_0_1 : S1x16.BroadcastsInDim S100000x16 (![0, 1] : Fin 2 → Fin S100000x16.rank)
  bcast_S3300000x1_S3300000x40_0_1 : S3300000x1.BroadcastsInDim S3300000x40 (![0, 1] : Fin 2 → Fin S3300000x40.rank)
  bcast_S_S100000x40 : S_.BroadcastsInDim S100000x40 (![] : Fin 0 → Fin S100000x40.rank)
  bcast_S40_S1x40_1 : S40.BroadcastsInDim S1x40 (![1] : Fin 1 → Fin S1x40.rank)
  bcast_S1x40_S100000x40_0_1 : S1x40.BroadcastsInDim S100000x40 (![0, 1] : Fin 2 → Fin S100000x40.rank)
  reducesTo_S100000x40_S100000_d1 : S100000x40.ReducesTo [1] S100000
  h_S_ : 0 < S_.numel
  bcast_S100000_S100000x1_0 : S100000.BroadcastsInDim S100000x1 (![0] : Fin 1 → Fin S100000x1.rank)
  bcast_S100000x1_S100000x40_0_1 : S100000x1.BroadcastsInDim S100000x40 (![0, 1] : Fin 2 → Fin S100000x40.rank)
  scatter_S100000_S3300000x1_S3300000_n_0_0_1_wf : ScatterDims.WF S100000 S3300000x1 S3300000 [] [0] [0] 1
  gather_S100000_S3300000x1_S3300000_n_0_n_n_0_1_1_wf : GatherDims.WF S100000 S3300000x1 S3300000 [] [0] [] [0] [] 1 ![1]
  dot_S100000x512_S512x16_S100000x16_1_0_0_1_n_n_wf : DotDims.WF S100000x512 S512x16 S100000x16 [1] [0] [0] [1] [] []
  gather_S100000x16_S3300000x1_S3300000x16_1_0_n_n_0_1_116_wf : GatherDims.WF S100000x16 S3300000x1 S3300000x16 [1] [0] [] [0] [] 1 ![1, 16]
  scatter_S100000x16_S3300000x1_S3300000x16_1_0_0_1_wf : ScatterDims.WF S100000x16 S3300000x1 S3300000x16 [1] [0] [0] 1
  dot_S100000x16_S16x40_S100000x40_1_0_0_1_n_n_wf : DotDims.WF S100000x16 S16x40 S100000x40 [1] [0] [0] [1] [] []
  gather_S100000x40_S3300000x1_S3300000x40_1_0_n_n_0_1_140_wf : GatherDims.WF S100000x40 S3300000x1 S3300000x40 [1] [0] [] [0] [] 1 ![1, 40]
  scatter_S100000x40_S3300000x1_S3300000x40_1_0_0_1_wf : ScatterDims.WF S100000x40 S3300000x1 S3300000x40 [1] [0] [0] 1

variable [Facts₀]

def scatter_S100000_S3300000x1_S3300000_n_0_0_1 : ScatterDims S100000 S3300000x1 S3300000 where
  updateWindowDims := []
  insertedWindowDims := [0]
  scatterDimsToOperandDims := [0]
  indexVectorDim := 1
  wf := scatter_S100000_S3300000x1_S3300000_n_0_0_1_wf
def gather_S100000_S3300000x1_S3300000_n_0_n_n_0_1_1 : GatherDims S100000 S3300000x1 S3300000 where
  offsetDims := []
  collapsedSliceDims := [0]
  operandBatchingDims := []
  startIndicesBatchingDims := []
  startIndexMap := [0]
  indexVectorDim := 1
  sliceSizes := ![1]
  wf := gather_S100000_S3300000x1_S3300000_n_0_n_n_0_1_1_wf
def dot_S100000x512_S512x16_S100000x16_1_0_0_1_n_n : DotDims S100000x512 S512x16 S100000x16 where
  lhsContracting := [1]
  rhsContracting := [0]
  lhsNonContracting := [0]
  rhsNonContracting := [1]
  lhsBatch := []
  rhsBatch := []
  wf := dot_S100000x512_S512x16_S100000x16_1_0_0_1_n_n_wf
def gather_S100000x16_S3300000x1_S3300000x16_1_0_n_n_0_1_116 : GatherDims S100000x16 S3300000x1 S3300000x16 where
  offsetDims := [1]
  collapsedSliceDims := [0]
  operandBatchingDims := []
  startIndicesBatchingDims := []
  startIndexMap := [0]
  indexVectorDim := 1
  sliceSizes := ![1, 16]
  wf := gather_S100000x16_S3300000x1_S3300000x16_1_0_n_n_0_1_116_wf
def scatter_S100000x16_S3300000x1_S3300000x16_1_0_0_1 : ScatterDims S100000x16 S3300000x1 S3300000x16 where
  updateWindowDims := [1]
  insertedWindowDims := [0]
  scatterDimsToOperandDims := [0]
  indexVectorDim := 1
  wf := scatter_S100000x16_S3300000x1_S3300000x16_1_0_0_1_wf
def dot_S100000x16_S16x40_S100000x40_1_0_0_1_n_n : DotDims S100000x16 S16x40 S100000x40 where
  lhsContracting := [1]
  rhsContracting := [0]
  lhsNonContracting := [0]
  rhsNonContracting := [1]
  lhsBatch := []
  rhsBatch := []
  wf := dot_S100000x16_S16x40_S100000x40_1_0_0_1_n_n_wf
def gather_S100000x40_S3300000x1_S3300000x40_1_0_n_n_0_1_140 : GatherDims S100000x40 S3300000x1 S3300000x40 where
  offsetDims := [1]
  collapsedSliceDims := [0]
  operandBatchingDims := []
  startIndicesBatchingDims := []
  startIndexMap := [0]
  indexVectorDim := 1
  sliceSizes := ![1, 40]
  wf := gather_S100000x40_S3300000x1_S3300000x40_1_0_n_n_0_1_140_wf
def scatter_S100000x40_S3300000x1_S3300000x40_1_0_0_1 : ScatterDims S100000x40 S3300000x1 S3300000x40 where
  updateWindowDims := [1]
  insertedWindowDims := [0]
  scatterDimsToOperandDims := [0]
  indexVectorDim := 1
  wf := scatter_S100000x40_S3300000x1_S3300000x40_1_0_0_1_wf

class Facts : Prop extends Facts₀ where

variable [Facts]
-- ==== Proof.KernelRun.lean ====
/-
  The idealized kernel's run with its result named.

  The program is four grid-swept regions among stretches of host operations. Every weakly fair execution ends, without a
  fault, with every unscoped buffer at the contents the last boundary of that chain assigns it: in particular the result
  array, which is the last region's output, holds what that region's write-backs leave, and the six arguments hold what
  they were launched with.
-/
import proofs.«171940_j1838246003236_1_alg».proof.Proof.Gen.KernelIdeal.Frame

set_option maxRecDepth 16384

noncomputable section

namespace Cert.KernelIdeal.RunValue

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution terminates, nothing faulting, with the result array at the last boundary's contents and
    the argument arrays as launched. -/
theorem run_result : θ_run defs (onTc (τ := τ) (main (F := F))) ⟨m, fun _ => 0, ρ⟩ (fun r => ∀ c : Dev nD,
      r.2.mem ((c.tc : Thread nD τ).loc main_v61) = W9 m ρ c (Proc.devRef .tc main_v61)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W9 m ρ c b)
    (hfin := fun c s' => by
      iintro ⟨⟨Hh, -⟩, HSI⟩
      unfold StableHlo.held
      imodintro
      iapply (pointsTo_read_all (Pipeline.ucRefs τ sig) (fun b => (((c : Thread nD τ)).1, b)) (W9 m ρ c) s')
      isplitl [Hh] <;> iassumption)
    (hQ := fun s h c =>
      ⟨h c _ (mem_uc main_v61 (by decide)),
       (h c _ (mem_uc main_arg0 (by decide))).trans (W9_main_arg0 m ρ c),
       (h c _ (mem_uc main_arg1 (by decide))).trans (W9_main_arg1 m ρ c),
       (h c _ (mem_uc main_arg2 (by decide))).trans (W9_main_arg2 m ρ c),
       (h c _ (mem_uc main_arg3 (by decide))).trans (W9_main_arg3 m ρ c),
       (h c _ (mem_uc main_arg4 (by decide))).trans (W9_main_arg4 m ρ c),
       (h c _ (mem_uc main_arg5 (by decide))).trans (W9_main_arg5 m ρ c)⟩)

end Cert.KernelIdeal.RunValue

end
-- ==== Proof.KernelGlue.lean ====
/-
  The kernel program's host stretches, read against the reference's values.

  Between its four grid-swept regions the kernel program runs the same host operations as the reference: the graph's
  normalisation before the first region (source and destination lists with the self loops appended, the in-degrees, the
  edge weights) and one gather / scale / scatter-add aggregation before the second and before the fourth region. Each
  stretch is evaluated once, over an arbitrary entry valuation, as the operations' own term over the buffers the stretch
  reads from outside; the reference's value of the same buffer is that term by unfolding. A buffer that a stretch does not
  write, and that is no array of a region, is carried across unchanged.
-/
import proofs.«171940_j1838246003236_1_alg».proof.Proof.Gen.KernelIdeal.Frame
import proofs.«171940_j1838246003236_1_alg».proof.Proof.RefRead

set_option maxRecDepth 16384

noncomputable section

namespace Cert.KernelIdeal.Glue

open Cert.KernelIdeal Cert.KernelIdeal.Gen
open Idealize.ShloMosaic Idealize.ShloMosaic.TcCoe Idealize.ShloMosaic.Tactic
open Idealize.SL.Sem Idealize.ShloMosaic.StableHlo

/-- A buffer that no operation of the named stretch writes holds after the stretch what it held before. -/
local macro "host_keeps " ops:ident : tactic => `(tactic|
  exact StableHlo.after_of_forall_not_mem _ _ (List.forall_iff_forall_mem.mp (by
    simp only [$ops:ident, List.flatten_cons, List.flatten_nil, List.append_nil, List.cons_append,
      List.nil_append, List.Forall, StableHlo.nullary_writes, StableHlo.unary_writes, StableHlo.binary_writes,
      StableHlo.ternary_writes, StableHlo.quaternary_writes, StableHlo.reshape_writes, StableHlo.binaryIndexed_writes,
      Finset.mem_singleton]
    repeat' apply And.intro
    all_goals exact StableHlo.devRef_ne_of_ne (by decide))))

/-! ## Each stretch over an arbitrary entry valuation -/

section Stages

variable (W : Valuation τ sig (Elt Ideal))

/-! ### The first stretch: sources, destinations, in-degrees -/

/-- The source list with the self loops appended. -/
theorem s0_v3 : StableHlo.after hostOps0 W (Proc.devRef .tc main_v3)
    = Cert.ReferenceIdeal.Read.val_main_v3 (W (Proc.devRef .tc main_arg5)) := by
  simp only [hostOps0]
  after_results
  rfl

/-- The destination list with the self loops appended. -/
theorem s0_v6 : StableHlo.after hostOps0 W (Proc.devRef .tc main_v6)
    = Cert.ReferenceIdeal.Read.val_main_v6 (W (Proc.devRef .tc main_arg5)) := by
  simp only [hostOps0]
  after_results
  rfl

/-- Where the in-degree is positive. -/
theorem s0_v12 : StableHlo.after hostOps0 W (Proc.devRef .tc main_v12)
    = Cert.ReferenceIdeal.Read.val_main_v12 (W (Proc.devRef .tc main_arg5)) := by
  simp only [hostOps0]
  after_results
  rfl

/-- The in-degree's inverse square root. -/
theorem s0_v13 : StableHlo.after hostOps0 W (Proc.devRef .tc main_v13)
    = Cert.ReferenceIdeal.Read.val_main_v13 (W (Proc.devRef .tc main_arg5)) := by
  simp only [hostOps0]
  after_results
  rfl

/-- The default weight, zero. -/
theorem s0_cst_2 : StableHlo.after hostOps0 W (Proc.devRef .tc main_cst_2)
    = Cert.ReferenceIdeal.Read.val_main_cst_2 (F := Ideal) := by
  simp only [hostOps0]
  after_results
  rfl

/-! ### The second stretch: the call that selects the inverse square root where the in-degree is positive

The called function's operations move contents between a buffer's own type and the type the function is stated at; the
moves are identities, which is seen while the contents are still the valuation's, not yet the reference's long terms. -/

/-- The call as a function of the three buffers it reads. -/
theorem s1_v14_fn :
    StableHlo.after hostOps0_1 W (Proc.devRef .tc main_v14)
      = (select (W (Proc.devRef .tc main_v12)) (W (Proc.devRef .tc main_v13))
          (broadcastInDim S100000 ![] bcast_S_S100000 (id (W (Proc.devRef .tc main_cst_2))))
          : (⟨S100000, .f32⟩ : BufTy).Contents (Elt Ideal)) := by
  simp only [hostOps0_1]
  after_results
  rfl

/-- The per-node weight. -/
theorem s1_v14 (x5 : (⟨S2x3200000, .i32⟩ : BufTy).Contents (Elt Ideal))
    (h12 : W (Proc.devRef .tc main_v12) = Cert.ReferenceIdeal.Read.val_main_v12 x5)
    (h13 : W (Proc.devRef .tc main_v13) = Cert.ReferenceIdeal.Read.val_main_v13 x5)
    (hc2 : W (Proc.devRef .tc main_cst_2) = Cert.ReferenceIdeal.Read.val_main_cst_2 (F := Ideal)) :
    StableHlo.after hostOps0_1 W (Proc.devRef .tc main_v14) = Cert.ReferenceIdeal.Read.val_main_v14 x5 := by
  rw [s1_v14_fn, h12, h13, hc2]
  rfl

/-! ### The third stretch: the edge weights -/

/-- The edge weight: the product of its two end nodes' weights. -/
theorem s2_v29 (x5 : (⟨S2x3200000, .i32⟩ : BufTy).Contents (Elt Ideal))
    (h3 : W (Proc.devRef .tc main_v3) = Cert.ReferenceIdeal.Read.val_main_v3 x5)
    (h6 : W (Proc.devRef .tc main_v6) = Cert.ReferenceIdeal.Read.val_main_v6 x5)
    (h14 : W (Proc.devRef .tc main_v14) = Cert.ReferenceIdeal.Read.val_main_v14 x5) :
    StableHlo.after hostOps0_2 W (Proc.devRef .tc main_v29) = Cert.ReferenceIdeal.Read.val_main_v29 x5 := by
  simp only [hostOps0_2]
  after_results_simp
  rw [h3, h6, h14]
  rfl

/-! ### The stretch before the second region: the first aggregation, and the first bias as a row -/

/-- The first aggregation: gather the rows at the sources, scale by the edge weights, add up at the destinations. -/
theorem s3_v43 (x0 : (⟨S100000x512, .f32⟩ : BufTy).Contents (Elt Ideal)) (x1 : (⟨S512x16, .f32⟩ : BufTy).Contents (Elt Ideal))
    (x5 : (⟨S2x3200000, .i32⟩ : BufTy).Contents (Elt Ideal))
    (h30 : W (Proc.devRef .tc main_v30) = Cert.ReferenceIdeal.Read.val_main_v30 x0 x1)
    (h3 : W (Proc.devRef .tc main_v3) = Cert.ReferenceIdeal.Read.val_main_v3 x5)
    (h6 : W (Proc.devRef .tc main_v6) = Cert.ReferenceIdeal.Read.val_main_v6 x5)
    (h29 : W (Proc.devRef .tc main_v29) = Cert.ReferenceIdeal.Read.val_main_v29 x5) :
    StableHlo.after hostOps1 W (Proc.devRef .tc main_v43) = Cert.ReferenceIdeal.Read.val_main_v43 x0 x1 x5 := by
  simp only [hostOps1]
  after_results_simp
  rw [h30, h3, h6, h29]
  rfl

/-- The first bias, reshaped to one row. -/
theorem s3_v44 : StableHlo.after hostOps1 W (Proc.devRef .tc main_v44)
    = (shapeCast S1x16 (W (Proc.devRef .tc main_arg2)) shapeCasts_S16_S1x16 : (⟨S1x16, .f32⟩ : BufTy).Contents (Elt Ideal)) := by
  simp only [hostOps1]
  after_results
  rfl

end Stages

/-! ## The run's boundaries -/

variable (m : (ℓ : Loc nD τ sig) → Buf (Elt Ideal) ℓ) (ρ : Dev nD → PrngReg) (c : Dev nD)

/-! ### What the three stretches before the first region leave -/

/-- The launch valuation at an argument is the launch memory there, so the first stretch's values are over the launched
    edge list. -/
theorem W1_v3 : W1 m ρ c (Proc.devRef .tc main_v3) = Cert.ReferenceIdeal.Read.val_main_v3 (m ((c : Thread nD τ).loc main_arg5)) :=
  s0_v3 (W0 m ρ c)
theorem W1_v6 : W1 m ρ c (Proc.devRef .tc main_v6) = Cert.ReferenceIdeal.Read.val_main_v6 (m ((c : Thread nD τ).loc main_arg5)) :=
  s0_v6 (W0 m ρ c)

theorem W2_v3 : W2 m ρ c (Proc.devRef .tc main_v3) = Cert.ReferenceIdeal.Read.val_main_v3 (m ((c : Thread nD τ).loc main_arg5)) :=
  (show W2 m ρ c (Proc.devRef .tc main_v3) = W1 m ρ c (Proc.devRef .tc main_v3) by host_keeps hostOps0_1).trans (W1_v3 m ρ c)
theorem W2_v6 : W2 m ρ c (Proc.devRef .tc main_v6) = Cert.ReferenceIdeal.Read.val_main_v6 (m ((c : Thread nD τ).loc main_arg5)) :=
  (show W2 m ρ c (Proc.devRef .tc main_v6) = W1 m ρ c (Proc.devRef .tc main_v6) by host_keeps hostOps0_1).trans (W1_v6 m ρ c)
theorem W2_v14 : W2 m ρ c (Proc.devRef .tc main_v14) = Cert.ReferenceIdeal.Read.val_main_v14 (m ((c : Thread nD τ).loc main_arg5)) :=
  s1_v14 (W1 m ρ c) _ (s0_v12 (W0 m ρ c)) (s0_v13 (W0 m ρ c)) (s0_cst_2 (W0 m ρ c))

/-- At the first region's entry: the source list. -/
theorem W3_v3 : W3 m ρ c (Proc.devRef .tc main_v3) = Cert.ReferenceIdeal.Read.val_main_v3 (m ((c : Thread nD τ).loc main_arg5)) :=
  (show W3 m ρ c (Proc.devRef .tc main_v3) = W2 m ρ c (Proc.devRef .tc main_v3) by host_keeps hostOps0_2).trans (W2_v3 m ρ c)
/-- At the first region's entry: the destination list. -/
theorem W3_v6 : W3 m ρ c (Proc.devRef .tc main_v6) = Cert.ReferenceIdeal.Read.val_main_v6 (m ((c : Thread nD τ).loc main_arg5)) :=
  (show W3 m ρ c (Proc.devRef .tc main_v6) = W2 m ρ c (Proc.devRef .tc main_v6) by host_keeps hostOps0_2).trans (W2_v6 m ρ c)
/-- At the first region's entry: the edge weights. -/
theorem W3_v29 : W3 m ρ c (Proc.devRef .tc main_v29) = Cert.ReferenceIdeal.Read.val_main_v29 (m ((c : Thread nD τ).loc main_arg5)) :=
  s2_v29 (W2 m ρ c) _ (W2_v3 m ρ c) (W2_v6 m ρ c) (W2_v14 m ρ c)

/-! ### The arguments at the first region's entry: as launched -/

theorem W3_arg0 : W3 m ρ c (Proc.devRef .tc main_arg0) = m ((c : Thread nD τ).loc main_arg0) :=
  calc W3 m ρ c (Proc.devRef .tc main_arg0)
    _ = W2 m ρ c (Proc.devRef .tc main_arg0) := by host_keeps hostOps0_2
    _ = W1 m ρ c (Proc.devRef .tc main_arg0) := by host_keeps hostOps0_1
    _ = W0 m ρ c (Proc.devRef .tc main_arg0) := by host_keeps hostOps0
    _ = m ((c : Thread nD τ).loc main_arg0) := rfl
theorem W3_arg1 : W3 m ρ c (Proc.devRef .tc main_arg1) = m ((c : Thread nD τ).loc main_arg1) :=
  calc W3 m ρ c (Proc.devRef .tc main_arg1)
    _ = W2 m ρ c (Proc.devRef .tc main_arg1) := by host_keeps hostOps0_2
    _ = W1 m ρ c (Proc.devRef .tc main_arg1) := by host_keeps hostOps0_1
    _ = W0 m ρ c (Proc.devRef .tc main_arg1) := by host_keeps hostOps0
    _ = m ((c : Thread nD τ).loc main_arg1) := rfl
theorem W3_arg2 : W3 m ρ c (Proc.devRef .tc main_arg2) = m ((c : Thread nD τ).loc main_arg2) :=
  calc W3 m ρ c (Proc.devRef .tc main_arg2)
    _ = W2 m ρ c (Proc.devRef .tc main_arg2) := by host_keeps hostOps0_2
    _ = W1 m ρ c (Proc.devRef .tc main_arg2) := by host_keeps hostOps0_1
    _ = W0 m ρ c (Proc.devRef .tc main_arg2) := by host_keeps hostOps0
    _ = m ((c : Thread nD τ).loc main_arg2) := rfl
theorem W3_arg3 : W3 m ρ c (Proc.devRef .tc main_arg3) = m ((c : Thread nD τ).loc main_arg3) :=
  calc W3 m ρ c (Proc.devRef .tc main_arg3)
    _ = W2 m ρ c (Proc.devRef .tc main_arg3) := by host_keeps hostOps0_2
    _ = W1 m ρ c (Proc.devRef .tc main_arg3) := by host_keeps hostOps0_1
    _ = W0 m ρ c (Proc.devRef .tc main_arg3) := by host_keeps hostOps0
    _ = m ((c : Thread nD τ).loc main_arg3) := rfl

/-- The first region reads the features as launched. -/
theorem V3_arg0 : V3 m ρ c main_arg0 = m ((c : Thread nD τ).loc main_arg0) := W3_arg0 m ρ c
/-- The first region reads the first layer's weights as launched. -/
theorem V3_arg1 : V3 m ρ c main_arg1 = m ((c : Thread nD τ).loc main_arg1) := W3_arg1 m ρ c

/-! ### The second region's entry -/

/-- The first aggregation of the first region's product, given that the product is the reference's. -/
theorem V5_v43
    (h : V4 m ρ c main_v30 = Cert.ReferenceIdeal.Read.val_main_v30 (m ((c : Thread nD τ).loc main_arg0)) (m ((c : Thread nD τ).loc main_arg1))) :
    V5 m ρ c main_v43 = Cert.ReferenceIdeal.Read.val_main_v43 (m ((c : Thread nD τ).loc main_arg0))
      (m ((c : Thread nD τ).loc main_arg1)) (m ((c : Thread nD τ).loc main_arg5)) :=
  s3_v43 (W4 m ρ c) _ _ _ h
    ((W4_of_ne m ρ c main_v3 (by decide)).trans (W3_v3 m ρ c))
    ((W4_of_ne m ρ c main_v6 (by decide)).trans (W3_v6 m ρ c))
    ((W4_of_ne m ρ c main_v29 (by decide)).trans (W3_v29 m ρ c))

/-- The first bias as one row. -/
theorem V5_v44 : V5 m ρ c main_v44
    = (shapeCast S1x16 (m ((c : Thread nD τ).loc main_arg2)) shapeCasts_S16_S1x16 : (⟨S1x16, .f32⟩ : BufTy).Contents (Elt Ideal)) :=
  (s3_v44 (W4 m ρ c)).trans
    (congrArg (fun X : (⟨S16, .f32⟩ : BufTy).Contents (Elt Ideal) =>
        (shapeCast S1x16 X shapeCasts_S16_S1x16 : (⟨S1x16, .f32⟩ : BufTy).Contents (Elt Ideal)))
      ((W4_of_ne m ρ c main_arg2 (by decide)).trans (W3_arg2 m ρ c)))

/-! ### The third region's entry -/

/-- The third region reads the second layer's weights as launched. -/
theorem V6_arg3 : V6 m ρ c main_arg3 = m ((c : Thread nD τ).loc main_arg3) :=
  calc W6 m ρ c (Proc.devRef .tc main_arg3)
    _ = W5 m ρ c (Proc.devRef .tc main_arg3) := W6_of_ne m ρ c main_arg3 (by decide)
    _ = W4 m ρ c (Proc.devRef .tc main_arg3) := by host_keeps hostOps1
    _ = W3 m ρ c (Proc.devRef .tc main_arg3) := W4_of_ne m ρ c main_arg3 (by decide)
    _ = m ((c : Thread nD τ).loc main_arg3) := W3_arg3 m ρ c

end Cert.KernelIdeal.Glue

end
-- ==== Proof.KernelGlue3.lean ====
/-
  The kernel program's last host stretch: what the log-softmax region finds in its two input arrays.

  Between the second matrix product and the log-softmax region the host recomputes the gather indices from the edge
  sources (a negative index wraps round by the row count), gathers those rows of the product, scales each gathered row
  by its edge's weight (the weight spread over the forty columns), and scatter-adds the scaled rows at the edge
  targets into an array of zeros; and it recasts the bias, a vector of forty, as one row. These are operation for
  operation the reference's own, so once the edge sources, targets and weights and the product are the reference's,
  the aggregated array is the reference's. The edge arrays are written before the first region and by nothing after,
  and the bias by nothing at all, so each is still what it was when the stretch starts.
-/
import proofs.«171940_j1838246003236_1_alg».proof.Proof.Gen.KernelIdeal.Frame
import proofs.«171940_j1838246003236_1_alg».proof.Proof.RefRead

noncomputable section

namespace Cert.KernelIdeal.Glue

open Cert.KernelIdeal Cert.KernelIdeal.Gen Idealize.ShloMosaic Idealize.ShloMosaic.TcCoe Idealize.SL.Sem Idealize.ShloMosaic.StableHlo

/-! ## The stretch over any contents it starts from -/

set_option maxHeartbeats 1000000 in
/-- From any contents `W` whose edge sources, targets and weights and whose second product are the reference's, the
    stretch leaves the reference's aggregated array: the seventeen operations read off one by one are the reference's. -/
theorem after_hostOps3_v59 (W : Valuation τ sig (Elt Ideal))
    (x0 : (⟨Cert.ReferenceIdeal.S100000x512, .f32⟩ : BufTy).Contents (Elt Ideal))
    (x1 : (⟨Cert.ReferenceIdeal.S512x16, .f32⟩ : BufTy).Contents (Elt Ideal))
    (x2 : (⟨Cert.ReferenceIdeal.S16, .f32⟩ : BufTy).Contents (Elt Ideal))
    (x3 : (⟨Cert.ReferenceIdeal.S16x40, .f32⟩ : BufTy).Contents (Elt Ideal))
    (x5 : (⟨Cert.ReferenceIdeal.S2x3200000, .i32⟩ : BufTy).Contents (Elt Ideal))
    (h3 : W (Proc.devRef .tc main_v3) = Cert.ReferenceIdeal.Read.val_main_v3 (F := Ideal) x5)
    (h6 : W (Proc.devRef .tc main_v6) = Cert.ReferenceIdeal.Read.val_main_v6 (F := Ideal) x5)
    (h29 : W (Proc.devRef .tc main_v29) = Cert.ReferenceIdeal.Read.val_main_v29 (F := Ideal) x5)
    (h46 : W (Proc.devRef .tc main_v46) = Cert.ReferenceIdeal.Read.val_main_v48 (F := Ideal) x0 x1 x2 x3 x5) :
    StableHlo.after (hostOps3 (F := Ideal)) W (Proc.devRef .tc main_v59)
      = Cert.ReferenceIdeal.Read.val_main_v61 (F := Ideal) x0 x1 x2 x3 x5 := by
  after_results_simp
  rw [h3, h6, h29, h46]
  rfl

/-- From any contents `W` the stretch leaves the bias recast as one row. -/
theorem after_hostOps3_v60 (W : Valuation τ sig (Elt Ideal)) :
    StableHlo.after (hostOps3 (F := Ideal)) W (Proc.devRef .tc main_v60)
      = shapeCast S1x40 (W (Proc.devRef .tc main_arg4)) Facts₀.shapeCasts_S40_S1x40 := by
  after_results
  rfl

/-! ## What the stretch starts from -/

section Carry

variable (m : (ℓ : Loc nD τ sig) → Buf (Elt Ideal) ℓ) (ρ : Dev nD → PrngReg) (c : Dev nD)

/-- A buffer that is no array of the first three regions and that the stretch between the first two does not write is,
    when the last stretch starts, what it was when the first region started. -/
theorem W7_eq_W3 (b : Ref sig .tc) (h0 : ∀ w, Pipeline.arrRef spec0 w ≠ b) (h1 : ∀ w, Pipeline.arrRef spec1 w ≠ b)
    (h2 : ∀ w, Pipeline.arrRef spec2 w ≠ b)
    (hops : ∀ op ∈ (hostOps1 (F := Ideal) : List (HloOp τ sig (Elt Ideal))), Proc.devRef .tc b ∉ op.writes) :
    W7 m ρ c (Proc.devRef .tc b) = W3 m ρ c (Proc.devRef .tc b) :=
  calc W7 m ρ c (Proc.devRef .tc b)
    _ = W6 m ρ c (Proc.devRef .tc b) := W7_of_ne m ρ c b h2
    _ = W5 m ρ c (Proc.devRef .tc b) := W6_of_ne m ρ c b h1
    _ = W4 m ρ c (Proc.devRef .tc b) := StableHlo.after_of_forall_not_mem (b := Proc.devRef .tc b) _ _ hops
    _ = W3 m ρ c (Proc.devRef .tc b) := W4_of_ne m ρ c b h0

/-- The edge sources when the last stretch starts. -/
theorem W7_v3 : W7 m ρ c (Proc.devRef .tc main_v3) = W3 m ρ c (Proc.devRef .tc main_v3) :=
  W7_eq_W3 m ρ c main_v3 (by decide) (by decide) (by decide) (List.forall_iff_forall_mem.mp (by
    simp only [hostOps1, List.flatten_cons, List.flatten_nil, List.append_nil, List.cons_append,
      List.nil_append, List.Forall, StableHlo.nullary_writes, StableHlo.unary_writes, StableHlo.binary_writes,
      StableHlo.ternary_writes, StableHlo.quaternary_writes, StableHlo.reshape_writes, StableHlo.binaryIndexed_writes,
      Finset.mem_singleton]
    repeat' apply And.intro
    all_goals exact StableHlo.devRef_ne_of_ne (by decide)))

/-- The edge targets when the last stretch starts. -/
theorem W7_v6 : W7 m ρ c (Proc.devRef .tc main_v6) = W3 m ρ c (Proc.devRef .tc main_v6) :=
  W7_eq_W3 m ρ c main_v6 (by decide) (by decide) (by decide) (List.forall_iff_forall_mem.mp (by
    simp only [hostOps1, List.flatten_cons, List.flatten_nil, List.append_nil, List.cons_append,
      List.nil_append, List.Forall, StableHlo.nullary_writes, StableHlo.unary_writes, StableHlo.binary_writes,
      StableHlo.ternary_writes, StableHlo.quaternary_writes, StableHlo.reshape_writes, StableHlo.binaryIndexed_writes,
      Finset.mem_singleton]
    repeat' apply And.intro
    all_goals exact StableHlo.devRef_ne_of_ne (by decide)))

/-- The edge weights when the last stretch starts. -/
theorem W7_v29 : W7 m ρ c (Proc.devRef .tc main_v29) = W3 m ρ c (Proc.devRef .tc main_v29) :=
  W7_eq_W3 m ρ c main_v29 (by decide) (by decide) (by decide) (List.forall_iff_forall_mem.mp (by
    simp only [hostOps1, List.flatten_cons, List.flatten_nil, List.append_nil, List.cons_append,
      List.nil_append, List.Forall, StableHlo.nullary_writes, StableHlo.unary_writes, StableHlo.binary_writes,
      StableHlo.ternary_writes, StableHlo.quaternary_writes, StableHlo.reshape_writes, StableHlo.binaryIndexed_writes,
      Finset.mem_singleton]
    repeat' apply And.intro
    all_goals exact StableHlo.devRef_ne_of_ne (by decide)))

/-- The bias when the last stretch starts: as launched. -/
theorem W7_main_arg4 : W7 m ρ c (Proc.devRef .tc main_arg4) = m ((c : Thread nD τ).loc main_arg4) :=
  calc W7 m ρ c (Proc.devRef .tc main_arg4)
    _ = W3 m ρ c (Proc.devRef .tc main_arg4) :=
        W7_eq_W3 m ρ c main_arg4 (by decide) (by decide) (by decide) (List.forall_iff_forall_mem.mp (by
    simp only [hostOps1, List.flatten_cons, List.flatten_nil, List.append_nil, List.cons_append,
      List.nil_append, List.Forall, StableHlo.nullary_writes, StableHlo.unary_writes, StableHlo.binary_writes,
      StableHlo.ternary_writes, StableHlo.quaternary_writes, StableHlo.reshape_writes, StableHlo.binaryIndexed_writes,
      Finset.mem_singleton]
    repeat' apply And.intro
    all_goals exact StableHlo.devRef_ne_of_ne (by decide)))
    _ = W2 m ρ c (Proc.devRef .tc main_arg4) :=
        StableHlo.after_of_forall_not_mem (b := Proc.devRef .tc main_arg4) _ _ (List.forall_iff_forall_mem.mp (by
    simp only [hostOps0_2, List.flatten_cons, List.flatten_nil, List.append_nil, List.cons_append,
      List.nil_append, List.Forall, StableHlo.nullary_writes, StableHlo.unary_writes, StableHlo.binary_writes,
      StableHlo.ternary_writes, StableHlo.quaternary_writes, StableHlo.reshape_writes, StableHlo.binaryIndexed_writes,
      Finset.mem_singleton]
    repeat' apply And.intro
    all_goals exact StableHlo.devRef_ne_of_ne (by decide)))
    _ = W1 m ρ c (Proc.devRef .tc main_arg4) :=
        StableHlo.after_of_forall_not_mem (b := Proc.devRef .tc main_arg4) _ _ (List.forall_iff_forall_mem.mp (by
    simp only [hostOps0_1, List.flatten_cons, List.flatten_nil, List.append_nil, List.cons_append,
      List.nil_append, List.Forall, StableHlo.nullary_writes, StableHlo.unary_writes, StableHlo.binary_writes,
      StableHlo.ternary_writes, StableHlo.quaternary_writes, StableHlo.reshape_writes, StableHlo.binaryIndexed_writes,
      Finset.mem_singleton]
    repeat' apply And.intro
    all_goals exact StableHlo.devRef_ne_of_ne (by decide)))
    _ = W0 m ρ c (Proc.devRef .tc main_arg4) :=
        StableHlo.after_of_forall_not_mem (b := Proc.devRef .tc main_arg4) _ _ (List.forall_iff_forall_mem.mp (by
    simp only [hostOps0, List.flatten_cons, List.flatten_nil, List.append_nil, List.cons_append,
      List.nil_append, List.Forall, StableHlo.nullary_writes, StableHlo.unary_writes, StableHlo.binary_writes,
      StableHlo.ternary_writes, StableHlo.quaternary_writes, StableHlo.reshape_writes, StableHlo.binaryIndexed_writes,
      Finset.mem_singleton]
    repeat' apply And.intro
    all_goals exact StableHlo.devRef_ne_of_ne (by decide)))
    _ = m ((c : Thread nD τ).loc main_arg4) := rfl

/-! ## The log-softmax region's two input arrays -/

/-- The aggregated array the log-softmax region reads is the reference's, once the edge arrays at the first region's
    entry and the second product at the third region's exit are the reference's. -/
theorem V8_v59
    (h3 : W3 m ρ c (Proc.devRef .tc main_v3) = Cert.ReferenceIdeal.Read.val_main_v3 (F := Ideal) (m ((c : Thread nD τ).loc main_arg5)))
    (h6 : W3 m ρ c (Proc.devRef .tc main_v6) = Cert.ReferenceIdeal.Read.val_main_v6 (F := Ideal) (m ((c : Thread nD τ).loc main_arg5)))
    (h29 : W3 m ρ c (Proc.devRef .tc main_v29) = Cert.ReferenceIdeal.Read.val_main_v29 (F := Ideal) (m ((c : Thread nD τ).loc main_arg5)))
    (h : V7 m ρ c main_v46 = Cert.ReferenceIdeal.Read.val_main_v48 (F := Ideal) (m ((c : Thread nD τ).loc main_arg0)) (m ((c : Thread nD τ).loc main_arg1)) (m ((c : Thread nD τ).loc main_arg2)) (m ((c : Thread nD τ).loc main_arg3)) (m ((c : Thread nD τ).loc main_arg5))) :
    V8 m ρ c main_v59 = Cert.ReferenceIdeal.Read.val_main_v61 (F := Ideal) (m ((c : Thread nD τ).loc main_arg0)) (m ((c : Thread nD τ).loc main_arg1)) (m ((c : Thread nD τ).loc main_arg2)) (m ((c : Thread nD τ).loc main_arg3)) (m ((c : Thread nD τ).loc main_arg5)) :=
  after_hostOps3_v59 (W7 m ρ c) _ _ _ _ _ ((W7_v3 m ρ c).trans h3) ((W7_v6 m ρ c).trans h6) ((W7_v29 m ρ c).trans h29) h

/-- The bias row the log-softmax region reads is the launched bias recast as one row. -/
theorem V8_v60 : V8 m ρ c main_v60 = shapeCast S1x40 (m ((c : Thread nD τ).loc main_arg4)) Facts₀.shapeCasts_S40_S1x40 := by
  show StableHlo.after (hostOps3 (F := Ideal)) (W7 m ρ c) (Proc.devRef .tc main_v60) = _
  rw [after_hostOps3_v60, W7_main_arg4]

end Carry

end Cert.KernelIdeal.Glue

end
-- ==== Proof.LibPlainMatmul.lean ====
/-
  A kernel's plain matrix product read at an entry, over the extended reals.

  An [m, k] by [k, n] product accumulated into the zero block has, at entry (a, b), the sum over the contracted
  coordinate c of A (a, c) · B (c, b): the exact contraction has no accumulator left in it (the extended reals have one
  zero) and is the same sum the host's product of the same operands is.
-/
import Idealize.ShloMosaic.Lib.StackMember
import Idealize.ShloMosaic.PureOps.Ideal.Laws

noncomputable section

namespace Cert.Lib

open Idealize.ShloMosaic Idealize.ShloMosaic.ValueIdx

/-- Entry (a, b) of an [m, k] × [k, n] matrix product into a zero accumulator is `∑ c, A (a, c) · B (c, b)`. -/
theorem matmul_plain_zero_apply {m k n : Nat} {φ₁ φ₂ : FTy} (prec : Option ContractPrecision)
    (A : FVec Ideal ⟨2, ![m, k]⟩ φ₁) (B : FVec Ideal ⟨2, ![k, n]⟩ φ₂) (a : Fin m) (b : Fin n) :
    matmul (DotDims.plain m k n) prec A B (constant ⟨2, ![m, n]⟩ .f32 0x00000000#32) (ix2 a b)
      = ∑ c : Fin k, A (ix2 a c) * B (ix2 c b) :=
  (Ideal.matmul_constant_zero_apply (DotDims.plain m k n) prec A B (ix2 a b)).trans
    ((Ideal.dotGeneral_apply (DotDims.plain m k n) prec default A B (ix2 a b)).symm.trans
      (StackMember.dotGeneral_plain_apply prec A B a b))

end Cert.Lib

end
-- ==== Proof.LibRowBlockProduct.lean ====
/-
  A block of rows of a matrix product, over the extended reals.

  Rows off, …, off + m - 1 of X · W depend on those rows of X and on all of W only: entry (off + a, b) of the whole
  product is the sum over the contracted coordinate c of X (off + a, c) · W (c, b), and that is entry (a, b) of the product
  of the m-row block of X with W. So a kernel that multiplies one block of rows at a time (accumulating into zero) writes,
  block by block, the host's one whole product. How a block sits in its array is left to three index maps, about which
  only their coordinates are assumed: the left block's and the result block's rows are shifted by `off`, nothing else
  moves.
-/
import proofs.«171940_j1838246003236_1_alg».proof.Proof.LibPlainMatmul

noncomputable section

namespace Cert.Lib

open Idealize.ShloMosaic Idealize.ShloMosaic.ValueIdx

/-- The product of an m-row block of `X` (rows `off …`) with `W`, accumulated into zero, read at a block index `j`, is the
    whole product `X · W` read where the result block puts `j`. -/
theorem plain_product_row_block {m M k n : Nat} {φ₁ φ₂ : FTy} (prec : Option ContractPrecision)
    (x : FVec Ideal ⟨2, ![m, k]⟩ φ₁) (w : FVec Ideal ⟨2, ![k, n]⟩ φ₂)
    (X : FVec Ideal ⟨2, ![M, k]⟩ φ₁) (W : FVec Ideal ⟨2, ![k, n]⟩ φ₂)
    (ex : (⟨2, ![m, k]⟩ : Shape).Idx → (⟨2, ![M, k]⟩ : Shape).Idx)
    (ew : (⟨2, ![k, n]⟩ : Shape).Idx → (⟨2, ![k, n]⟩ : Shape).Idx)
    (eo : (⟨2, ![m, n]⟩ : Shape).Idx → (⟨2, ![M, n]⟩ : Shape).Idx) (off : Nat)
    (hx : ∀ y, x y = X (ex y)) (hw : ∀ y, w y = W (ew y))
    (hex0 : ∀ y, (ex y 0).val = off + (y 0).val) (hex1 : ∀ y, (ex y 1).val = (y 1).val)
    (hew0 : ∀ y, (ew y 0).val = (y 0).val) (hew1 : ∀ y, (ew y 1).val = (y 1).val)
    (heo0 : ∀ y, (eo y 0).val = off + (y 0).val) (heo1 : ∀ y, (eo y 1).val = (y 1).val)
    (j : (⟨2, ![m, n]⟩ : Shape).Idx) :
    matmul (DotDims.plain m k n) prec x w (constant ⟨2, ![m, n]⟩ .f32 0x00000000#32) j
      = Host.dotGeneral (DotDims.plain M k n) prec X W (eo j) := by
  obtain ⟨a, b, rfl⟩ : ∃ (a : Fin m) (b : Fin n), j = ix2 a b := ⟨j 0, j 1, eq_ix2 j⟩
  -- where the result block puts (a, b): row off + a, column b
  obtain ⟨a', b', hab⟩ : ∃ (a' : Fin M) (b' : Fin n), eo (ix2 a b) = ix2 a' b' :=
    ⟨eo (ix2 a b) 0, eo (ix2 a b) 1, eq_ix2 _⟩
  have ha' : a'.val = off + a.val := by
    have := heo0 (ix2 a b); rw [hab] at this; exact this
  have hb' : b'.val = b.val := by
    have := heo1 (ix2 a b); rw [hab] at this; exact this
  rw [matmul_plain_zero_apply, hab, StackMember.dotGeneral_plain_apply]
  refine Finset.sum_congr rfl fun c _ => ?_
  rw [hx, hw]
  have e1 : ex (ix2 a c) = ix2 a' c := by
    funext q; apply Fin.ext
    match q with
    | ⟨0, _⟩ => exact (hex0 (ix2 a c)).trans ha'.symm
    | ⟨1, _⟩ => exact hex1 (ix2 a c)
  have e2 : ew (ix2 c b) = ix2 c b' := by
    funext q; apply Fin.ext
    match q with
    | ⟨0, _⟩ => exact hew0 (ix2 c b)
    | ⟨1, _⟩ => exact (hew1 (ix2 c b)).trans hb'.symm
  rw [e1, e2]

end Cert.Lib

end
-- ==== Proof.Region0.lean ====
/-
  The first dense product, as one function of its two arrays.

  The region sweeps fifty blocks of two thousand rows of the feature matrix. At each block it multiplies the block by the
  whole weight matrix, accumulating into zero, and writes the product back as the same rows of the output. Rows of a
  product depend on the same rows of the left factor only, and the blocks tile the rows, so afterwards the output array
  holds the one product of the whole feature matrix with the weights.
-/
import proofs.«171940_j1838246003236_1_alg».proof.Proof.Gen.KernelIdeal.Frame
import proofs.«171940_j1838246003236_1_alg».proof.Proof.LibRowBlockProduct
import Idealize.ShloMosaic.Lib.Pipeline.Value
import Idealize.ShloMosaic.Lib.ValueIdx

set_option maxRecDepth 16384

noncomputable section

namespace Cert.KernelIdeal.Blocks

open Cert.KernelIdeal Cert.KernelIdeal.Gen Idealize.ShloMosaic Idealize.ShloMosaic.TcCoe Idealize.ShloMosaic.ValueIdx Idealize.SL.Sem
open Idealize.ShloMosaic.Pipeline (Dat)

variable (V : (c : Dev nD) → (b : Ref sig .tc) → Buf (Elt Ideal) ((c : Thread nD τ).loc b))

theorem origin2_0 : (![0, 0] : Fin 2 → Nat) = fun _ => 0 := funext fun a => by fin_cases a <;> rfl

/-- The whole output of the region: the one product of the two whole arrays. -/
def product0 (X : S100000x512.Idx → EReal) (W : S512x16.Idx → EReal) : S100000x16.Idx → EReal :=
  Host.dotGeneral (F := Ideal) (φ₁ := .f32) (φ₂ := .f32) (DotDims.plain 100000 512 16) none X W

/-- The body's value on a block: the plain product of the block of rows with the whole right factor, accumulated into
    zero (a change of float format is the identity on the extended reals). -/
theorem k0_pay1_plain (x0 : Vec Ideal S2000x512 .f32) (x1 : Vec Ideal S512x16 .f32) :
    k0_pay1 x0 x1 = matmul (F := Ideal) (φ₁ := .f32) (φ₂ := .f32) (DotDims.plain 2000 512 16) none x0 x1 (constant ⟨2, ![2000, 16]⟩ .f32 0x00000000#32) := by
  unfold k0_pay1
  rfl

/-- The index maps over the blocks: the left factor and the output move together down the rows, the right factor
    stays. -/
theorem idx_facts0 : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

/-- What block `t` writes back is block `t` of the whole product. -/
theorem flushed0 (c : Dev nD) (t : Fin cfg0.N) :
    (dat0 V c).flushed 2 t = ((cfg0.win 2).blk t).view.read (Elt Ideal) (product0 (V c main_arg0) (V c main_arg1)) := by
  show (cfg0.win 2).cut (grid0.coords t) ((dat0 V c).after 2 t) = _
  rw [after0_2]
  unfold out0_2
  rw [View.canon_unit_zero origin2_0]
  simp only [View.ld_unit_zero (S := S2000x512) origin2_0, View.ld_unit_zero (S := S512x16) origin2_0]
  obtain ⟨e0, e1, e2, e3, e4, e5⟩ := idx_facts0 t
  funext j
  rw [k0_pay1_plain]
  exact Cert.Lib.plain_product_row_block (m := 2000) (M := 100000) (k := 512) (n := 16) none
    (iblk0 V c 0 t) (iblk0 V c 1 t) (V c main_arg0) (V c main_arg1)
    (fun y => ((cfg0.win 0).blk t).view.emb y) (fun y => ((cfg0.win 1).blk t).view.emb y)
    (fun y => ((cfg0.win 2).blk t).view.emb y) (t.val * 2000)
    (fun _ => rfl) (fun _ => rfl)
    (fun y => by show win0_0.index t (0 : Fin 2) * 2000 + 1 * (y 0).val = t.val * 2000 + (y 0).val; omega)
    (fun y => by show win0_0.index t (1 : Fin 2) * 512 + 1 * (y 1).val = (y 1).val; omega)
    (fun y => by show win0_1.index t (0 : Fin 2) * 512 + 1 * (y 0).val = (y 0).val; omega)
    (fun y => by show win0_1.index t (1 : Fin 2) * 16 + 1 * (y 1).val = (y 1).val; omega)
    (fun y => by show win0_2.index t (0 : Fin 2) * 2000 + 1 * (y 0).val = t.val * 2000 + (y 0).val; omega)
    (fun y => by show win0_2.index t (1 : Fin 2) * 16 + 1 * (y 1).val = (y 1).val; omega)
    j

/-- An index of the array is in block `t` iff each coordinate is in the block's range on its axis. -/
theorem mem_blk0 (t : Fin cfg0.N) (i : S100000x16.Idx) :
    i ∈ ((cfg0.win 2).blk t).view.set ↔ ∀ a : Fin 2, win0_2.index t a * S2000x16.size a ≤ (i a).val ∧ (i a).val < win0_2.index t a * S2000x16.size a + S2000x16.size a := by
  show i ∈ ((View.whole main_v30).slice (win0_2.rect t)).set ↔ _
  rw [View.set_slice_whole, Rect.mem_set_unit]
  exact Iff.rfl

/-- Every row lies in the block numbered by its quotient by the block's height. -/
theorem cover0 (i : S100000x16.Idx) : ∃ t : Fin cfg0.N, (cfg0.win 2).flush t = true ∧ i ∈ ((cfg0.win 2).blk t).view.set := by
  have hi0 : (i 0).val < 100000 := (i 0).isLt
  have hi1 : (i 1).val < 16 := (i 1).isLt
  have hN : grid0.N = 50 := N_0
  let t : Fin cfg0.N := ⟨(i 0).val / 2000, by show (i 0).val / 2000 < grid0.N; rw [hN]; omega⟩
  refine ⟨t, flush0_2 t, ?_⟩
  rw [mem_blk0]
  obtain ⟨e0, e1, e2, e3, e4, e5⟩ := idx_facts0 t
  have ht : t.val = (i 0).val / 2000 := rfl
  intro a
  match a with
  | ⟨0, _⟩ => show win0_2.index t (0 : Fin 2) * 2000 ≤ (i 0).val ∧ (i 0).val < win0_2.index t (0 : Fin 2) * 2000 + 2000; omega
  | ⟨1, _⟩ => show win0_2.index t (1 : Fin 2) * 16 ≤ (i 1).val ∧ (i 1).val < win0_2.index t (1 : Fin 2) * 16 + 16; omega

/-- The output array after the region: the whole product of the two arrays the region reads. -/
theorem final0 (c : Dev nD) : (dat0 V c).arrAt 2 cfg0.N = product0 (V c main_arg0) (V c main_arg1) :=
  (dat0 V c).arrAt_eq_of_cover 2 _ (fun t _ => flushed0 V c t) (cover0)

end Cert.KernelIdeal.Blocks

end
-- ==== Proof.Spec.lean ====
/-
  The two per-entry functions of a two-layer graph convolution's dense stages, over the extended reals.

  After the first aggregation every entry gets its column's bias added and is clamped below at zero. After the second,
  each row z (forty entries, the bias added) is replaced by its log-softmax: with M the largest entry of the row,
  entry q becomes (z q − M) − log (∑ₖ exp (z k − M)). Both the kernel and the reference compute exactly these, the
  kernel on blocks of rows and the reference on the whole array; the row's maximum is a fold of max from −∞ and the
  sum an ordinary finite sum, so no order of evaluation is left in either.
-/
import Idealize.ShloMosaic.PureOps.Ideal
import Idealize.ShloMosaic.Lib.ValueIdx

noncomputable section

namespace Cert.Gcn

open Idealize.ShloMosaic

/-- An aggregated entry with its bias added, clamped below at zero. -/
def biasRelu (a b : EReal) : EReal := max (a + b) (Ideal.ofBits .f32 0x00000000#32)

/-- The largest of a row's forty entries: the fold of max from −∞. -/
def rowMax (z : Fin 40 → EReal) : EReal :=
  (Finset.univ : Finset (Fin 40)).fold max (Ideal.ofBits .f32 0xFF800000#32) z

/-- Entry `q` of the log-softmax of a row `z`: shifted by the row's maximum, less the log of the shifted
    exponentials' sum. -/
def rowLogSoftmax (z : Fin 40 → EReal) (q : Fin 40) : EReal :=
  (z q - rowMax z) - Ideal.log (∑ k : Fin 40, Ideal.exp (z k - rowMax z))

end Cert.Gcn

end
-- ==== Proof.Region1.lean ====
/-
  The bias-and-clamp region, as one function of its two arrays.

  The region sweeps ten blocks of ten thousand rows. At each block every entry of the aggregated array gets the bias of
  its column added (the bias is one row, read whole at every block) and is clamped below at zero; the block is written
  back where it was read. The blocks tile the rows, so afterwards the whole output array holds, entry by entry, the
  clamp of the aggregated entry plus its column's bias.
-/
import proofs.«171940_j1838246003236_1_alg».proof.Proof.Gen.KernelIdeal.Frame
import proofs.«171940_j1838246003236_1_alg».proof.Proof.Spec
import Idealize.ShloMosaic.Lib.Pipeline.Value
import Idealize.ShloMosaic.Lib.ValueIdx
import Idealize.ShloMosaic.Lib.ValueLayout

set_option maxRecDepth 16384

noncomputable section

namespace Cert.KernelIdeal.Blocks

open Cert.KernelIdeal Cert.KernelIdeal.Gen Idealize.ShloMosaic Idealize.ShloMosaic.TcCoe Idealize.ShloMosaic.ValueIdx Idealize.SL.Sem
open Idealize.ShloMosaic.Pipeline (Dat)

variable (V : (c : Dev nD) → (b : Ref sig .tc) → Buf (Elt Ideal) ((c : Thread nD τ).loc b))

theorem origin2 : (![0, 0] : Fin 2 → Nat) = fun _ => 0 := funext fun a => by fin_cases a <;> rfl

/-- The whole output of the region: every aggregated entry with its column's bias, clamped at zero. -/
def biasRelu16 (a : S100000x16.Idx → EReal) (b : S1x16.Idx → EReal) : S100000x16.Idx → EReal :=
  fun i => Cert.Gcn.biasRelu (a i) (b (ix2 (0 : Fin 1) (⟨(i 1).val, (i 1).isLt⟩ : Fin 16)))

/-- The body's value at an entry of a block: the block's entry plus the bias of its column, clamped at zero. -/
theorem k1_pay1_apply (x0 : Vec Ideal S10000x16 .f32) (x1 : Vec Ideal S1x16 .f32) (j : S10000x16.Idx) :
    k1_pay1 x0 x1 j = Cert.Gcn.biasRelu (x0 j) (x1 (ix2 (0 : Fin 1) (⟨(j 1).val, (j 1).isLt⟩ : Fin 16))) := by
  obtain ⟨p, q, rfl⟩ : ∃ (p : Fin 10000) (q : Fin 16), j = ix2 p q := ⟨j 0, j 1, eq_ix2 j⟩
  unfold k1_pay1
  show max (shapeCast S10000x16 x0 shapeCasts_S10000x16_S10000x16 (ix2 p q)
      + broadcastTo S10000x16 (shapeCast S1x16 x1 shapeCasts_S1x16_S1x16) broadcasts_S1x16_S10000x16 (ix2 p q)) _ = _
  rw [shapeCast_self, shapeCast_self, broadcastTo_1b_ab_apply]
  rfl

/-- The index maps over the ten blocks: the aggregated array and the output move together down the rows, the bias
    stays. -/
theorem idx_facts1 : ∀ t : Fin cfg1.N, win1_0.index t (0 : Fin 2) = t.val ∧ win1_0.index t (1 : Fin 2) = 0
    ∧ win1_1.index t (0 : Fin 2) = 0 ∧ win1_1.index t (1 : Fin 2) = 0
    ∧ win1_2.index t (0 : Fin 2) = t.val ∧ win1_2.index t (1 : Fin 2) = 0 :=
  (by decide +kernel : ∀ t : Fin grid1.N, _)

/-- What block `t` writes back is block `t` of the whole-array function. -/
theorem flushed1 (c : Dev nD) (t : Fin cfg1.N) :
    (dat1 V c).flushed 2 t = ((cfg1.win 2).blk t).view.read (Elt Ideal) (biasRelu16 (V c main_v43) (V c main_v44)) := by
  show (cfg1.win 2).cut (grid1.coords t) ((dat1 V c).after 2 t) = _
  rw [after1_2]
  unfold out1_2
  rw [View.canon_unit_zero origin2]
  simp only [View.ld_unit_zero (S := S10000x16) origin2, View.ld_unit_zero (S := S1x16) origin2]
  obtain ⟨e0, e1, e2, e3, e4, e5⟩ := idx_facts1 t
  funext j
  refine (k1_pay1_apply _ _ j).trans ?_
  show Cert.Gcn.biasRelu (V c main_v43 (((cfg1.win 0).blk t).view.emb j))
      (V c main_v44 (((cfg1.win 1).blk t).view.emb (ix2 (0 : Fin 1) (⟨(j 1).val, (j 1).isLt⟩ : Fin 16))))
    = Cert.Gcn.biasRelu (V c main_v43 (((cfg1.win 2).blk t).view.emb j))
      (V c main_v44 (ix2 (0 : Fin 1) (⟨((((cfg1.win 2).blk t).view.emb j) 1).val, ((((cfg1.win 2).blk t).view.emb j) 1).isLt⟩ : Fin 16)))
  have h0 : ((cfg1.win 0).blk t).view.emb j = ((cfg1.win 2).blk t).view.emb j := by
    funext a; apply Fin.ext
    match a with
    | ⟨0, _⟩ => show win1_0.index t (0 : Fin 2) * 10000 + 1 * (j 0).val = win1_2.index t (0 : Fin 2) * 10000 + 1 * (j 0).val; omega
    | ⟨1, _⟩ => show win1_0.index t (1 : Fin 2) * 16 + 1 * (j 1).val = win1_2.index t (1 : Fin 2) * 16 + 1 * (j 1).val; omega
  have h1 : ((cfg1.win 1).blk t).view.emb (ix2 (0 : Fin 1) (⟨(j 1).val, (j 1).isLt⟩ : Fin 16))
      = ix2 (0 : Fin 1) (⟨((((cfg1.win 2).blk t).view.emb j) 1).val, ((((cfg1.win 2).blk t).view.emb j) 1).isLt⟩ : Fin 16) := by
    funext a; apply Fin.ext
    match a with
    | ⟨0, _⟩ => show win1_1.index t (0 : Fin 2) * 1 + 1 * 0 = 0; omega
    | ⟨1, _⟩ => show win1_1.index t (1 : Fin 2) * 16 + 1 * (j 1).val = win1_2.index t (1 : Fin 2) * 16 + 1 * (j 1).val; omega
  rw [h0, h1]

/-- An index of the array is in block `t` iff each coordinate is in the block's range on its axis. -/
theorem mem_blk1 (t : Fin cfg1.N) (i : S100000x16.Idx) :
    i ∈ ((cfg1.win 2).blk t).view.set ↔ ∀ a : Fin 2, win1_2.index t a * S10000x16.size a ≤ (i a).val ∧ (i a).val < win1_2.index t a * S10000x16.size a + S10000x16.size a := by
  show i ∈ ((View.whole main_v45).slice (win1_2.rect t)).set ↔ _
  rw [View.set_slice_whole, Rect.mem_set_unit]
  exact Iff.rfl

/-- Every row lies in the block numbered by its ten-thousands. -/
theorem cover1 (i : S100000x16.Idx) : ∃ t : Fin cfg1.N, (cfg1.win 2).flush t = true ∧ i ∈ ((cfg1.win 2).blk t).view.set := by
  have hi0 : (i 0).val < 100000 := (i 0).isLt
  have hi1 : (i 1).val < 16 := (i 1).isLt
  have hN : grid1.N = 10 := N_1
  let t : Fin cfg1.N := ⟨(i 0).val / 10000, by show (i 0).val / 10000 < grid1.N; rw [hN]; omega⟩
  refine ⟨t, flush1_2 t, ?_⟩
  rw [mem_blk1]
  obtain ⟨e0, e1, e2, e3, e4, e5⟩ := idx_facts1 t
  have ht : t.val = (i 0).val / 10000 := rfl
  intro a
  match a with
  | ⟨0, _⟩ => show win1_2.index t (0 : Fin 2) * 10000 ≤ (i 0).val ∧ (i 0).val < win1_2.index t (0 : Fin 2) * 10000 + 10000; omega
  | ⟨1, _⟩ => show win1_2.index t (1 : Fin 2) * 16 ≤ (i 1).val ∧ (i 1).val < win1_2.index t (1 : Fin 2) * 16 + 16; omega

/-- The output array after the region: the whole-array function of the two arrays the region reads. -/
theorem final1 (c : Dev nD) : (dat1 V c).arrAt 2 cfg1.N = biasRelu16 (V c main_v43) (V c main_v44) :=
  (dat1 V c).arrAt_eq_of_cover 2 _ (fun t _ => flushed1 V c t) (cover1)

end Cert.KernelIdeal.Blocks

end
-- ==== Proof.Region2.lean ====
/-
  The second dense product, as one function of its two arrays.

  The region sweeps ten blocks of ten thousand rows of the clamped hidden array. At each block it multiplies the block
  by the whole second weight matrix, accumulating into zero, and writes the product back as the same rows of the output.
  The blocks tile the rows, so afterwards the output array holds the one product of the whole hidden array with the
  weights.
-/
import proofs.«171940_j1838246003236_1_alg».proof.Proof.Gen.KernelIdeal.Frame
import proofs.«171940_j1838246003236_1_alg».proof.Proof.LibRowBlockProduct
import Idealize.ShloMosaic.Lib.Pipeline.Value
import Idealize.ShloMosaic.Lib.ValueIdx

set_option maxRecDepth 16384

noncomputable section

namespace Cert.KernelIdeal.Blocks

open Cert.KernelIdeal Cert.KernelIdeal.Gen Idealize.ShloMosaic Idealize.ShloMosaic.TcCoe Idealize.ShloMosaic.ValueIdx Idealize.SL.Sem
open Idealize.ShloMosaic.Pipeline (Dat)

variable (V : (c : Dev nD) → (b : Ref sig .tc) → Buf (Elt Ideal) ((c : Thread nD τ).loc b))

theorem origin2_2 : (![0, 0] : Fin 2 → Nat) = fun _ => 0 := funext fun a => by fin_cases a <;> rfl

/-- The whole output of the region: the one product of the two whole arrays. -/
def product2 (X : S100000x16.Idx → EReal) (W : S16x40.Idx → EReal) : S100000x40.Idx → EReal :=
  Host.dotGeneral (F := Ideal) (φ₁ := .f32) (φ₂ := .f32) (DotDims.plain 100000 16 40) none X W

/-- The body's value on a block: the plain product of the block of rows with the whole right factor, accumulated into
    zero (a change of float format is the identity on the extended reals). -/
theorem k2_pay1_plain (x0 : Vec Ideal S10000x16 .f32) (x1 : Vec Ideal S16x40 .f32) :
    k2_pay1 x0 x1 = matmul (F := Ideal) (φ₁ := .f32) (φ₂ := .f32) (DotDims.plain 10000 16 40) none x0 x1 (constant ⟨2, ![10000, 40]⟩ .f32 0x00000000#32) := by
  unfold k2_pay1
  rw [shapeCast_self]
  rfl

/-- The index maps over the blocks: the left factor and the output move together down the rows, the right factor
    stays. -/
theorem idx_facts2 : ∀ t : Fin cfg2.N, win2_0.index t (0 : Fin 2) = t.val ∧ win2_0.index t (1 : Fin 2) = 0
    ∧ win2_1.index t (0 : Fin 2) = 0 ∧ win2_1.index t (1 : Fin 2) = 0
    ∧ win2_2.index t (0 : Fin 2) = t.val ∧ win2_2.index t (1 : Fin 2) = 0 :=
  (by decide +kernel : ∀ t : Fin grid2.N, _)

/-- What block `t` writes back is block `t` of the whole product. -/
theorem flushed2 (c : Dev nD) (t : Fin cfg2.N) :
    (dat2 V c).flushed 2 t = ((cfg2.win 2).blk t).view.read (Elt Ideal) (product2 (V c main_v45) (V c main_arg3)) := by
  show (cfg2.win 2).cut (grid2.coords t) ((dat2 V c).after 2 t) = _
  rw [after2_2]
  unfold out2_2
  rw [View.canon_unit_zero origin2_2]
  simp only [View.ld_unit_zero (S := S10000x16) origin2_2, View.ld_unit_zero (S := S16x40) origin2_2]
  obtain ⟨e0, e1, e2, e3, e4, e5⟩ := idx_facts2 t
  funext j
  rw [k2_pay1_plain]
  exact Cert.Lib.plain_product_row_block (m := 10000) (M := 100000) (k := 16) (n := 40) none
    (iblk2 V c 0 t) (iblk2 V c 1 t) (V c main_v45) (V c main_arg3)
    (fun y => ((cfg2.win 0).blk t).view.emb y) (fun y => ((cfg2.win 1).blk t).view.emb y)
    (fun y => ((cfg2.win 2).blk t).view.emb y) (t.val * 10000)
    (fun _ => rfl) (fun _ => rfl)
    (fun y => by show win2_0.index t (0 : Fin 2) * 10000 + 1 * (y 0).val = t.val * 10000 + (y 0).val; omega)
    (fun y => by show win2_0.index t (1 : Fin 2) * 16 + 1 * (y 1).val = (y 1).val; omega)
    (fun y => by show win2_1.index t (0 : Fin 2) * 16 + 1 * (y 0).val = (y 0).val; omega)
    (fun y => by show win2_1.index t (1 : Fin 2) * 40 + 1 * (y 1).val = (y 1).val; omega)
    (fun y => by show win2_2.index t (0 : Fin 2) * 10000 + 1 * (y 0).val = t.val * 10000 + (y 0).val; omega)
    (fun y => by show win2_2.index t (1 : Fin 2) * 40 + 1 * (y 1).val = (y 1).val; omega)
    j

/-- An index of the array is in block `t` iff each coordinate is in the block's range on its axis. -/
theorem mem_blk2 (t : Fin cfg2.N) (i : S100000x40.Idx) :
    i ∈ ((cfg2.win 2).blk t).view.set ↔ ∀ a : Fin 2, win2_2.index t a * S10000x40.size a ≤ (i a).val ∧ (i a).val < win2_2.index t a * S10000x40.size a + S10000x40.size a := by
  show i ∈ ((View.whole main_v46).slice (win2_2.rect t)).set ↔ _
  rw [View.set_slice_whole, Rect.mem_set_unit]
  exact Iff.rfl

/-- Every row lies in the block numbered by its quotient by the block's height. -/
theorem cover2 (i : S100000x40.Idx) : ∃ t : Fin cfg2.N, (cfg2.win 2).flush t = true ∧ i ∈ ((cfg2.win 2).blk t).view.set := by
  have hi0 : (i 0).val < 100000 := (i 0).isLt
  have hi1 : (i 1).val < 40 := (i 1).isLt
  have hN : grid2.N = 10 := N_2
  let t : Fin cfg2.N := ⟨(i 0).val / 10000, by show (i 0).val / 10000 < grid2.N; rw [hN]; omega⟩
  refine ⟨t, flush2_2 t, ?_⟩
  rw [mem_blk2]
  obtain ⟨e0, e1, e2, e3, e4, e5⟩ := idx_facts2 t
  have ht : t.val = (i 0).val / 10000 := rfl
  intro a
  match a with
  | ⟨0, _⟩ => show win2_2.index t (0 : Fin 2) * 10000 ≤ (i 0).val ∧ (i 0).val < win2_2.index t (0 : Fin 2) * 10000 + 10000; omega
  | ⟨1, _⟩ => show win2_2.index t (1 : Fin 2) * 40 ≤ (i 1).val ∧ (i 1).val < win2_2.index t (1 : Fin 2) * 40 + 40; omega

/-- The output array after the region: the whole product of the two arrays the region reads. -/
theorem final2 (c : Dev nD) : (dat2 V c).arrAt 2 cfg2.N = product2 (V c main_v45) (V c main_arg3) :=
  (dat2 V c).arrAt_eq_of_cover 2 _ (fun t _ => flushed2 V c t) (cover2)

end Cert.KernelIdeal.Blocks

end
-- ==== Proof.LibColumnLayout.lean ====
/-
  The two layout steps a per-row statistic (a row sum, mean or maximum kept as a column) goes through before it meets
  the rows again, read at an index, for any element type: a vector of per-row numbers [a] recast as a column [a, 1]
  (`Cert.Lib.shapeCast_a_a1_apply`: the column at (i, ·) is the vector at i), and the column spread over the b lanes
  of each row, [a, 1] → [a, b] (`Cert.Lib.broadcastTo_a1_ab_apply`: the spread block at (p, c) is the column at (p, 0)).
-/
import Idealize.ShloMosaic.Lib.ValueLayout

namespace Cert.Lib

open Idealize.ShloMosaic Idealize.ShloMosaic.ValueIdx

variable {α : Type}

/-- An `[a]` array cast to `[a, 1]` reads, at `(i, u)`, the operand at `i`, whatever the unit coordinate `u`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An `[a, 1]` column broadcast to `[a, b]` reads, at `(p, c)`, the column's entry of row `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Cert.Lib
-- ==== Proof.SoftmaxKernel.lean ====
/-
  The kernel's last payload read at an index: a block of ten thousand rows of forty entries, the bias row added to every
  row, each row then replaced by its log-softmax.

  The payload takes each row's maximum by a reduction over the columns from −∞, keeps it as a column, spreads it back
  over the forty lanes and subtracts it; exponentiates; sums each row by a reduction over the columns from 0, keeps the
  sums as a column, takes the logarithm, spreads it and subtracts it. Read at (p, q), the column reduction at row p is
  a fold, respectively a finite sum, over the forty entries (p, k) of that row, the kept column at (p, 0) is the
  reduction at p, and the spread block at (p, c) is the column at (p, 0). So entry (p, q) is
  (z q − M) − log (∑ₖ exp (z k − M)) for the row z k = x0 (p, k) + x1 (0, k) and M its maximum.
-/
import proofs.«171940_j1838246003236_1_alg».proof.Proof.Gen.KernelIdeal.Skeleton
import proofs.«171940_j1838246003236_1_alg».proof.Proof.Spec
import proofs.«171940_j1838246003236_1_alg».proof.Proof.LibColumnLayout
import Idealize.ShloMosaic.PureOps.Ideal.Laws
import Idealize.ShloMosaic.PureOps.Reduce
import Idealize.ShloMosaic.Lib.ValueIdx
import Idealize.ShloMosaic.Lib.ValueLayout
import Idealize.ShloMosaic.Lib.Pipeline.Value

noncomputable section

namespace Cert.Gcn

open Cert.KernelIdeal Cert.KernelIdeal.Gen Idealize.ShloMosaic Idealize.ShloMosaic.ValueIdx

/-- A reduction over the columns inserts the column back: the reduced index `p` with column `k` is `(p, k)`. -/
theorem lift_row {m n : Nat} (h : (⟨2, ![m, n]⟩ : Shape).Reduces [1] (⟨1, ![m]⟩ : Shape)) (p : Fin m)
    (k : Fin ((⟨2, ![m, n]⟩ : Shape).size 1)) : h.lift (ix1 p) k = ix2 p (⟨k.val, k.isLt⟩ : Fin n) := by
  funext c; apply Fin.ext
  fin_cases c <;> rfl

/-- The maximum over the columns from −∞, at row `p`: the fold of max over the row's forty entries. -/
theorem multiReduction_max_row (v : FVec Ideal S10000x40 .f32) (h : S10000x40.Reduces [1] S10000) (hφ : FKind.Formats .f32)
    (hacc : (0xFF800000#32 : BitVec (FTy.f32).bits) = FKind.maximumf.neutral .f32 hφ) (p : Fin 10000) :
    multiReduction .maximumf [1] S10000 v 0xFF800000#32 h hφ hacc (ix1 p) = rowMax (fun k => v (ix2 p k)) := by
  refine (Ideal.multiReduction_maximumf_single v _ h hφ hacc (ix1 p)).trans ?_
  have hf : (v ∘ h.lift (ix1 p)) = fun k : Fin 40 => v (ix2 p k) := funext fun k => congrArg v (lift_row h p k)
  exact congrArg (fun f => Finset.fold max (Ideal.ofBits .f32 0xFF800000#32) f (Finset.univ : Finset (Fin 40))) hf

/-- The sum over the columns from 0, at row `p`: the sum of the row's forty entries. -/
theorem multiReduction_add_row (v : FVec Ideal S10000x40 .f32) (h : S10000x40.Reduces [1] S10000) (hφ : FKind.Formats .f32)
    (hacc : (0x00000000#32 : BitVec (FTy.f32).bits) = FKind.add.neutral .f32 hφ) (p : Fin 10000) :
    multiReduction .add [1] S10000 v 0x00000000#32 h hφ hacc (ix1 p) = ∑ k : Fin 40, v (ix2 p k) := by
  refine (Ideal.multiReduction_add_single v _ h hφ hacc (ix1 p)).trans ?_
  have hf : (fun k => v (h.lift (ix1 p) k)) = fun k : Fin 40 => v (ix2 p k) := funext fun k => congrArg v (lift_row h p k)
  exact congrArg (fun f => ∑ k : Fin 40, f k) hf

/-- A per-row number kept as a column and spread over the forty lanes reads, at `(p, c)`, the number of row `p`. -/
theorem spread_column_apply (w : FVec Ideal S10000 .f32) (hc : S10000.ShapeCasts S10000x1) (hb : S10000x1.Broadcasts S10000x40)
    (p : Fin 10000) (c : Fin 40) :
    broadcastTo S10000x40 (shapeCast S10000x1 w hc) hb (ix2 p c) = w (ix1 p) :=
  (Cert.Lib.broadcastTo_a1_ab_apply (shapeCast S10000x1 w hc) hb p c).trans
    (Cert.Lib.shapeCast_a_a1_apply w hc p (0 : Fin 1))

/-- The same with the logarithm taken on the column before it is spread. -/
theorem spread_log_column_apply (w : FVec Ideal S10000 .f32) (hc : S10000.ShapeCasts S10000x1) (hb : S10000x1.Broadcasts S10000x40)
    (p : Fin 10000) (c : Fin 40) :
    broadcastTo S10000x40 (log (shapeCast S10000x1 w hc)) hb (ix2 p c) = Ideal.log (w (ix1 p)) :=
  (Cert.Lib.broadcastTo_a1_ab_apply (log (shapeCast S10000x1 w hc)) hb p c).trans
    (congrArg Ideal.log (Cert.Lib.shapeCast_a_a1_apply w hc p (0 : Fin 1)))

/-- The log-softmax of every row of any block `v`, as the payload takes it, read at `(p, q)`: `m` is the rows' maxima
    spread back over the lanes and `d` the block less `m`. -/
theorem logsoftmax_block_apply (v m d : FVec Ideal S10000x40 .f32)
    (hm : m = broadcastTo S10000x40 (shapeCast S10000x1
        (multiReduction .maximumf [1] S10000 v 0xFF800000#32 reduces_S10000x40_S10000 (.inl rfl) rfl)
        shapeCasts_S10000_S10000x1) broadcasts_S10000x1_S10000x40)
    (hd : d = subf v m) (p : Fin 10000) (q : Fin 40) :
    subf d (broadcastTo S10000x40 (log (shapeCast S10000x1
        (multiReduction .add [1] S10000 (exp d) 0x00000000#32 reduces_S10000x40_S10000 (.inl rfl) rfl)
        shapeCasts_S10000_S10000x1)) broadcasts_S10000x1_S10000x40) (ix2 p q)
      = rowLogSoftmax (fun k => v (ix2 p k)) q := by
  have hm' : ∀ c : Fin 40, m (ix2 p c) = rowMax (fun k => v (ix2 p k)) := fun c =>
    (congrFun hm (ix2 p c)).trans
      ((spread_column_apply _ shapeCasts_S10000_S10000x1 broadcasts_S10000x1_S10000x40 p c).trans
        (multiReduction_max_row v reduces_S10000x40_S10000 (.inl rfl) rfl p))
  have hd' : ∀ c : Fin 40, d (ix2 p c) = v (ix2 p c) - rowMax (fun k => v (ix2 p k)) := fun c =>
    (congrFun hd (ix2 p c)).trans
      ((subf_apply v m (ix2 p c)).trans (congrArg (fun t => v (ix2 p c) - t) (hm' c)))
  have he : ∀ c : Fin 40, exp d (ix2 p c) = Ideal.exp (v (ix2 p c) - rowMax (fun k => v (ix2 p k))) := fun c =>
    congrArg Ideal.exp (hd' c)
  have hs : multiReduction .add [1] S10000 (exp d) 0x00000000#32 reduces_S10000x40_S10000 (.inl rfl) rfl (ix1 p)
      = ∑ k : Fin 40, Ideal.exp (v (ix2 p k) - rowMax (fun k => v (ix2 p k))) :=
    (multiReduction_add_row (exp d) reduces_S10000x40_S10000 (.inl rfl) rfl p).trans
      (congrArg (fun f : Fin 40 → EReal => ∑ k : Fin 40, f k) (funext he))
  refine (subf_apply d _ (ix2 p q)).trans ?_
  refine (congrArg (fun t => d (ix2 p q) - t)
    (spread_log_column_apply _ shapeCasts_S10000_S10000x1 broadcasts_S10000x1_S10000x40 p q)).trans ?_
  show d (ix2 p q) - Ideal.log _ = (v (ix2 p q) - rowMax (fun k => v (ix2 p k))) - Ideal.log _
  rw [hd' q, hs]

/-- The bias row added to every row of the block, read along row `p`. -/
theorem biased_row_apply (x0 : Vec Ideal S10000x40 .f32) (x1 : Vec Ideal S1x40 .f32) (p : Fin 10000) (k : Fin 40) :
    (addf (shapeCast S10000x40 x0 shapeCasts_S10000x40_S10000x40)
        (broadcastTo S10000x40 (shapeCast S1x40 x1 shapeCasts_S1x40_S1x40) broadcasts_S1x40_S10000x40)
      : FVec Ideal S10000x40 .f32) (ix2 p k)
      = x0 (ix2 p k) + x1 (ix2 (0 : Fin 1) k) := by
  refine (addf_apply _ _ (ix2 p k)).trans ?_
  rw [shapeCast_self, broadcastTo_1b_ab_apply, shapeCast_self]

/-- The kernel's last payload at `(p, q)`: the log-softmax of row `p` with the bias added, at entry `q`. -/
theorem k3_pay1_apply (x0 : Vec Ideal S10000x40 .f32) (x1 : Vec Ideal S1x40 .f32) (p : Fin 10000) (q : Fin 40) :
    k3_pay1 x0 x1 (ix2 p q) = rowLogSoftmax (fun k => x0 (ix2 p k) + x1 (ix2 (0 : Fin 1) k)) q := by
  have hrow : (fun k : Fin 40 => (addf (shapeCast S10000x40 x0 shapeCasts_S10000x40_S10000x40)
        (broadcastTo S10000x40 (shapeCast S1x40 x1 shapeCasts_S1x40_S1x40) broadcasts_S1x40_S10000x40)
      : FVec Ideal S10000x40 .f32) (ix2 p k)) = fun k => x0 (ix2 p k) + x1 (ix2 (0 : Fin 1) k) :=
    funext fun k => biased_row_apply x0 x1 p k
  exact (logsoftmax_block_apply _ _ _ rfl rfl p q).trans (congrArg (fun z => rowLogSoftmax z q) hrow)

end Cert.Gcn

end
-- ==== Proof.Region3.lean ====
/-
  The bias-and-log-softmax region, as one function of its two arrays.

  The region sweeps ten blocks of ten thousand rows. At each block every row of the aggregated array gets the bias row
  added (the bias is one row of forty, read whole at every block) and is replaced by its log-softmax; the block is
  written back where it was read. A row's log-softmax reads only that row, and a block holds whole rows (all forty
  columns), so block t's row p is the array's row t · 10000 + p. The blocks tile the rows, so afterwards the whole
  output array holds, row by row, the log-softmax of the aggregated row plus the bias.
-/
import proofs.«171940_j1838246003236_1_alg».proof.Proof.Gen.KernelIdeal.Frame
import proofs.«171940_j1838246003236_1_alg».proof.Proof.Spec
import proofs.«171940_j1838246003236_1_alg».proof.Proof.SoftmaxKernel
import Idealize.ShloMosaic.Lib.Pipeline.Value
import Idealize.ShloMosaic.Lib.ValueIdx
import Idealize.ShloMosaic.Lib.ValueLayout

set_option maxRecDepth 16384

noncomputable section

namespace Cert.KernelIdeal.Blocks

open Cert.KernelIdeal Cert.KernelIdeal.Gen Idealize.ShloMosaic Idealize.ShloMosaic.TcCoe Idealize.ShloMosaic.ValueIdx Idealize.SL.Sem
open Idealize.ShloMosaic.Pipeline (Dat)

variable (V : (c : Dev nD) → (b : Ref sig .tc) → Buf (Elt Ideal) ((c : Thread nD τ).loc b))

/-- The sum of two entries read as extended reals (an array's entry type is the extended reals only after its
    buffer's type is computed, so the sum's type is written out). -/
local notation:65 x:65 " +ₑ " y:66 => @HAdd.hAdd EReal EReal EReal instHAdd x y

theorem origin2_3 : (![0, 0] : Fin 2 → Nat) = fun _ => 0 := funext fun a => by fin_cases a <;> rfl

/-- The whole output of the region: every row of the aggregated array with the bias row added, replaced by its
    log-softmax. -/
def logSoftmax40 (a : S100000x40.Idx → EReal) (b : S1x40.Idx → EReal) : S100000x40.Idx → EReal :=
  fun i => Cert.Gcn.rowLogSoftmax (fun k => a (ix2 (⟨(i 0).val, (i 0).isLt⟩ : Fin 100000) k) + b (ix2 (0 : Fin 1) k))
    (⟨(i 1).val, (i 1).isLt⟩ : Fin 40)

/-- The body's value at any entry `j` of a block: the log-softmax of `j`'s row with the bias added, at `j`'s column. -/
theorem k3_pay1_apply_idx (x0 : Vec Ideal S10000x40 .f32) (x1 : Vec Ideal S1x40 .f32) (j : S10000x40.Idx) :
    k3_pay1 x0 x1 j
      = Cert.Gcn.rowLogSoftmax (fun k => x0 (ix2 (⟨(j 0).val, (j 0).isLt⟩ : Fin 10000) k) + x1 (ix2 (0 : Fin 1) k))
          (⟨(j 1).val, (j 1).isLt⟩ : Fin 40) := by
  obtain ⟨p, q, rfl⟩ : ∃ (p : Fin 10000) (q : Fin 40), j = ix2 p q := ⟨j 0, j 1, eq_ix2 j⟩
  show k3_pay1 x0 x1 (ix2 p q) = Cert.Gcn.rowLogSoftmax (fun k => x0 (ix2 p k) + x1 (ix2 (0 : Fin 1) k)) q
  exact Cert.Gcn.k3_pay1_apply x0 x1 p q

/-- The index maps over the ten blocks: the aggregated array and the output move together down the rows, the bias
    stays. -/
theorem idx_facts3 : ∀ t : Fin cfg3.N, win3_0.index t (0 : Fin 2) = t.val ∧ win3_0.index t (1 : Fin 2) = 0
    ∧ win3_1.index t (0 : Fin 2) = 0 ∧ win3_1.index t (1 : Fin 2) = 0
    ∧ win3_2.index t (0 : Fin 2) = t.val ∧ win3_2.index t (1 : Fin 2) = 0 :=
  (by decide +kernel : ∀ t : Fin grid3.N, _)

/-- What block `t` writes back is block `t` of the whole-array function. -/
theorem flushed3 (c : Dev nD) (t : Fin cfg3.N) :
    (dat3 V c).flushed 2 t = ((cfg3.win 2).blk t).view.read (Elt Ideal) (logSoftmax40 (V c main_v59) (V c main_v60)) := by
  show (cfg3.win 2).cut (grid3.coords t) ((dat3 V c).after 2 t) = _
  rw [after3_2]
  unfold out3_2
  rw [View.canon_unit_zero origin2_3]
  simp only [View.ld_unit_zero (S := S10000x40) origin2_3, View.ld_unit_zero (S := S1x40) origin2_3]
  obtain ⟨e0, e1, e2, e3, e4, e5⟩ := idx_facts3 t
  funext j
  refine (k3_pay1_apply_idx _ _ j).trans ?_
  show Cert.Gcn.rowLogSoftmax
      (fun k => V c main_v59 (((cfg3.win 0).blk t).view.emb (ix2 (⟨(j 0).val, (j 0).isLt⟩ : Fin 10000) k))
        +ₑ V c main_v60 (((cfg3.win 1).blk t).view.emb (ix2 (0 : Fin 1) k)))
      (⟨(j 1).val, (j 1).isLt⟩ : Fin 40)
    = Cert.Gcn.rowLogSoftmax
      (fun k => V c main_v59 (ix2 (⟨((((cfg3.win 2).blk t).view.emb j) 0).val, ((((cfg3.win 2).blk t).view.emb j) 0).isLt⟩ : Fin 100000) k)
        +ₑ V c main_v60 (ix2 (0 : Fin 1) k))
      (⟨((((cfg3.win 2).blk t).view.emb j) 1).val, ((((cfg3.win 2).blk t).view.emb j) 1).isLt⟩ : Fin 40)
  have hA : ∀ k : Fin 40, ((cfg3.win 0).blk t).view.emb (ix2 (⟨(j 0).val, (j 0).isLt⟩ : Fin 10000) k)
      = ix2 (⟨((((cfg3.win 2).blk t).view.emb j) 0).val, ((((cfg3.win 2).blk t).view.emb j) 0).isLt⟩ : Fin 100000) k := by
    intro k
    funext a; apply Fin.ext
    match a with
    | ⟨0, _⟩ => show win3_0.index t (0 : Fin 2) * 10000 + 1 * (j 0).val = win3_2.index t (0 : Fin 2) * 10000 + 1 * (j 0).val; omega
    | ⟨1, _⟩ => show win3_0.index t (1 : Fin 2) * 40 + 1 * k.val = k.val; omega
  have hB : ∀ k : Fin 40, ((cfg3.win 1).blk t).view.emb (ix2 (0 : Fin 1) k) = ix2 (0 : Fin 1) k := by
    intro k
    funext a; apply Fin.ext
    match a with
    | ⟨0, _⟩ => show win3_1.index t (0 : Fin 2) * 1 + 1 * 0 = 0; omega
    | ⟨1, _⟩ => show win3_1.index t (1 : Fin 2) * 40 + 1 * k.val = k.val; omega
  have hq : (⟨(j 1).val, (j 1).isLt⟩ : Fin 40)
      = ⟨((((cfg3.win 2).blk t).view.emb j) 1).val, ((((cfg3.win 2).blk t).view.emb j) 1).isLt⟩ := by
    apply Fin.ext
    show (j 1).val = win3_2.index t (1 : Fin 2) * 40 + 1 * (j 1).val
    omega
  have hrow : (fun k : Fin 40 => V c main_v59 (((cfg3.win 0).blk t).view.emb (ix2 (⟨(j 0).val, (j 0).isLt⟩ : Fin 10000) k))
        +ₑ V c main_v60 (((cfg3.win 1).blk t).view.emb (ix2 (0 : Fin 1) k)))
      = fun k => V c main_v59 (ix2 (⟨((((cfg3.win 2).blk t).view.emb j) 0).val, ((((cfg3.win 2).blk t).view.emb j) 0).isLt⟩ : Fin 100000) k)
        +ₑ V c main_v60 (ix2 (0 : Fin 1) k) :=
    funext fun k => by rw [hA k, hB k]
  rw [hrow, hq]

/-- An index of the array is in block `t` iff each coordinate is in the block's range on its axis. -/
theorem mem_blk3 (t : Fin cfg3.N) (i : S100000x40.Idx) :
    i ∈ ((cfg3.win 2).blk t).view.set ↔ ∀ a : Fin 2, win3_2.index t a * S10000x40.size a ≤ (i a).val ∧ (i a).val < win3_2.index t a * S10000x40.size a + S10000x40.size a := by
  show i ∈ ((View.whole main_v61).slice (win3_2.rect t)).set ↔ _
  rw [View.set_slice_whole, Rect.mem_set_unit]
  exact Iff.rfl

/-- Every row lies in the block numbered by its ten-thousands. -/
theorem cover3 (i : S100000x40.Idx) : ∃ t : Fin cfg3.N, (cfg3.win 2).flush t = true ∧ i ∈ ((cfg3.win 2).blk t).view.set := by
  have hi0 : (i 0).val < 100000 := (i 0).isLt
  have hi1 : (i 1).val < 40 := (i 1).isLt
  have hN : grid3.N = 10 := N_3
  let t : Fin cfg3.N := ⟨(i 0).val / 10000, by show (i 0).val / 10000 < grid3.N; rw [hN]; omega⟩
  refine ⟨t, flush3_2 t, ?_⟩
  rw [mem_blk3]
  obtain ⟨e0, e1, e2, e3, e4, e5⟩ := idx_facts3 t
  have ht : t.val = (i 0).val / 10000 := rfl
  intro a
  match a with
  | ⟨0, _⟩ => show win3_2.index t (0 : Fin 2) * 10000 ≤ (i 0).val ∧ (i 0).val < win3_2.index t (0 : Fin 2) * 10000 + 10000; omega
  | ⟨1, _⟩ => show win3_2.index t (1 : Fin 2) * 40 ≤ (i 1).val ∧ (i 1).val < win3_2.index t (1 : Fin 2) * 40 + 40; omega

/-- The output array after the region: the whole-array function of the two arrays the region reads. -/
theorem final3 (c : Dev nD) : (dat3 V c).arrAt 2 cfg3.N = logSoftmax40 (V c main_v59) (V c main_v60) :=
  (dat3 V c).arrAt_eq_of_cover 2 _ (fun t _ => flushed3 V c t) (cover3)

end Cert.KernelIdeal.Blocks

end
-- ==== Proof.Join.lean ====
/-
  The reference's dense stages are the kernel regions' whole-array functions.

  Stage by stage the reference computes on whole arrays what the kernel's regions compute block by block: its first
  product is the product of the whole feature matrix with the first weights; its bias-and-clamp stage adds to every
  aggregated entry the bias of its column (the bias spread over the rows through a one-row array, where the kernel's
  host code reshapes it to one row: the same row either way) and clamps at zero; its second product is the product of the
  clamped array with the second weights.
-/
import proofs.«171940_j1838246003236_1_alg».proof.Proof.RefRead
import proofs.«171940_j1838246003236_1_alg».proof.Proof.Region0
import proofs.«171940_j1838246003236_1_alg».proof.Proof.Region1
import proofs.«171940_j1838246003236_1_alg».proof.Proof.Region2
import Idealize.ShloMosaic.Lib.ValueLayout

set_option maxRecDepth 16384

noncomputable section

namespace Cert.Gcn.Join

open Idealize.ShloMosaic Idealize.ShloMosaic.ValueIdx
open Cert.ReferenceIdeal Cert.ReferenceIdeal.Read

variable (x0 : (⟨S100000x512, .f32⟩ : BufTy).Contents (Elt Ideal)) (x1 : (⟨S512x16, .f32⟩ : BufTy).Contents (Elt Ideal))
  (x2 : (⟨S16, .f32⟩ : BufTy).Contents (Elt Ideal)) (x3 : (⟨S16x40, .f32⟩ : BufTy).Contents (Elt Ideal))
  (x5 : (⟨S2x3200000, .i32⟩ : BufTy).Contents (Elt Ideal))

/-- The reference's first product is the product of the two whole arrays. -/
theorem v30_eq : val_main_v30 (F := Ideal) x0 x1 = Cert.KernelIdeal.Blocks.product0 x0 x1 := rfl

/-- The reference's second product is the product of its clamped array with the second weights. -/
theorem v48_eq : val_main_v48 (F := Ideal) x0 x1 x2 x3 x5
    = Cert.KernelIdeal.Blocks.product2 (val_main_v47 (F := Ideal) x0 x1 x2 x5) x3 := rfl

/-- The reference's clamped array: every aggregated entry with its column's bias, clamped at zero. -/
theorem v47_eq : val_main_v47 (F := Ideal) x0 x1 x2 x5
    = Cert.KernelIdeal.Blocks.biasRelu16 (val_main_v43 (F := Ideal) x0 x1 x5)
        (shapeCast Cert.KernelIdeal.S1x16 x2 Cert.KernelIdeal.Facts₀.shapeCasts_S16_S1x16) := by
  funext i
  obtain ⟨r, q, rfl⟩ : ∃ (r : Fin 100000) (q : Fin 16), i = ix2 r q := ⟨i 0, i 1, eq_ix2 i⟩
  rw [val_main_v47_apply, val_main_v46_apply, val_main_v45_apply, val_main_v44_apply, val_main_call1_v0_apply,
    val_main_call1_cst_apply]
  have hidx : idx_main_v44 (idx_main_v45 (ix2 r q)) = ix1 q :=
    funext fun a => Fin.ext (by match a with | ⟨0, _⟩ => rfl)
  rw [hidx]
  show max (val_main_v43 (F := Ideal) x0 x1 x5 (ix2 r q) + x2 (ix1 q)) (Ideal.ofBits .f32 0x00000000#32)
    = max (val_main_v43 (F := Ideal) x0 x1 x5 (ix2 r q)
        + shapeCast (⟨2, ![1, 16]⟩ : Shape) x2 Cert.KernelIdeal.Facts₀.shapeCasts_S16_S1x16 (ix2 (0 : Fin 1) q)) (Ideal.ofBits .f32 0x00000000#32)
  rw [shapeCast_a_1a_apply]

end Cert.Gcn.Join

end
-- ==== Proof.SoftmaxRef.lean ====
/-
  The reference's log-softmax stage read at an index: the whole array of a hundred thousand rows of forty entries, the
  bias added to every row, each row then replaced by its log-softmax.

  The reference adds the bias (a vector of forty, broadcast through one row to every row), takes each row's maximum by
  a reduce over the columns from −∞ and joins it once more with −∞ (which changes nothing: max (−∞) y = y), keeps it
  as a column, spreads it over the forty columns and subtracts it; exponentiates; sums each row by a reduce over the
  columns from 0 (0 + s = s), keeps the sums as a column, takes the logarithm, spreads it and subtracts it. Each stage
  read at an index is the stage before it read at an index computed from the literal shapes, and the two reduces at row
  r are a fold, respectively a finite sum, over the forty entries (r, k) of that row. So entry (r, q) is
  (z q − M) − log (∑ₖ exp (z k − M)) for the row z k = A (r, k) + x4 k, with A the array the bias is added to (never
  opened here) and M the row's maximum.
-/
import proofs.«171940_j1838246003236_1_alg».proof.Proof.RefRead
import proofs.«171940_j1838246003236_1_alg».proof.Proof.Spec
import Idealize.ShloMosaic.PureOps.Ideal.Laws
import Idealize.ShloMosaic.PureOps.Reduce
import Idealize.ShloMosaic.Lib.ValueIdx
import Idealize.ShloMosaic.Lib.Pipeline.Value

noncomputable section

namespace Cert.Gcn

open Cert.ReferenceIdeal Cert.ReferenceIdeal.Gen Cert.ReferenceIdeal.Read Idealize.ShloMosaic Idealize.ShloMosaic.ValueIdx

/-- A reduce over the columns inserts the column back: the reduced index `p` with column `k` is `(p, k)`. -/
theorem ref_lift_row {m n : Nat} (h : (⟨2, ![m, n]⟩ : Shape).Reduces [1] (⟨1, ![m]⟩ : Shape)) (p : Fin m)
    (k : Fin ((⟨2, ![m, n]⟩ : Shape).size 1)) : h.lift (ix1 p) k = ix2 p (⟨k.val, k.isLt⟩ : Fin n) := by
  funext c; apply Fin.ext
  fin_cases c <;> rfl

/-- Joining with −∞ changes nothing. -/
theorem max_negInf (y : Ideal .f32) : max (Ideal.ofBits .f32 0xFF800000#32) y = y := by
  simp [Ideal.ofBits, Ideal.ieee]

/-- The reduce with a maximum body over the columns from −∞, at row `r`: the fold of max over the row's forty entries. -/
theorem hostReduce_max_row (y : FVec Ideal ⟨2, ![100000, 40]⟩ .f32)
    (h' : (⟨2, ![100000, 40]⟩ : Shape).ReducesTo [1] (⟨1, ![100000]⟩ : Shape)) (hu : 0 < (⟨0, ![]⟩ : Shape).numel) (r : Fin 100000) :
    Host.reduce FloatOps.maximumf y (constant (F := Ideal) (⟨0, ![]⟩ : Shape) .f32 0xFF800000#32) h' hu (ix1 r)
      = rowMax (fun k => y (ix2 r k)) := by
  have h : (⟨2, ![100000, 40]⟩ : Shape).Reduces [1] (⟨1, ![100000]⟩ : Shape) := by decide
  refine (Host.reduce_eq_fold_single FloatOps.maximumf y _ h' h hu (ix1 r)).trans ?_
  have hf : (y ∘ h.lift (ix1 r)) = fun k : Fin 40 => y (ix2 r k) := funext fun k => congrArg y (ref_lift_row h r k)
  exact congrArg (fun f => Finset.fold max (Ideal.ofBits .f32 0xFF800000#32) f (Finset.univ : Finset (Fin 40))) hf

section Stages

variable (x0 : (⟨S100000x512, .f32⟩ : BufTy).Contents (Elt Ideal)) (x1 : (⟨S512x16, .f32⟩ : BufTy).Contents (Elt Ideal))
  (x2 : (⟨S16, .f32⟩ : BufTy).Contents (Elt Ideal)) (x3 : (⟨S16x40, .f32⟩ : BufTy).Contents (Elt Ideal))
  (x4 : (⟨S40, .f32⟩ : BufTy).Contents (Elt Ideal)) (x5 : (⟨S2x3200000, .i32⟩ : BufTy).Contents (Elt Ideal))

/-- The bias broadcast through one row to every row, at `(r, k)`: the bias at `k`. -/
theorem ref_bias_apply (r : Fin 100000) (k : Fin 40) : val_main_v63 (F := Ideal) x4 (ix2 r k) = x4 (ix1 k) := by
  refine (val_main_v63_apply x4 (ix2 r k)).trans ((val_main_v62_apply x4 _).trans (congrArg x4 ?_))
  funext a
  match a with
  | ⟨0, _⟩ => rfl

/-- The array with the bias added, at `(r, k)`. -/
theorem ref_biased_apply (r : Fin 100000) (k : Fin 40) :
    val_main_v64 (F := Ideal) x0 x1 x2 x3 x4 x5 (ix2 r k)
      = val_main_v61 (F := Ideal) x0 x1 x2 x3 x5 (ix2 r k) + x4 (ix1 k) := by
  rw [val_main_v64_apply, Ideal.addf_def, ref_bias_apply]

/-- The row's maximum (the reduce from −∞, joined once more with −∞), at row `r`. -/
theorem ref_rowmax_apply (r : Fin 100000) :
    val_main_call2_v2 (F := Ideal) x0 x1 x2 x3 x4 x5 (ix1 r)
      = rowMax (fun k => val_main_v64 (F := Ideal) x0 x1 x2 x3 x4 x5 (ix2 r k)) := by
  rw [val_main_call2_v2_apply, val_main_call2_v1_apply, val_main_call2_cst_0_apply, Ideal.maximumf_def, Ideal.ofBits_def,
    max_negInf]
  unfold val_main_call2_v0 val_main_call2_cst
  exact hostReduce_max_row (val_main_v64 (F := Ideal) x0 x1 x2 x3 x4 x5) reducesTo_S100000x40_S100000_d1 h_S_ r

/-- The maxima kept as a column and spread over the forty columns, at `(r, c)`: row `r`'s maximum. -/
theorem ref_maxspread_apply (r : Fin 100000) (c : Fin 40) :
    val_main_call2_v4 (F := Ideal) x0 x1 x2 x3 x4 x5 (ix2 r c)
      = rowMax (fun k => val_main_v64 (F := Ideal) x0 x1 x2 x3 x4 x5 (ix2 r k)) := by
  rw [val_main_call2_v4_apply, val_main_call2_v3_apply]
  refine (congrArg (val_main_call2_v2 (F := Ideal) x0 x1 x2 x3 x4 x5) ?_).trans (ref_rowmax_apply x0 x1 x2 x3 x4 x5 r)
  funext a
  match a with
  | ⟨0, _⟩ => rfl

/-- The row less its maximum, at `(r, c)`. -/
theorem ref_shift_apply (r : Fin 100000) (c : Fin 40) :
    val_main_call2_v5 (F := Ideal) x0 x1 x2 x3 x4 x5 (ix2 r c)
      = val_main_v64 (F := Ideal) x0 x1 x2 x3 x4 x5 (ix2 r c)
        - rowMax (fun k => val_main_v64 (F := Ideal) x0 x1 x2 x3 x4 x5 (ix2 r k)) := by
  rw [val_main_call2_v5_apply, Ideal.subf_def, ref_maxspread_apply]

/-- Its exponential, at `(r, c)`. -/
theorem ref_exp_apply (r : Fin 100000) (c : Fin 40) :
    val_main_call2_v6 (F := Ideal) x0 x1 x2 x3 x4 x5 (ix2 r c)
      = Ideal.exp (val_main_v64 (F := Ideal) x0 x1 x2 x3 x4 x5 (ix2 r c)
        - rowMax (fun k => val_main_v64 (F := Ideal) x0 x1 x2 x3 x4 x5 (ix2 r k))) := by
  rw [val_main_call2_v6_apply, Ideal.hostUnary_exp_def, ref_shift_apply]

/-- The row's sum of exponentials (the reduce from 0), at row `r`. -/
theorem ref_sum_apply (r : Fin 100000) :
    val_main_call2_v7 (F := Ideal) x0 x1 x2 x3 x4 x5 (ix1 r)
      = ∑ k : Fin 40, Ideal.exp (val_main_v64 (F := Ideal) x0 x1 x2 x3 x4 x5 (ix2 r k)
        - rowMax (fun k => val_main_v64 (F := Ideal) x0 x1 x2 x3 x4 x5 (ix2 r k))) := by
  rw [val_main_call2_v7_apply, val_main_call2_cst_1_apply, Ideal.ofBits_def, Ideal.ofBits_zero_f32, zero_add]
  refine Finset.sum_congr rfl fun k _ => ?_
  refine (congrArg (val_main_call2_v6 (F := Ideal) x0 x1 x2 x3 x4 x5) ?_).trans (ref_exp_apply x0 x1 x2 x3 x4 x5 r k)
  funext a
  match a with
  | ⟨0, _⟩ => rfl
  | ⟨1, _⟩ => rfl

/-- The sums kept as a column, their logarithm, spread over the forty columns, at `(r, c)`. -/
theorem ref_logspread_apply (r : Fin 100000) (c : Fin 40) :
    val_main_call2_v10 (F := Ideal) x0 x1 x2 x3 x4 x5 (ix2 r c)
      = Ideal.log (∑ k : Fin 40, Ideal.exp (val_main_v64 (F := Ideal) x0 x1 x2 x3 x4 x5 (ix2 r k)
        - rowMax (fun k => val_main_v64 (F := Ideal) x0 x1 x2 x3 x4 x5 (ix2 r k)))) := by
  rw [val_main_call2_v10_apply, val_main_call2_v9_apply, Ideal.hostUnary_log_def, val_main_call2_v8_apply]
  refine congrArg Ideal.log
    ((congrArg (val_main_call2_v7 (F := Ideal) x0 x1 x2 x3 x4 x5) ?_).trans (ref_sum_apply x0 x1 x2 x3 x4 x5 r))
  funext a
  match a with
  | ⟨0, _⟩ => rfl

/-- The reference's log-softmax at `(r, q)`: the log-softmax of row `r` with the bias added, at entry `q`. -/
theorem ref_logsoftmax_apply (r : Fin 100000) (q : Fin 40) :
    val_main_v65 (F := Ideal) x0 x1 x2 x3 x4 x5 (ix2 r q)
      = rowLogSoftmax (fun k => val_main_v61 (F := Ideal) x0 x1 x2 x3 x5 (ix2 r k) + x4 (ix1 k)) q := by
  rw [val_main_v65_apply, Ideal.subf_def, ref_shift_apply, ref_logspread_apply]
  unfold rowLogSoftmax
  simp only [ref_biased_apply]

end Stages

end Cert.Gcn

end
-- ==== Proof.JoinSoftmax.lean ====
/-
  The two log-softmax stages are one whole-array function.

  The reference's stage, read at (r, q), is the log-softmax at q of the row z k = A (r, k) + x4 k, with A the
  aggregated array and x4 the bias, a vector of forty. The kernel's region computes, as one function of the whole
  arrays, the log-softmax of the row A (r, k) + b (0, k), where b is the bias recast as one row of forty on the host.
  A vector of forty recast as one row reads, at (0, k), the vector at k; so the two rows agree entry by entry and the
  two arrays are equal.
-/
import proofs.«171940_j1838246003236_1_alg».proof.Proof.RefRead
import proofs.«171940_j1838246003236_1_alg».proof.Proof.SoftmaxRef
import proofs.«171940_j1838246003236_1_alg».proof.Proof.Region3
import Idealize.ShloMosaic.Lib.ValueIdx
import Idealize.ShloMosaic.Lib.ValueLayout

set_option maxRecDepth 16384

noncomputable section

namespace Cert.Gcn

open Idealize.ShloMosaic Idealize.ShloMosaic.ValueIdx

/-- The reference's log-softmax stage is the kernel region's whole-array function of the aggregated array and the bias
    recast as one row, whatever proof `h` of the recast's shape fact the program carries. -/
theorem val_v65_eq_logSoftmax40_of
    (x0 : (⟨Cert.ReferenceIdeal.S100000x512, .f32⟩ : BufTy).Contents (Elt Ideal))
    (x1 : (⟨Cert.ReferenceIdeal.S512x16, .f32⟩ : BufTy).Contents (Elt Ideal))
    (x2 : (⟨Cert.ReferenceIdeal.S16, .f32⟩ : BufTy).Contents (Elt Ideal))
    (x3 : (⟨Cert.ReferenceIdeal.S16x40, .f32⟩ : BufTy).Contents (Elt Ideal))
    (x4 : (⟨Cert.ReferenceIdeal.S40, .f32⟩ : BufTy).Contents (Elt Ideal))
    (x5 : (⟨Cert.ReferenceIdeal.S2x3200000, .i32⟩ : BufTy).Contents (Elt Ideal))
    (h : Cert.KernelIdeal.S40.ShapeCasts Cert.KernelIdeal.S1x40) :
    Cert.ReferenceIdeal.Read.val_main_v65 (F := Ideal) x0 x1 x2 x3 x4 x5
      = Cert.KernelIdeal.Blocks.logSoftmax40 (Cert.ReferenceIdeal.Read.val_main_v61 (F := Ideal) x0 x1 x2 x3 x5)
          (shapeCast Cert.KernelIdeal.S1x40 x4 h) := by
  funext i
  obtain ⟨r, q, rfl⟩ : ∃ (r : Fin 100000) (q : Fin 40), i = ix2 r q := ⟨i 0, i 1, eq_ix2 i⟩
  rw [ref_logsoftmax_apply]
  show rowLogSoftmax (fun k => Cert.ReferenceIdeal.Read.val_main_v61 (F := Ideal) x0 x1 x2 x3 x5 (ix2 r k) + x4 (ix1 k)) q
    = rowLogSoftmax (fun k => Cert.ReferenceIdeal.Read.val_main_v61 (F := Ideal) x0 x1 x2 x3 x5 (ix2 r k)
        + shapeCast Cert.KernelIdeal.S1x40 x4 h (ix2 (0 : Fin 1) k)) q
  have hrow : (fun k : Fin 40 => Cert.ReferenceIdeal.Read.val_main_v61 (F := Ideal) x0 x1 x2 x3 x5 (ix2 r k) + x4 (ix1 k))
      = fun k => Cert.ReferenceIdeal.Read.val_main_v61 (F := Ideal) x0 x1 x2 x3 x5 (ix2 r k)
        + shapeCast Cert.KernelIdeal.S1x40 x4 h (ix2 (0 : Fin 1) k) :=
    funext fun k => by rw [shapeCast_a_1a_apply]
  rw [hrow]

/-- The same with the kernel program's own shape fact. -/
theorem val_v65_eq_logSoftmax40
    (x0 : (⟨Cert.ReferenceIdeal.S100000x512, .f32⟩ : BufTy).Contents (Elt Ideal))
    (x1 : (⟨Cert.ReferenceIdeal.S512x16, .f32⟩ : BufTy).Contents (Elt Ideal))
    (x2 : (⟨Cert.ReferenceIdeal.S16, .f32⟩ : BufTy).Contents (Elt Ideal))
    (x3 : (⟨Cert.ReferenceIdeal.S16x40, .f32⟩ : BufTy).Contents (Elt Ideal))
    (x4 : (⟨Cert.ReferenceIdeal.S40, .f32⟩ : BufTy).Contents (Elt Ideal))
    (x5 : (⟨Cert.ReferenceIdeal.S2x3200000, .i32⟩ : BufTy).Contents (Elt Ideal)) :
    Cert.ReferenceIdeal.Read.val_main_v65 (F := Ideal) x0 x1 x2 x3 x4 x5
      = Cert.KernelIdeal.Blocks.logSoftmax40 (Cert.ReferenceIdeal.Read.val_main_v61 (F := Ideal) x0 x1 x2 x3 x5)
          (shapeCast Cert.KernelIdeal.S1x40 x4 Cert.KernelIdeal.Facts₀.shapeCasts_S40_S1x40) :=
  val_v65_eq_logSoftmax40_of x0 x1 x2 x3 x4 x5 _

end Cert.Gcn

end
-- ==== Proof.KernelValue.lean ====
/-
  The idealized kernel's result, as the reference's last stage of the launch arrays.

  Boundary by boundary through the program: the first region leaves the product of the feature matrix with the first
  weights; the host stretch after it aggregates that array along the edges exactly as the reference does; the second region
  adds the bias and clamps; the third multiplies by the second weights; the next host stretch aggregates again; the last
  region adds the second bias and takes each row's log-softmax. At every boundary the array is the reference's stage of the
  same name of the launch arrays, so the result array ends at the reference's result.
-/
import proofs.«171940_j1838246003236_1_alg».proof.Proof.Gen.KernelIdeal.Frame
import proofs.«171940_j1838246003236_1_alg».proof.Proof.KernelGlue
import proofs.«171940_j1838246003236_1_alg».proof.Proof.KernelGlue3
import proofs.«171940_j1838246003236_1_alg».proof.Proof.Region0
import proofs.«171940_j1838246003236_1_alg».proof.Proof.Region1
import proofs.«171940_j1838246003236_1_alg».proof.Proof.Region2
import proofs.«171940_j1838246003236_1_alg».proof.Proof.Region3
import proofs.«171940_j1838246003236_1_alg».proof.Proof.Join
import proofs.«171940_j1838246003236_1_alg».proof.Proof.JoinSoftmax

set_option maxRecDepth 16384

noncomputable section

namespace Cert.KernelIdeal.KValue

open Cert.KernelIdeal Cert.KernelIdeal.Gen Cert.KernelIdeal.Blocks Idealize.ShloMosaic Idealize.ShloMosaic.TcCoe Idealize.SL.Sem
open Cert.ReferenceIdeal.Read (val_main_v30 val_main_v43 val_main_v47 val_main_v48 val_main_v61 val_main_v65)

variable (m : (ℓ : Loc nD τ sig) → Buf (Elt Ideal) ℓ) (ρ : Dev nD → PrngReg) (c : Dev nD)

/-- After the first region: the first dense product of the launch arrays. -/
theorem v30 : V4 m ρ c main_v30 = val_main_v30 (F := Ideal) (m ((c : Thread nD τ).loc main_arg0)) (m ((c : Thread nD τ).loc main_arg1)) := by
  refine (W4_arr m ρ c 2).trans ((final0 (V3 m ρ) c).trans ?_)
  rw [Glue.V3_arg0 m ρ c, Glue.V3_arg1 m ρ c]
  exact (Cert.Gcn.Join.v30_eq _ _).symm

/-- After the second region: the first layer's clamped array. -/
theorem v45 : V6 m ρ c main_v45 = val_main_v47 (F := Ideal) (m ((c : Thread nD τ).loc main_arg0)) (m ((c : Thread nD τ).loc main_arg1)) (m ((c : Thread nD τ).loc main_arg2)) (m ((c : Thread nD τ).loc main_arg5)) := by
  refine (W6_arr m ρ c 2).trans ((final1 (V5 m ρ) c).trans ?_)
  rw [Glue.V5_v43 m ρ c (v30 m ρ c), Glue.V5_v44 m ρ c]
  exact (Cert.Gcn.Join.v47_eq _ _ _ _).symm

/-- After the third region: the second dense product. -/
theorem v46 : V7 m ρ c main_v46 = val_main_v48 (F := Ideal) (m ((c : Thread nD τ).loc main_arg0)) (m ((c : Thread nD τ).loc main_arg1)) (m ((c : Thread nD τ).loc main_arg2)) (m ((c : Thread nD τ).loc main_arg3)) (m ((c : Thread nD τ).loc main_arg5)) := by
  refine (W7_arr m ρ c 2).trans ((final2 (V6 m ρ) c).trans ?_)
  rw [v45 m ρ c, Glue.V6_arg3 m ρ c]
  exact (Cert.Gcn.Join.v48_eq _ _ _ _ _).symm

/-- After the last region: the reference's result of the launch arrays. -/
theorem kernel_value : W9 m ρ c (Proc.devRef .tc main_v61)
    = val_main_v65 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) := by
  refine (W9_arr m ρ c 2).trans ((final3 (V8 m ρ) c).trans ?_)
  rw [Glue.V8_v59 m ρ c (Glue.W3_v3 m ρ c) (Glue.W3_v6 m ρ c) (Glue.W3_v29 m ρ c) (v46 m ρ c), Glue.V8_v60 m ρ c]
  exact (Cert.Gcn.val_v65_eq_logSoftmax40 _ _ _ _ _ _).symm

end Cert.KernelIdeal.KValue

end
-- ==== Proof.RefProgram.lean ====
/-
  The reference program as a list of host operations, and its run.

  The reference has no kernel launch: its @main is ninety-eight host operations in a row, so every weakly fair execution
  ends with each buffer holding what the operations, applied in order to the launch contents, leave in it
  (`StableHlo.after`), and no operation writes an argument. The list is also cut into seven consecutive stretches — the
  graph's normalisation (source and destination lists with the self loops, the in-degrees and the edge weights); the first
  dense product; the first aggregation; bias and clamp; the second dense product; the second aggregation; bias and
  log-softmax — which is where the two programs are compared, stretch by stretch.
-/
import proofs.«171940_j1838246003236_1_alg».proof.Proof.Gen.ReferenceIdeal
import Idealize.ShloMosaic.Lib.StableHlo.Run

noncomputable section

namespace Cert.ReferenceIdeal.HostRun

open Cert.ReferenceIdeal Cert.ReferenceIdeal.Gen Idealize.ShloMosaic Idealize.ShloMosaic.TcCoe Idealize.SL.Sem Idealize.ShloMosaic.StableHlo

variable {F : FTy → Type} [FloatOps F]

/-- @main's 98 operations, in order (a called function's operations stand in its call's place). -/
abbrev ops : List (HloOp τ sig (Elt F)) :=
  [ nullary main_v0 (iotaInDim S100000 32 0),
    unary main_arg5 main_v1 ((extractStridedSlice S1x3200000 ![0, 0] · slices_S2x3200000_S1x3200000_0_0) : (⟨S2x3200000, .i32⟩ : BufTy).Contents (Elt F) → (⟨S1x3200000, .i32⟩ : BufTy).Contents (Elt F)),
    reshape main_v1 main_v2 rfl shapeCasts_S1x3200000_S3200000,
    binary main_v2 main_v0 main_v3 ((fun a b => concatenate S3300000 0 [⟨S3200000, a⟩, ⟨S100000, b⟩] concatenates_S3200000_S100000_S3300000_d0) : (⟨S3200000, .i32⟩ : BufTy).Contents (Elt F) → (⟨S100000, .i32⟩ : BufTy).Contents (Elt F) → (⟨S3300000, .i32⟩ : BufTy).Contents (Elt F)),
    unary main_arg5 main_v4 ((extractStridedSlice S1x3200000 ![1, 0] · slices_S2x3200000_S1x3200000_1_0) : (⟨S2x3200000, .i32⟩ : BufTy).Contents (Elt F) → (⟨S1x3200000, .i32⟩ : BufTy).Contents (Elt F)),
    reshape main_v4 main_v5 rfl shapeCasts_S1x3200000_S3200000,
    binary main_v5 main_v0 main_v6 ((fun a b => concatenate S3300000 0 [⟨S3200000, a⟩, ⟨S100000, b⟩] concatenates_S3200000_S100000_S3300000_d0) : (⟨S3200000, .i32⟩ : BufTy).Contents (Elt F) → (⟨S100000, .i32⟩ : BufTy).Contents (Elt F) → (⟨S3300000, .i32⟩ : BufTy).Contents (Elt F)),
    nullary main_cst (constant S_ .f32 0x3F800000#32),
    unary main_cst main_v7 (broadcastInDim S3300000 ![] bcast_S_S3300000 : (⟨S_, .f32⟩ : BufTy).Contents (Elt F) → (⟨S3300000, .f32⟩ : BufTy).Contents (Elt F)),
    nullary main_cst_0 (constant S_ .f32 0x00000000#32),
    unary main_cst_0 main_v8 (broadcastInDim S100000 ![] bcast_S_S100000 : (⟨S_, .f32⟩ : BufTy).Contents (Elt F) → (⟨S100000, .f32⟩ : BufTy).Contents (Elt F)),
    unary main_v6 main_v9 (broadcastInDim S3300000x1 ![0] bcast_S3300000_S3300000x1_0 : (⟨S3300000, .i32⟩ : BufTy).Contents (Elt F) → (⟨S3300000x1, .i32⟩ : BufTy).Contents (Elt F)),
    ternary main_v8 main_v9 main_v7 main_v10 ((fun x i u => Host.scatterAdd scatter_S100000_S3300000x1_S3300000_n_0_0_1 x i u) : (⟨S100000, .f32⟩ : BufTy).Contents (Elt F) → (⟨S3300000x1, .i32⟩ : BufTy).Contents (Elt F) → (⟨S3300000, .f32⟩ : BufTy).Contents (Elt F) → (⟨S100000, .f32⟩ : BufTy).Contents (Elt F)),
    nullary main_cst_1 (constant S_ .f32 0x00000000#32),
    unary main_cst_1 main_v11 (broadcastInDim S100000 ![] bcast_S_S100000 : (⟨S_, .f32⟩ : BufTy).Contents (Elt F) → (⟨S100000, .f32⟩ : BufTy).Contents (Elt F)),
    binary main_v10 main_v11 main_v12 (cmpf .ogt : (⟨S100000, .f32⟩ : BufTy).Contents (Elt F) → (⟨S100000, .f32⟩ : BufTy).Contents (Elt F) → (⟨S100000, .i1⟩ : BufTy).Contents (Elt F)),
    unary main_v10 main_v13 (Host.rsqrt : (⟨S100000, .f32⟩ : BufTy).Contents (Elt F) → (⟨S100000, .f32⟩ : BufTy).Contents (Elt F)),
    nullary main_cst_2 (constant S_ .f32 0x00000000#32),
    TRef.unary (TRef.of (T := ⟨S_, .f32⟩) main_cst_2) (TRef.of (T := ⟨S_, .f32⟩) main_call0_v0) id,
    TRef.unary (TRef.of (T := ⟨S_, .f32⟩) main_call0_v0) (TRef.of (T := ⟨S100000, .f32⟩) main_call0_v1) (broadcastInDim S100000 ![] bcast_S_S100000),
    TRef.ternary (TRef.of (T := ⟨S100000, .i1⟩) main_v12) (TRef.of (T := ⟨S100000, .f32⟩) main_v13) (TRef.of (T := ⟨S100000, .f32⟩) main_call0_v1) (TRef.of (T := ⟨S100000, .f32⟩) main_v14) select,
    nullary main_c (constantI S_ 32 0#32),
    unary main_c main_v15 (broadcastInDim S3300000 ![] bcast_S_S3300000 : (⟨S_, .i32⟩ : BufTy).Contents (Elt F) → (⟨S3300000, .i32⟩ : BufTy).Contents (Elt F)),
    binary main_v3 main_v15 main_v16 (cmpi .slt : (⟨S3300000, .i32⟩ : BufTy).Contents (Elt F) → (⟨S3300000, .i32⟩ : BufTy).Contents (Elt F) → (⟨S3300000, .i1⟩ : BufTy).Contents (Elt F)),
    nullary main_c_3 (constantI S_ 32 100000#32),
    unary main_c_3 main_v17 (broadcastInDim S3300000 ![] bcast_S_S3300000 : (⟨S_, .i32⟩ : BufTy).Contents (Elt F) → (⟨S3300000, .i32⟩ : BufTy).Contents (Elt F)),
    binary main_v3 main_v17 main_v18 (addi : (⟨S3300000, .i32⟩ : BufTy).Contents (Elt F) → (⟨S3300000, .i32⟩ : BufTy).Contents (Elt F) → (⟨S3300000, .i32⟩ : BufTy).Contents (Elt F)),
    ternary main_v16 main_v18 main_v3 main_v19 (select : (⟨S3300000, .i1⟩ : BufTy).Contents (Elt F) → (⟨S3300000, .i32⟩ : BufTy).Contents (Elt F) → (⟨S3300000, .i32⟩ : BufTy).Contents (Elt F) → (⟨S3300000, .i32⟩ : BufTy).Contents (Elt F)),
    unary main_v19 main_v20 (broadcastInDim S3300000x1 ![0] bcast_S3300000_S3300000x1_0 : (⟨S3300000, .i32⟩ : BufTy).Contents (Elt F) → (⟨S3300000x1, .i32⟩ : BufTy).Contents (Elt F)),
    binary main_v14 main_v20 main_v21 ((fun x i => Host.gather gather_S100000_S3300000x1_S3300000_n_0_n_n_0_1_1 x i) : (⟨S100000, .f32⟩ : BufTy).Contents (Elt F) → (⟨S3300000x1, .i32⟩ : BufTy).Contents (Elt F) → (⟨S3300000, .f32⟩ : BufTy).Contents (Elt F)),
    nullary main_c_4 (constantI S_ 32 0#32),
    unary main_c_4 main_v22 (broadcastInDim S3300000 ![] bcast_S_S3300000 : (⟨S_, .i32⟩ : BufTy).Contents (Elt F) → (⟨S3300000, .i32⟩ : BufTy).Contents (Elt F)),
    binary main_v6 main_v22 main_v23 (cmpi .slt : (⟨S3300000, .i32⟩ : BufTy).Contents (Elt F) → (⟨S3300000, .i32⟩ : BufTy).Contents (Elt F) → (⟨S3300000, .i1⟩ : BufTy).Contents (Elt F)),
    nullary main_c_5 (constantI S_ 32 100000#32),
    unary main_c_5 main_v24 (broadcastInDim S3300000 ![] bcast_S_S3300000 : (⟨S_, .i32⟩ : BufTy).Contents (Elt F) → (⟨S3300000, .i32⟩ : BufTy).Contents (Elt F)),
    binary main_v6 main_v24 main_v25 (addi : (⟨S3300000, .i32⟩ : BufTy).Contents (Elt F) → (⟨S3300000, .i32⟩ : BufTy).Contents (Elt F) → (⟨S3300000, .i32⟩ : BufTy).Contents (Elt F)),
    ternary main_v23 main_v25 main_v6 main_v26 (select : (⟨S3300000, .i1⟩ : BufTy).Contents (Elt F) → (⟨S3300000, .i32⟩ : BufTy).Contents (Elt F) → (⟨S3300000, .i32⟩ : BufTy).Contents (Elt F) → (⟨S3300000, .i32⟩ : BufTy).Contents (Elt F)),
    unary main_v26 main_v27 (broadcastInDim S3300000x1 ![0] bcast_S3300000_S3300000x1_0 : (⟨S3300000, .i32⟩ : BufTy).Contents (Elt F) → (⟨S3300000x1, .i32⟩ : BufTy).Contents (Elt F)),
    binary main_v14 main_v27 main_v28 ((fun x i => Host.gather gather_S100000_S3300000x1_S3300000_n_0_n_n_0_1_1 x i) : (⟨S100000, .f32⟩ : BufTy).Contents (Elt F) → (⟨S3300000x1, .i32⟩ : BufTy).Contents (Elt F) → (⟨S3300000, .f32⟩ : BufTy).Contents (Elt F)),
    binary main_v21 main_v28 main_v29 (mulf : (⟨S3300000, .f32⟩ : BufTy).Contents (Elt F) → (⟨S3300000, .f32⟩ : BufTy).Contents (Elt F) → (⟨S3300000, .f32⟩ : BufTy).Contents (Elt F)),
    binary main_arg0 main_arg1 main_v30 ((fun l r => Host.dotGeneral dot_S100000x512_S512x16_S100000x16_1_0_0_1_n_n none l r) : (⟨S100000x512, .f32⟩ : BufTy).Contents (Elt F) → (⟨S512x16, .f32⟩ : BufTy).Contents (Elt F) → (⟨S100000x16, .f32⟩ : BufTy).Contents (Elt F)),
    nullary main_c_6 (constantI S_ 32 0#32),
    unary main_c_6 main_v31 (broadcastInDim S3300000 ![] bcast_S_S3300000 : (⟨S_, .i32⟩ : BufTy).Contents (Elt F) → (⟨S3300000, .i32⟩ : BufTy).Contents (Elt F)),
    binary main_v3 main_v31 main_v32 (cmpi .slt : (⟨S3300000, .i32⟩ : BufTy).Contents (Elt F) → (⟨S3300000, .i32⟩ : BufTy).Contents (Elt F) → (⟨S3300000, .i1⟩ : BufTy).Contents (Elt F)),
    nullary main_c_7 (constantI S_ 32 100000#32),
    unary main_c_7 main_v33 (broadcastInDim S3300000 ![] bcast_S_S3300000 : (⟨S_, .i32⟩ : BufTy).Contents (Elt F) → (⟨S3300000, .i32⟩ : BufTy).Contents (Elt F)),
    binary main_v3 main_v33 main_v34 (addi : (⟨S3300000, .i32⟩ : BufTy).Contents (Elt F) → (⟨S3300000, .i32⟩ : BufTy).Contents (Elt F) → (⟨S3300000, .i32⟩ : BufTy).Contents (Elt F)),
    ternary main_v32 main_v34 main_v3 main_v35 (select : (⟨S3300000, .i1⟩ : BufTy).Contents (Elt F) → (⟨S3300000, .i32⟩ : BufTy).Contents (Elt F) → (⟨S3300000, .i32⟩ : BufTy).Contents (Elt F) → (⟨S3300000, .i32⟩ : BufTy).Contents (Elt F)),
    unary main_v35 main_v36 (broadcastInDim S3300000x1 ![0] bcast_S3300000_S3300000x1_0 : (⟨S3300000, .i32⟩ : BufTy).Contents (Elt F) → (⟨S3300000x1, .i32⟩ : BufTy).Contents (Elt F)),
    binary main_v30 main_v36 main_v37 ((fun x i => Host.gather gather_S100000x16_S3300000x1_S3300000x16_1_0_n_n_0_1_116 x i) : (⟨S100000x16, .f32⟩ : BufTy).Contents (Elt F) → (⟨S3300000x1, .i32⟩ : BufTy).Contents (Elt F) → (⟨S3300000x16, .f32⟩ : BufTy).Contents (Elt F)),
    unary main_v29 main_v38 (broadcastInDim S3300000x1 ![0] bcast_S3300000_S3300000x1_0 : (⟨S3300000, .f32⟩ : BufTy).Contents (Elt F) → (⟨S3300000x1, .f32⟩ : BufTy).Contents (Elt F)),
    unary main_v38 main_v39 (broadcastInDim S3300000x16 ![0, 1] bcast_S3300000x1_S3300000x16_0_1 : (⟨S3300000x1, .f32⟩ : BufTy).Contents (Elt F) → (⟨S3300000x16, .f32⟩ : BufTy).Contents (Elt F)),
    binary main_v37 main_v39 main_v40 (mulf : (⟨S3300000x16, .f32⟩ : BufTy).Contents (Elt F) → (⟨S3300000x16, .f32⟩ : BufTy).Contents (Elt F) → (⟨S3300000x16, .f32⟩ : BufTy).Contents (Elt F)),
    nullary main_cst_8 (constant S_ .f32 0x00000000#32),
    unary main_cst_8 main_v41 (broadcastInDim S100000x16 ![] bcast_S_S100000x16 : (⟨S_, .f32⟩ : BufTy).Contents (Elt F) → (⟨S100000x16, .f32⟩ : BufTy).Contents (Elt F)),
    unary main_v6 main_v42 (broadcastInDim S3300000x1 ![0] bcast_S3300000_S3300000x1_0 : (⟨S3300000, .i32⟩ : BufTy).Contents (Elt F) → (⟨S3300000x1, .i32⟩ : BufTy).Contents (Elt F)),
    ternary main_v41 main_v42 main_v40 main_v43 ((fun x i u => Host.scatterAdd scatter_S100000x16_S3300000x1_S3300000x16_1_0_0_1 x i u) : (⟨S100000x16, .f32⟩ : BufTy).Contents (Elt F) → (⟨S3300000x1, .i32⟩ : BufTy).Contents (Elt F) → (⟨S3300000x16, .f32⟩ : BufTy).Contents (Elt F) → (⟨S100000x16, .f32⟩ : BufTy).Contents (Elt F)),
    unary main_arg2 main_v44 (broadcastInDim S1x16 ![1] bcast_S16_S1x16_1 : (⟨S16, .f32⟩ : BufTy).Contents (Elt F) → (⟨S1x16, .f32⟩ : BufTy).Contents (Elt F)),
    unary main_v44 main_v45 (broadcastInDim S100000x16 ![0, 1] bcast_S1x16_S100000x16_0_1 : (⟨S1x16, .f32⟩ : BufTy).Contents (Elt F) → (⟨S100000x16, .f32⟩ : BufTy).Contents (Elt F)),
    binary main_v43 main_v45 main_v46 (addf : (⟨S100000x16, .f32⟩ : BufTy).Contents (Elt F) → (⟨S100000x16, .f32⟩ : BufTy).Contents (Elt F) → (⟨S100000x16, .f32⟩ : BufTy).Contents (Elt F)),
    TRef.nullary (TRef.of (T := ⟨S_, .f32⟩) main_call1_cst) (constant S_ .f32 0x00000000#32),
    TRef.unary (TRef.of (T := ⟨S_, .f32⟩) main_call1_cst) (TRef.of (T := ⟨S100000x16, .f32⟩) main_call1_v0) (broadcastInDim S100000x16 ![] bcast_S_S100000x16),
    TRef.binary (TRef.of (T := ⟨S100000x16, .f32⟩) main_v46) (TRef.of (T := ⟨S100000x16, .f32⟩) main_call1_v0) (TRef.of (T := ⟨S100000x16, .f32⟩) main_v47) maximumf,
    binary main_v47 main_arg3 main_v48 ((fun l r => Host.dotGeneral dot_S100000x16_S16x40_S100000x40_1_0_0_1_n_n none l r) : (⟨S100000x16, .f32⟩ : BufTy).Contents (Elt F) → (⟨S16x40, .f32⟩ : BufTy).Contents (Elt F) → (⟨S100000x40, .f32⟩ : BufTy).Contents (Elt F)),
    nullary main_c_9 (constantI S_ 32 0#32),
    unary main_c_9 main_v49 (broadcastInDim S3300000 ![] bcast_S_S3300000 : (⟨S_, .i32⟩ : BufTy).Contents (Elt F) → (⟨S3300000, .i32⟩ : BufTy).Contents (Elt F)),
    binary main_v3 main_v49 main_v50 (cmpi .slt : (⟨S3300000, .i32⟩ : BufTy).Contents (Elt F) → (⟨S3300000, .i32⟩ : BufTy).Contents (Elt F) → (⟨S3300000, .i1⟩ : BufTy).Contents (Elt F)),
    nullary main_c_10 (constantI S_ 32 100000#32),
    unary main_c_10 main_v51 (broadcastInDim S3300000 ![] bcast_S_S3300000 : (⟨S_, .i32⟩ : BufTy).Contents (Elt F) → (⟨S3300000, .i32⟩ : BufTy).Contents (Elt F)),
    binary main_v3 main_v51 main_v52 (addi : (⟨S3300000, .i32⟩ : BufTy).Contents (Elt F) → (⟨S3300000, .i32⟩ : BufTy).Contents (Elt F) → (⟨S3300000, .i32⟩ : BufTy).Contents (Elt F)),
    ternary main_v50 main_v52 main_v3 main_v53 (select : (⟨S3300000, .i1⟩ : BufTy).Contents (Elt F) → (⟨S3300000, .i32⟩ : BufTy).Contents (Elt F) → (⟨S3300000, .i32⟩ : BufTy).Contents (Elt F) → (⟨S3300000, .i32⟩ : BufTy).Contents (Elt F)),
    unary main_v53 main_v54 (broadcastInDim S3300000x1 ![0] bcast_S3300000_S3300000x1_0 : (⟨S3300000, .i32⟩ : BufTy).Contents (Elt F) → (⟨S3300000x1, .i32⟩ : BufTy).Contents (Elt F)),
    binary main_v48 main_v54 main_v55 ((fun x i => Host.gather gather_S100000x40_S3300000x1_S3300000x40_1_0_n_n_0_1_140 x i) : (⟨S100000x40, .f32⟩ : BufTy).Contents (Elt F) → (⟨S3300000x1, .i32⟩ : BufTy).Contents (Elt F) → (⟨S3300000x40, .f32⟩ : BufTy).Contents (Elt F)),
    unary main_v29 main_v56 (broadcastInDim S3300000x1 ![0] bcast_S3300000_S3300000x1_0 : (⟨S3300000, .f32⟩ : BufTy).Contents (Elt F) → (⟨S3300000x1, .f32⟩ : BufTy).Contents (Elt F)),
    unary main_v56 main_v57 (broadcastInDim S3300000x40 ![0, 1] bcast_S3300000x1_S3300000x40_0_1 : (⟨S3300000x1, .f32⟩ : BufTy).Contents (Elt F) → (⟨S3300000x40, .f32⟩ : BufTy).Contents (Elt F)),
    binary main_v55 main_v57 main_v58 (mulf : (⟨S3300000x40, .f32⟩ : BufTy).Contents (Elt F) → (⟨S3300000x40, .f32⟩ : BufTy).Contents (Elt F) → (⟨S3300000x40, .f32⟩ : BufTy).Contents (Elt F)),
    nullary main_cst_11 (constant S_ .f32 0x00000000#32),
    unary main_cst_11 main_v59 (broadcastInDim S100000x40 ![] bcast_S_S100000x40 : (⟨S_, .f32⟩ : BufTy).Contents (Elt F) → (⟨S100000x40, .f32⟩ : BufTy).Contents (Elt F)),
    unary main_v6 main_v60 (broadcastInDim S3300000x1 ![0] bcast_S3300000_S3300000x1_0 : (⟨S3300000, .i32⟩ : BufTy).Contents (Elt F) → (⟨S3300000x1, .i32⟩ : BufTy).Contents (Elt F)),
    ternary main_v59 main_v60 main_v58 main_v61 ((fun x i u => Host.scatterAdd scatter_S100000x40_S3300000x1_S3300000x40_1_0_0_1 x i u) : (⟨S100000x40, .f32⟩ : BufTy).Contents (Elt F) → (⟨S3300000x1, .i32⟩ : BufTy).Contents (Elt F) → (⟨S3300000x40, .f32⟩ : BufTy).Contents (Elt F) → (⟨S100000x40, .f32⟩ : BufTy).Contents (Elt F)),
    unary main_arg4 main_v62 (broadcastInDim S1x40 ![1] bcast_S40_S1x40_1 : (⟨S40, .f32⟩ : BufTy).Contents (Elt F) → (⟨S1x40, .f32⟩ : BufTy).Contents (Elt F)),
    unary main_v62 main_v63 (broadcastInDim S100000x40 ![0, 1] bcast_S1x40_S100000x40_0_1 : (⟨S1x40, .f32⟩ : BufTy).Contents (Elt F) → (⟨S100000x40, .f32⟩ : BufTy).Contents (Elt F)),
    binary main_v61 main_v63 main_v64 (addf : (⟨S100000x40, .f32⟩ : BufTy).Contents (Elt F) → (⟨S100000x40, .f32⟩ : BufTy).Contents (Elt F) → (⟨S100000x40, .f32⟩ : BufTy).Contents (Elt F)),
    TRef.nullary (TRef.of (T := ⟨S_, .f32⟩) main_call2_cst) (constant S_ .f32 0xFF800000#32),
    TRef.binary (TRef.of (T := ⟨S100000x40, .f32⟩) main_v64) (TRef.of (T := ⟨S_, .f32⟩) main_call2_cst) (TRef.of (T := ⟨S100000, .f32⟩) main_call2_v0) (fun x v => Host.reduce FloatOps.maximumf x v reducesTo_S100000x40_S100000_d1 h_S_),
    TRef.nullary (TRef.of (T := ⟨S_, .f32⟩) main_call2_cst_0) (constant S_ .f32 0xFF800000#32),
    TRef.unary (TRef.of (T := ⟨S_, .f32⟩) main_call2_cst_0) (TRef.of (T := ⟨S100000, .f32⟩) main_call2_v1) (broadcastInDim S100000 ![] bcast_S_S100000),
    TRef.binary (TRef.of (T := ⟨S100000, .f32⟩) main_call2_v1) (TRef.of (T := ⟨S100000, .f32⟩) main_call2_v0) (TRef.of (T := ⟨S100000, .f32⟩) main_call2_v2) maximumf,
    TRef.unary (TRef.of (T := ⟨S100000, .f32⟩) main_call2_v2) (TRef.of (T := ⟨S100000x1, .f32⟩) main_call2_v3) (broadcastInDim S100000x1 ![0] bcast_S100000_S100000x1_0),
    TRef.unary (TRef.of (T := ⟨S100000x1, .f32⟩) main_call2_v3) (TRef.of (T := ⟨S100000x40, .f32⟩) main_call2_v4) (broadcastInDim S100000x40 ![0, 1] bcast_S100000x1_S100000x40_0_1),
    TRef.binary (TRef.of (T := ⟨S100000x40, .f32⟩) main_v64) (TRef.of (T := ⟨S100000x40, .f32⟩) main_call2_v4) (TRef.of (T := ⟨S100000x40, .f32⟩) main_call2_v5) subf,
    TRef.unary (TRef.of (T := ⟨S100000x40, .f32⟩) main_call2_v5) (TRef.of (T := ⟨S100000x40, .f32⟩) main_call2_v6) Host.exp,
    TRef.nullary (TRef.of (T := ⟨S_, .f32⟩) main_call2_cst_1) (constant S_ .f32 0x00000000#32),
    TRef.binary (TRef.of (T := ⟨S100000x40, .f32⟩) main_call2_v6) (TRef.of (T := ⟨S_, .f32⟩) main_call2_cst_1) (TRef.of (T := ⟨S100000, .f32⟩) main_call2_v7) (fun x v => Host.reduceAdd x v reducesTo_S100000x40_S100000_d1 h_S_),
    TRef.unary (TRef.of (T := ⟨S100000, .f32⟩) main_call2_v7) (TRef.of (T := ⟨S100000x1, .f32⟩) main_call2_v8) (broadcastInDim S100000x1 ![0] bcast_S100000_S100000x1_0),
    TRef.unary (TRef.of (T := ⟨S100000x1, .f32⟩) main_call2_v8) (TRef.of (T := ⟨S100000x1, .f32⟩) main_call2_v9) Host.log,
    TRef.unary (TRef.of (T := ⟨S100000x1, .f32⟩) main_call2_v9) (TRef.of (T := ⟨S100000x40, .f32⟩) main_call2_v10) (broadcastInDim S100000x40 ![0, 1] bcast_S100000x1_S100000x40_0_1),
    TRef.binary (TRef.of (T := ⟨S100000x40, .f32⟩) main_call2_v5) (TRef.of (T := ⟨S100000x40, .f32⟩) main_call2_v10) (TRef.of (T := ⟨S100000x40, .f32⟩) main_v65) subf ]

set_option maxRecDepth 8192 in
set_option maxHeartbeats 4000000 in
theorem main_eq (c : Dev nD) : main (F := F) c = seq ops := rfl
theorem scopedRefs_eq : (Finset.univ.filter fun b : Ref sig .tc => b.isScoped) = ∅ := by decide
theorem scopedSems_eq : (Finset.univ.filter fun sm : SemLoc sig => sm.isScoped .tc) = ∅ := by decide
set_option maxRecDepth 8192 in
theorem ops_sub : (ops : List (HloOp τ sig (Elt F))).Forall fun op => op.bufs ⊆ tcRefs τ sig :=
  ⟨nullary_bufs_sub .., unary_bufs_sub .., reshape_bufs_sub .., binary_bufs_sub .., unary_bufs_sub .., reshape_bufs_sub .., binary_bufs_sub .., nullary_bufs_sub .., unary_bufs_sub .., nullary_bufs_sub .., unary_bufs_sub .., unary_bufs_sub .., ternary_bufs_sub .., nullary_bufs_sub .., unary_bufs_sub .., binary_bufs_sub .., unary_bufs_sub .., nullary_bufs_sub .., unary_bufs_sub .., unary_bufs_sub .., ternary_bufs_sub .., nullary_bufs_sub .., unary_bufs_sub .., binary_bufs_sub .., nullary_bufs_sub .., unary_bufs_sub .., binary_bufs_sub .., ternary_bufs_sub .., unary_bufs_sub .., binary_bufs_sub .., nullary_bufs_sub .., unary_bufs_sub .., binary_bufs_sub .., nullary_bufs_sub .., unary_bufs_sub .., binary_bufs_sub .., ternary_bufs_sub .., unary_bufs_sub .., binary_bufs_sub .., binary_bufs_sub .., binary_bufs_sub .., nullary_bufs_sub .., unary_bufs_sub .., binary_bufs_sub .., nullary_bufs_sub .., unary_bufs_sub .., binary_bufs_sub .., ternary_bufs_sub .., unary_bufs_sub .., binary_bufs_sub .., unary_bufs_sub .., unary_bufs_sub .., binary_bufs_sub .., nullary_bufs_sub .., unary_bufs_sub .., unary_bufs_sub .., ternary_bufs_sub .., unary_bufs_sub .., unary_bufs_sub .., binary_bufs_sub .., nullary_bufs_sub .., unary_bufs_sub .., binary_bufs_sub .., binary_bufs_sub .., nullary_bufs_sub .., unary_bufs_sub .., binary_bufs_sub .., nullary_bufs_sub .., unary_bufs_sub .., binary_bufs_sub .., ternary_bufs_sub .., unary_bufs_sub .., binary_bufs_sub .., unary_bufs_sub .., unary_bufs_sub .., binary_bufs_sub .., nullary_bufs_sub .., unary_bufs_sub .., unary_bufs_sub .., ternary_bufs_sub .., unary_bufs_sub .., unary_bufs_sub .., binary_bufs_sub .., nullary_bufs_sub .., binary_bufs_sub .., nullary_bufs_sub .., unary_bufs_sub .., binary_bufs_sub .., unary_bufs_sub .., unary_bufs_sub .., binary_bufs_sub .., unary_bufs_sub .., nullary_bufs_sub .., binary_bufs_sub .., unary_bufs_sub .., unary_bufs_sub .., unary_bufs_sub .., binary_bufs_sub ..⟩

/-- The graph's normalisation: sources and destinations with the self loops appended, in-degrees, edge weights. -/
abbrev opsA : List (HloOp τ sig (Elt F)) :=
  [ nullary main_v0 (iotaInDim S100000 32 0),
    unary main_arg5 main_v1 ((extractStridedSlice S1x3200000 ![0, 0] · slices_S2x3200000_S1x3200000_0_0) : (⟨S2x3200000, .i32⟩ : BufTy).Contents (Elt F) → (⟨S1x3200000, .i32⟩ : BufTy).Contents (Elt F)),
    reshape main_v1 main_v2 rfl shapeCasts_S1x3200000_S3200000,
    binary main_v2 main_v0 main_v3 ((fun a b => concatenate S3300000 0 [⟨S3200000, a⟩, ⟨S100000, b⟩] concatenates_S3200000_S100000_S3300000_d0) : (⟨S3200000, .i32⟩ : BufTy).Contents (Elt F) → (⟨S100000, .i32⟩ : BufTy).Contents (Elt F) → (⟨S3300000, .i32⟩ : BufTy).Contents (Elt F)),
    unary main_arg5 main_v4 ((extractStridedSlice S1x3200000 ![1, 0] · slices_S2x3200000_S1x3200000_1_0) : (⟨S2x3200000, .i32⟩ : BufTy).Contents (Elt F) → (⟨S1x3200000, .i32⟩ : BufTy).Contents (Elt F)),
    reshape main_v4 main_v5 rfl shapeCasts_S1x3200000_S3200000,
    binary main_v5 main_v0 main_v6 ((fun a b => concatenate S3300000 0 [⟨S3200000, a⟩, ⟨S100000, b⟩] concatenates_S3200000_S100000_S3300000_d0) : (⟨S3200000, .i32⟩ : BufTy).Contents (Elt F) → (⟨S100000, .i32⟩ : BufTy).Contents (Elt F) → (⟨S3300000, .i32⟩ : BufTy).Contents (Elt F)),
    nullary main_cst (constant S_ .f32 0x3F800000#32),
    unary main_cst main_v7 (broadcastInDim S3300000 ![] bcast_S_S3300000 : (⟨S_, .f32⟩ : BufTy).Contents (Elt F) → (⟨S3300000, .f32⟩ : BufTy).Contents (Elt F)),
    nullary main_cst_0 (constant S_ .f32 0x00000000#32),
    unary main_cst_0 main_v8 (broadcastInDim S100000 ![] bcast_S_S100000 : (⟨S_, .f32⟩ : BufTy).Contents (Elt F) → (⟨S100000, .f32⟩ : BufTy).Contents (Elt F)),
    unary main_v6 main_v9 (broadcastInDim S3300000x1 ![0] bcast_S3300000_S3300000x1_0 : (⟨S3300000, .i32⟩ : BufTy).Contents (Elt F) → (⟨S3300000x1, .i32⟩ : BufTy).Contents (Elt F)),
    ternary main_v8 main_v9 main_v7 main_v10 ((fun x i u => Host.scatterAdd scatter_S100000_S3300000x1_S3300000_n_0_0_1 x i u) : (⟨S100000, .f32⟩ : BufTy).Contents (Elt F) → (⟨S3300000x1, .i32⟩ : BufTy).Contents (Elt F) → (⟨S3300000, .f32⟩ : BufTy).Contents (Elt F) → (⟨S100000, .f32⟩ : BufTy).Contents (Elt F)),
    nullary main_cst_1 (constant S_ .f32 0x00000000#32),
    unary main_cst_1 main_v11 (broadcastInDim S100000 ![] bcast_S_S100000 : (⟨S_, .f32⟩ : BufTy).Contents (Elt F) → (⟨S100000, .f32⟩ : BufTy).Contents (Elt F)),
    binary main_v10 main_v11 main_v12 (cmpf .ogt : (⟨S100000, .f32⟩ : BufTy).Contents (Elt F) → (⟨S100000, .f32⟩ : BufTy).Contents (Elt F) → (⟨S100000, .i1⟩ : BufTy).Contents (Elt F)),
    unary main_v10 main_v13 (Host.rsqrt : (⟨S100000, .f32⟩ : BufTy).Contents (Elt F) → (⟨S100000, .f32⟩ : BufTy).Contents (Elt F)),
    nullary main_cst_2 (constant S_ .f32 0x00000000#32),
    TRef.unary (TRef.of (T := ⟨S_, .f32⟩) main_cst_2) (TRef.of (T := ⟨S_, .f32⟩) main_call0_v0) id,
    TRef.unary (TRef.of (T := ⟨S_, .f32⟩) main_call0_v0) (TRef.of (T := ⟨S100000, .f32⟩) main_call0_v1) (broadcastInDim S100000 ![] bcast_S_S100000),
    TRef.ternary (TRef.of (T := ⟨S100000, .i1⟩) main_v12) (TRef.of (T := ⟨S100000, .f32⟩) main_v13) (TRef.of (T := ⟨S100000, .f32⟩) main_call0_v1) (TRef.of (T := ⟨S100000, .f32⟩) main_v14) select,
    nullary main_c (constantI S_ 32 0#32),
    unary main_c main_v15 (broadcastInDim S3300000 ![] bcast_S_S3300000 : (⟨S_, .i32⟩ : BufTy).Contents (Elt F) → (⟨S3300000, .i32⟩ : BufTy).Contents (Elt F)),
    binary main_v3 main_v15 main_v16 (cmpi .slt : (⟨S3300000, .i32⟩ : BufTy).Contents (Elt F) → (⟨S3300000, .i32⟩ : BufTy).Contents (Elt F) → (⟨S3300000, .i1⟩ : BufTy).Contents (Elt F)),
    nullary main_c_3 (constantI S_ 32 100000#32),
    unary main_c_3 main_v17 (broadcastInDim S3300000 ![] bcast_S_S3300000 : (⟨S_, .i32⟩ : BufTy).Contents (Elt F) → (⟨S3300000, .i32⟩ : BufTy).Contents (Elt F)),
    binary main_v3 main_v17 main_v18 (addi : (⟨S3300000, .i32⟩ : BufTy).Contents (Elt F) → (⟨S3300000, .i32⟩ : BufTy).Contents (Elt F) → (⟨S3300000, .i32⟩ : BufTy).Contents (Elt F)),
    ternary main_v16 main_v18 main_v3 main_v19 (select : (⟨S3300000, .i1⟩ : BufTy).Contents (Elt F) → (⟨S3300000, .i32⟩ : BufTy).Contents (Elt F) → (⟨S3300000, .i32⟩ : BufTy).Contents (Elt F) → (⟨S3300000, .i32⟩ : BufTy).Contents (Elt F)),
    unary main_v19 main_v20 (broadcastInDim S3300000x1 ![0] bcast_S3300000_S3300000x1_0 : (⟨S3300000, .i32⟩ : BufTy).Contents (Elt F) → (⟨S3300000x1, .i32⟩ : BufTy).Contents (Elt F)),
    binary main_v14 main_v20 main_v21 ((fun x i => Host.gather gather_S100000_S3300000x1_S3300000_n_0_n_n_0_1_1 x i) : (⟨S100000, .f32⟩ : BufTy).Contents (Elt F) → (⟨S3300000x1, .i32⟩ : BufTy).Contents (Elt F) → (⟨S3300000, .f32⟩ : BufTy).Contents (Elt F)),
    nullary main_c_4 (constantI S_ 32 0#32),
    unary main_c_4 main_v22 (broadcastInDim S3300000 ![] bcast_S_S3300000 : (⟨S_, .i32⟩ : BufTy).Contents (Elt F) → (⟨S3300000, .i32⟩ : BufTy).Contents (Elt F)),
    binary main_v6 main_v22 main_v23 (cmpi .slt : (⟨S3300000, .i32⟩ : BufTy).Contents (Elt F) → (⟨S3300000, .i32⟩ : BufTy).Contents (Elt F) → (⟨S3300000, .i1⟩ : BufTy).Contents (Elt F)),
    nullary main_c_5 (constantI S_ 32 100000#32),
    unary main_c_5 main_v24 (broadcastInDim S3300000 ![] bcast_S_S3300000 : (⟨S_, .i32⟩ : BufTy).Contents (Elt F) → (⟨S3300000, .i32⟩ : BufTy).Contents (Elt F)),
    binary main_v6 main_v24 main_v25 (addi : (⟨S3300000, .i32⟩ : BufTy).Contents (Elt F) → (⟨S3300000, .i32⟩ : BufTy).Contents (Elt F) → (⟨S3300000, .i32⟩ : BufTy).Contents (Elt F)),
    ternary main_v23 main_v25 main_v6 main_v26 (select : (⟨S3300000, .i1⟩ : BufTy).Contents (Elt F) → (⟨S3300000, .i32⟩ : BufTy).Contents (Elt F) → (⟨S3300000, .i32⟩ : BufTy).Contents (Elt F) → (⟨S3300000, .i32⟩ : BufTy).Contents (Elt F)),
    unary main_v26 main_v27 (broadcastInDim S3300000x1 ![0] bcast_S3300000_S3300000x1_0 : (⟨S3300000, .i32⟩ : BufTy).Contents (Elt F) → (⟨S3300000x1, .i32⟩ : BufTy).Contents (Elt F)),
    binary main_v14 main_v27 main_v28 ((fun x i => Host.gather gather_S100000_S3300000x1_S3300000_n_0_n_n_0_1_1 x i) : (⟨S100000, .f32⟩ : BufTy).Contents (Elt F) → (⟨S3300000x1, .i32⟩ : BufTy).Contents (Elt F) → (⟨S3300000, .f32⟩ : BufTy).Contents (Elt F)),
    binary main_v21 main_v28 main_v29 (mulf : (⟨S3300000, .f32⟩ : BufTy).Contents (Elt F) → (⟨S3300000, .f32⟩ : BufTy).Contents (Elt F) → (⟨S3300000, .f32⟩ : BufTy).Contents (Elt F)) ]

/-- The first dense product. -/
abbrev opsB : List (HloOp τ sig (Elt F)) :=
  [ binary main_arg0 main_arg1 main_v30 ((fun l r => Host.dotGeneral dot_S100000x512_S512x16_S100000x16_1_0_0_1_n_n none l r) : (⟨S100000x512, .f32⟩ : BufTy).Contents (Elt F) → (⟨S512x16, .f32⟩ : BufTy).Contents (Elt F) → (⟨S100000x16, .f32⟩ : BufTy).Contents (Elt F)) ]

/-- The first aggregation: rows gathered at the sources, scaled by the edge weights, added up at the destinations. -/
abbrev opsC : List (HloOp τ sig (Elt F)) :=
  [ nullary main_c_6 (constantI S_ 32 0#32),
    unary main_c_6 main_v31 (broadcastInDim S3300000 ![] bcast_S_S3300000 : (⟨S_, .i32⟩ : BufTy).Contents (Elt F) → (⟨S3300000, .i32⟩ : BufTy).Contents (Elt F)),
    binary main_v3 main_v31 main_v32 (cmpi .slt : (⟨S3300000, .i32⟩ : BufTy).Contents (Elt F) → (⟨S3300000, .i32⟩ : BufTy).Contents (Elt F) → (⟨S3300000, .i1⟩ : BufTy).Contents (Elt F)),
    nullary main_c_7 (constantI S_ 32 100000#32),
    unary main_c_7 main_v33 (broadcastInDim S3300000 ![] bcast_S_S3300000 : (⟨S_, .i32⟩ : BufTy).Contents (Elt F) → (⟨S3300000, .i32⟩ : BufTy).Contents (Elt F)),
    binary main_v3 main_v33 main_v34 (addi : (⟨S3300000, .i32⟩ : BufTy).Contents (Elt F) → (⟨S3300000, .i32⟩ : BufTy).Contents (Elt F) → (⟨S3300000, .i32⟩ : BufTy).Contents (Elt F)),
    ternary main_v32 main_v34 main_v3 main_v35 (select : (⟨S3300000, .i1⟩ : BufTy).Contents (Elt F) → (⟨S3300000, .i32⟩ : BufTy).Contents (Elt F) → (⟨S3300000, .i32⟩ : BufTy).Contents (Elt F) → (⟨S3300000, .i32⟩ : BufTy).Contents (Elt F)),
    unary main_v35 main_v36 (broadcastInDim S3300000x1 ![0] bcast_S3300000_S3300000x1_0 : (⟨S3300000, .i32⟩ : BufTy).Contents (Elt F) → (⟨S3300000x1, .i32⟩ : BufTy).Contents (Elt F)),
    binary main_v30 main_v36 main_v37 ((fun x i => Host.gather gather_S100000x16_S3300000x1_S3300000x16_1_0_n_n_0_1_116 x i) : (⟨S100000x16, .f32⟩ : BufTy).Contents (Elt F) → (⟨S3300000x1, .i32⟩ : BufTy).Contents (Elt F) → (⟨S3300000x16, .f32⟩ : BufTy).Contents (Elt F)),
    unary main_v29 main_v38 (broadcastInDim S3300000x1 ![0] bcast_S3300000_S3300000x1_0 : (⟨S3300000, .f32⟩ : BufTy).Contents (Elt F) → (⟨S3300000x1, .f32⟩ : BufTy).Contents (Elt F)),
    unary main_v38 main_v39 (broadcastInDim S3300000x16 ![0, 1] bcast_S3300000x1_S3300000x16_0_1 : (⟨S3300000x1, .f32⟩ : BufTy).Contents (Elt F) → (⟨S3300000x16, .f32⟩ : BufTy).Contents (Elt F)),
    binary main_v37 main_v39 main_v40 (mulf : (⟨S3300000x16, .f32⟩ : BufTy).Contents (Elt F) → (⟨S3300000x16, .f32⟩ : BufTy).Contents (Elt F) → (⟨S3300000x16, .f32⟩ : BufTy).Contents (Elt F)),
    nullary main_cst_8 (constant S_ .f32 0x00000000#32),
    unary main_cst_8 main_v41 (broadcastInDim S100000x16 ![] bcast_S_S100000x16 : (⟨S_, .f32⟩ : BufTy).Contents (Elt F) → (⟨S100000x16, .f32⟩ : BufTy).Contents (Elt F)),
    unary main_v6 main_v42 (broadcastInDim S3300000x1 ![0] bcast_S3300000_S3300000x1_0 : (⟨S3300000, .i32⟩ : BufTy).Contents (Elt F) → (⟨S3300000x1, .i32⟩ : BufTy).Contents (Elt F)),
    ternary main_v41 main_v42 main_v40 main_v43 ((fun x i u => Host.scatterAdd scatter_S100000x16_S3300000x1_S3300000x16_1_0_0_1 x i u) : (⟨S100000x16, .f32⟩ : BufTy).Contents (Elt F) → (⟨S3300000x1, .i32⟩ : BufTy).Contents (Elt F) → (⟨S3300000x16, .f32⟩ : BufTy).Contents (Elt F) → (⟨S100000x16, .f32⟩ : BufTy).Contents (Elt F)) ]

/-- The first bias, and the clamp at zero. -/
abbrev opsD : List (HloOp τ sig (Elt F)) :=
  [ unary main_arg2 main_v44 (broadcastInDim S1x16 ![1] bcast_S16_S1x16_1 : (⟨S16, .f32⟩ : BufTy).Contents (Elt F) → (⟨S1x16, .f32⟩ : BufTy).Contents (Elt F)),
    unary main_v44 main_v45 (broadcastInDim S100000x16 ![0, 1] bcast_S1x16_S100000x16_0_1 : (⟨S1x16, .f32⟩ : BufTy).Contents (Elt F) → (⟨S100000x16, .f32⟩ : BufTy).Contents (Elt F)),
    binary main_v43 main_v45 main_v46 (addf : (⟨S100000x16, .f32⟩ : BufTy).Contents (Elt F) → (⟨S100000x16, .f32⟩ : BufTy).Contents (Elt F) → (⟨S100000x16, .f32⟩ : BufTy).Contents (Elt F)),
    TRef.nullary (TRef.of (T := ⟨S_, .f32⟩) main_call1_cst) (constant S_ .f32 0x00000000#32),
    TRef.unary (TRef.of (T := ⟨S_, .f32⟩) main_call1_cst) (TRef.of (T := ⟨S100000x16, .f32⟩) main_call1_v0) (broadcastInDim S100000x16 ![] bcast_S_S100000x16),
    TRef.binary (TRef.of (T := ⟨S100000x16, .f32⟩) main_v46) (TRef.of (T := ⟨S100000x16, .f32⟩) main_call1_v0) (TRef.of (T := ⟨S100000x16, .f32⟩) main_v47) maximumf ]

/-- The second dense product. -/
abbrev opsE : List (HloOp τ sig (Elt F)) :=
  [ binary main_v47 main_arg3 main_v48 ((fun l r => Host.dotGeneral dot_S100000x16_S16x40_S100000x40_1_0_0_1_n_n none l r) : (⟨S100000x16, .f32⟩ : BufTy).Contents (Elt F) → (⟨S16x40, .f32⟩ : BufTy).Contents (Elt F) → (⟨S100000x40, .f32⟩ : BufTy).Contents (Elt F)) ]

/-- The second aggregation. -/
abbrev opsG : List (HloOp τ sig (Elt F)) :=
  [ nullary main_c_9 (constantI S_ 32 0#32),
    unary main_c_9 main_v49 (broadcastInDim S3300000 ![] bcast_S_S3300000 : (⟨S_, .i32⟩ : BufTy).Contents (Elt F) → (⟨S3300000, .i32⟩ : BufTy).Contents (Elt F)),
    binary main_v3 main_v49 main_v50 (cmpi .slt : (⟨S3300000, .i32⟩ : BufTy).Contents (Elt F) → (⟨S3300000, .i32⟩ : BufTy).Contents (Elt F) → (⟨S3300000, .i1⟩ : BufTy).Contents (Elt F)),
    nullary main_c_10 (constantI S_ 32 100000#32),
    unary main_c_10 main_v51 (broadcastInDim S3300000 ![] bcast_S_S3300000 : (⟨S_, .i32⟩ : BufTy).Contents (Elt F) → (⟨S3300000, .i32⟩ : BufTy).Contents (Elt F)),
    binary main_v3 main_v51 main_v52 (addi : (⟨S3300000, .i32⟩ : BufTy).Contents (Elt F) → (⟨S3300000, .i32⟩ : BufTy).Contents (Elt F) → (⟨S3300000, .i32⟩ : BufTy).Contents (Elt F)),
    ternary main_v50 main_v52 main_v3 main_v53 (select : (⟨S3300000, .i1⟩ : BufTy).Contents (Elt F) → (⟨S3300000, .i32⟩ : BufTy).Contents (Elt F) → (⟨S3300000, .i32⟩ : BufTy).Contents (Elt F) → (⟨S3300000, .i32⟩ : BufTy).Contents (Elt F)),
    unary main_v53 main_v54 (broadcastInDim S3300000x1 ![0] bcast_S3300000_S3300000x1_0 : (⟨S3300000, .i32⟩ : BufTy).Contents (Elt F) → (⟨S3300000x1, .i32⟩ : BufTy).Contents (Elt F)),
    binary main_v48 main_v54 main_v55 ((fun x i => Host.gather gather_S100000x40_S3300000x1_S3300000x40_1_0_n_n_0_1_140 x i) : (⟨S100000x40, .f32⟩ : BufTy).Contents (Elt F) → (⟨S3300000x1, .i32⟩ : BufTy).Contents (Elt F) → (⟨S3300000x40, .f32⟩ : BufTy).Contents (Elt F)),
    unary main_v29 main_v56 (broadcastInDim S3300000x1 ![0] bcast_S3300000_S3300000x1_0 : (⟨S3300000, .f32⟩ : BufTy).Contents (Elt F) → (⟨S3300000x1, .f32⟩ : BufTy).Contents (Elt F)),
    unary main_v56 main_v57 (broadcastInDim S3300000x40 ![0, 1] bcast_S3300000x1_S3300000x40_0_1 : (⟨S3300000x1, .f32⟩ : BufTy).Contents (Elt F) → (⟨S3300000x40, .f32⟩ : BufTy).Contents (Elt F)),
    binary main_v55 main_v57 main_v58 (mulf : (⟨S3300000x40, .f32⟩ : BufTy).Contents (Elt F) → (⟨S3300000x40, .f32⟩ : BufTy).Contents (Elt F) → (⟨S3300000x40, .f32⟩ : BufTy).Contents (Elt F)),
    nullary main_cst_11 (constant S_ .f32 0x00000000#32),
    unary main_cst_11 main_v59 (broadcastInDim S100000x40 ![] bcast_S_S100000x40 : (⟨S_, .f32⟩ : BufTy).Contents (Elt F) → (⟨S100000x40, .f32⟩ : BufTy).Contents (Elt F)),
    unary main_v6 main_v60 (broadcastInDim S3300000x1 ![0] bcast_S3300000_S3300000x1_0 : (⟨S3300000, .i32⟩ : BufTy).Contents (Elt F) → (⟨S3300000x1, .i32⟩ : BufTy).Contents (Elt F)),
    ternary main_v59 main_v60 main_v58 main_v61 ((fun x i u => Host.scatterAdd scatter_S100000x40_S3300000x1_S3300000x40_1_0_0_1 x i u) : (⟨S100000x40, .f32⟩ : BufTy).Contents (Elt F) → (⟨S3300000x1, .i32⟩ : BufTy).Contents (Elt F) → (⟨S3300000x40, .f32⟩ : BufTy).Contents (Elt F) → (⟨S100000x40, .f32⟩ : BufTy).Contents (Elt F)) ]

/-- The second bias and the rows' log-softmax. -/
abbrev opsH : List (HloOp τ sig (Elt F)) :=
  [ unary main_arg4 main_v62 (broadcastInDim S1x40 ![1] bcast_S40_S1x40_1 : (⟨S40, .f32⟩ : BufTy).Contents (Elt F) → (⟨S1x40, .f32⟩ : BufTy).Contents (Elt F)),
    unary main_v62 main_v63 (broadcastInDim S100000x40 ![0, 1] bcast_S1x40_S100000x40_0_1 : (⟨S1x40, .f32⟩ : BufTy).Contents (Elt F) → (⟨S100000x40, .f32⟩ : BufTy).Contents (Elt F)),
    binary main_v61 main_v63 main_v64 (addf : (⟨S100000x40, .f32⟩ : BufTy).Contents (Elt F) → (⟨S100000x40, .f32⟩ : BufTy).Contents (Elt F) → (⟨S100000x40, .f32⟩ : BufTy).Contents (Elt F)),
    TRef.nullary (TRef.of (T := ⟨S_, .f32⟩) main_call2_cst) (constant S_ .f32 0xFF800000#32),
    TRef.binary (TRef.of (T := ⟨S100000x40, .f32⟩) main_v64) (TRef.of (T := ⟨S_, .f32⟩) main_call2_cst) (TRef.of (T := ⟨S100000, .f32⟩) main_call2_v0) (fun x v => Host.reduce FloatOps.maximumf x v reducesTo_S100000x40_S100000_d1 h_S_),
    TRef.nullary (TRef.of (T := ⟨S_, .f32⟩) main_call2_cst_0) (constant S_ .f32 0xFF800000#32),
    TRef.unary (TRef.of (T := ⟨S_, .f32⟩) main_call2_cst_0) (TRef.of (T := ⟨S100000, .f32⟩) main_call2_v1) (broadcastInDim S100000 ![] bcast_S_S100000),
    TRef.binary (TRef.of (T := ⟨S100000, .f32⟩) main_call2_v1) (TRef.of (T := ⟨S100000, .f32⟩) main_call2_v0) (TRef.of (T := ⟨S100000, .f32⟩) main_call2_v2) maximumf,
    TRef.unary (TRef.of (T := ⟨S100000, .f32⟩) main_call2_v2) (TRef.of (T := ⟨S100000x1, .f32⟩) main_call2_v3) (broadcastInDim S100000x1 ![0] bcast_S100000_S100000x1_0),
    TRef.unary (TRef.of (T := ⟨S100000x1, .f32⟩) main_call2_v3) (TRef.of (T := ⟨S100000x40, .f32⟩) main_call2_v4) (broadcastInDim S100000x40 ![0, 1] bcast_S100000x1_S100000x40_0_1),
    TRef.binary (TRef.of (T := ⟨S100000x40, .f32⟩) main_v64) (TRef.of (T := ⟨S100000x40, .f32⟩) main_call2_v4) (TRef.of (T := ⟨S100000x40, .f32⟩) main_call2_v5) subf,
    TRef.unary (TRef.of (T := ⟨S100000x40, .f32⟩) main_call2_v5) (TRef.of (T := ⟨S100000x40, .f32⟩) main_call2_v6) Host.exp,
    TRef.nullary (TRef.of (T := ⟨S_, .f32⟩) main_call2_cst_1) (constant S_ .f32 0x00000000#32),
    TRef.binary (TRef.of (T := ⟨S100000x40, .f32⟩) main_call2_v6) (TRef.of (T := ⟨S_, .f32⟩) main_call2_cst_1) (TRef.of (T := ⟨S100000, .f32⟩) main_call2_v7) (fun x v => Host.reduceAdd x v reducesTo_S100000x40_S100000_d1 h_S_),
    TRef.unary (TRef.of (T := ⟨S100000, .f32⟩) main_call2_v7) (TRef.of (T := ⟨S100000x1, .f32⟩) main_call2_v8) (broadcastInDim S100000x1 ![0] bcast_S100000_S100000x1_0),
    TRef.unary (TRef.of (T := ⟨S100000x1, .f32⟩) main_call2_v8) (TRef.of (T := ⟨S100000x1, .f32⟩) main_call2_v9) Host.log,
    TRef.unary (TRef.of (T := ⟨S100000x1, .f32⟩) main_call2_v9) (TRef.of (T := ⟨S100000x40, .f32⟩) main_call2_v10) (broadcastInDim S100000x40 ![0, 1] bcast_S100000x1_S100000x40_0_1),
    TRef.binary (TRef.of (T := ⟨S100000x40, .f32⟩) main_call2_v5) (TRef.of (T := ⟨S100000x40, .f32⟩) main_call2_v10) (TRef.of (T := ⟨S100000x40, .f32⟩) main_v65) subf ]

set_option maxRecDepth 8192 in
/-- The list is its seven stretches in order. -/
theorem ops_split : (ops : List (HloOp τ sig (Elt F))) = opsA ++ (opsB ++ (opsC ++ (opsD ++ (opsE ++ (opsG ++ opsH))))) := rfl

/-- Operations run in a row compose: a list's second part runs from what its first part leaves. -/
theorem after_append {Val : EltTy → Type} (l₁ l₂ : List (HloOp τ sig Val)) (W : Valuation τ sig Val) :
    after (l₁ ++ l₂) W = after l₂ (after l₁ W) := by
  induction l₁ generalizing W with
  | nil => rfl
  | cons op l ih => exact ih (op.result W)

set_option maxRecDepth 8192 in
set_option maxHeartbeats 39200000 in
/-- On every device, from any memory with zero counters: every weakly fair execution of @main terminates with the result
    buffer at what the operations leave in it from the launch contents, and the arguments unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v65) = after ops (launchContents m c) (Proc.devRef .tc main_v65)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5) :=
  (θ_run defs _ _).mono (fun _ h c => ⟨h c main_v65,
      (h c main_arg0).trans (by after_results_simp <;> rfl),
      (h c main_arg1).trans (by after_results_simp <;> rfl),
      (h c main_arg2).trans (by after_results_simp <;> rfl),
      (h c main_arg3).trans (by after_results_simp <;> rfl),
      (h c main_arg4).trans (by after_results_simp <;> rfl),
      (h c main_arg5).trans (by after_results_simp <;> rfl)⟩)
    (run_seq scopedRefs_eq scopedSems_eq defs main (fun _ => ops) main_eq (fun _ => ops_sub) m ρ)

end Cert.ReferenceIdeal.HostRun

end
-- ==== Proof.RefStages1.lean ====
import proofs.«171940_j1838246003236_1_alg».proof.Proof.RefProgram
import proofs.«171940_j1838246003236_1_alg».proof.Proof.RefRead

noncomputable section

namespace Cert.ReferenceIdeal.HostRun

open Cert.ReferenceIdeal Cert.ReferenceIdeal.Gen Idealize.ShloMosaic Idealize.ShloMosaic.TcCoe Idealize.SL.Sem Idealize.ShloMosaic.StableHlo

variable {F : FTy → Type} [FloatOps F]

/-! The reference's value, stretch by stretch: each stretch's result from the contents it starts from, and the
    buffers a stretch leaves alone. -/

/-- The first dense product, from the node features and the first weight matrix. -/
theorem stageB (W : Valuation τ sig (Elt F)) (x0 : (⟨S100000x512, .f32⟩ : BufTy).Contents (Elt F)) (x1 : (⟨S512x16, .f32⟩ : BufTy).Contents (Elt F))
    (h0 : W (Proc.devRef .tc main_arg0) = x0) (h1 : W (Proc.devRef .tc main_arg1) = x1) :
    after opsB W (Proc.devRef .tc main_v30) = Read.val_main_v30 x0 x1 := by
  subst h0 h1
  after_results
  rfl

theorem keepB (W : Valuation τ sig (Elt F)) :
    after opsB W (Proc.devRef .tc main_v3) = W (Proc.devRef .tc main_v3)
    ∧ after opsB W (Proc.devRef .tc main_v6) = W (Proc.devRef .tc main_v6)
    ∧ after opsB W (Proc.devRef .tc main_v29) = W (Proc.devRef .tc main_v29)
    ∧ after opsB W (Proc.devRef .tc main_arg2) = W (Proc.devRef .tc main_arg2)
    ∧ after opsB W (Proc.devRef .tc main_arg3) = W (Proc.devRef .tc main_arg3)
    ∧ after opsB W (Proc.devRef .tc main_arg4) = W (Proc.devRef .tc main_arg4) :=
  ⟨by after_results <;> rfl,
   by after_results <;> rfl,
   by after_results <;> rfl,
   by after_results <;> rfl,
   by after_results <;> rfl,
   by after_results <;> rfl⟩

set_option maxHeartbeats 4000000 in
/-- The first aggregation, from the product, the two endpoint lists and the edge weights. -/
theorem stageC (W : Valuation τ sig (Elt F)) (x0 : (⟨S100000x512, .f32⟩ : BufTy).Contents (Elt F)) (x1 : (⟨S512x16, .f32⟩ : BufTy).Contents (Elt F)) (x5 : (⟨S2x3200000, .i32⟩ : BufTy).Contents (Elt F))
    (h30 : W (Proc.devRef .tc main_v30) = Read.val_main_v30 x0 x1)
    (h3 : W (Proc.devRef .tc main_v3) = Read.val_main_v3 x5)
    (h6 : W (Proc.devRef .tc main_v6) = Read.val_main_v6 x5)
    (h29 : W (Proc.devRef .tc main_v29) = Read.val_main_v29 x5) :
    after opsC W (Proc.devRef .tc main_v43) = Read.val_main_v43 x0 x1 x5 := by
  after_results
  rw [h30, h3, h6, h29]
  rfl

theorem keepC (W : Valuation τ sig (Elt F)) :
    after opsC W (Proc.devRef .tc main_v3) = W (Proc.devRef .tc main_v3)
    ∧ after opsC W (Proc.devRef .tc main_v6) = W (Proc.devRef .tc main_v6)
    ∧ after opsC W (Proc.devRef .tc main_v29) = W (Proc.devRef .tc main_v29)
    ∧ after opsC W (Proc.devRef .tc main_arg2) = W (Proc.devRef .tc main_arg2)
    ∧ after opsC W (Proc.devRef .tc main_arg3) = W (Proc.devRef .tc main_arg3)
    ∧ after opsC W (Proc.devRef .tc main_arg4) = W (Proc.devRef .tc main_arg4) :=
  ⟨by after_results <;> rfl,
   by after_results <;> rfl,
   by after_results <;> rfl,
   by after_results <;> rfl,
   by after_results <;> rfl,
   by after_results <;> rfl⟩

/-- The first bias and the clamp at zero. -/
theorem stageD (W : Valuation τ sig (Elt F)) (x0 : (⟨S100000x512, .f32⟩ : BufTy).Contents (Elt F)) (x1 : (⟨S512x16, .f32⟩ : BufTy).Contents (Elt F)) (x2 : (⟨S16, .f32⟩ : BufTy).Contents (Elt F)) (x5 : (⟨S2x3200000, .i32⟩ : BufTy).Contents (Elt F))
    (h43 : W (Proc.devRef .tc main_v43) = Read.val_main_v43 x0 x1 x5)
    (h2 : W (Proc.devRef .tc main_arg2) = x2) :
    after opsD W (Proc.devRef .tc main_v47) = Read.val_main_v47 x0 x1 x2 x5 := by
  subst h2
  after_results
  rw [h43]
  rfl

theorem keepD (W : Valuation τ sig (Elt F)) :
    after opsD W (Proc.devRef .tc main_v3) = W (Proc.devRef .tc main_v3)
    ∧ after opsD W (Proc.devRef .tc main_v6) = W (Proc.devRef .tc main_v6)
    ∧ after opsD W (Proc.devRef .tc main_v29) = W (Proc.devRef .tc main_v29)
    ∧ after opsD W (Proc.devRef .tc main_arg3) = W (Proc.devRef .tc main_arg3)
    ∧ after opsD W (Proc.devRef .tc main_arg4) = W (Proc.devRef .tc main_arg4) :=
  ⟨by after_results <;> rfl,
   by after_results <;> rfl,
   by after_results <;> rfl,
   by after_results <;> rfl,
   by after_results <;> rfl⟩

/-- The second dense product. -/
theorem stageE (W : Valuation τ sig (Elt F)) (x0 : (⟨S100000x512, .f32⟩ : BufTy).Contents (Elt F)) (x1 : (⟨S512x16, .f32⟩ : BufTy).Contents (Elt F)) (x2 : (⟨S16, .f32⟩ : BufTy).Contents (Elt F)) (x3 : (⟨S16x40, .f32⟩ : BufTy).Contents (Elt F)) (x5 : (⟨S2x3200000, .i32⟩ : BufTy).Contents (Elt F))
    (h47 : W (Proc.devRef .tc main_v47) = Read.val_main_v47 x0 x1 x2 x5)
    (h3 : W (Proc.devRef .tc main_arg3) = x3) :
    after opsE W (Proc.devRef .tc main_v48) = Read.val_main_v48 x0 x1 x2 x3 x5 := by
  subst h3
  after_results
  rw [h47]
  rfl

theorem keepE (W : Valuation τ sig (Elt F)) :
    after opsE W (Proc.devRef .tc main_v3) = W (Proc.devRef .tc main_v3)
    ∧ after opsE W (Proc.devRef .tc main_v6) = W (Proc.devRef .tc main_v6)
    ∧ after opsE W (Proc.devRef .tc main_v29) = W (Proc.devRef .tc main_v29)
    ∧ after opsE W (Proc.devRef .tc main_arg4) = W (Proc.devRef .tc main_arg4) :=
  ⟨by after_results <;> rfl,
   by after_results <;> rfl,
   by after_results <;> rfl,
   by after_results <;> rfl⟩

set_option maxHeartbeats 4000000 in
/-- The second aggregation. -/
theorem stageG (W : Valuation τ sig (Elt F)) (x0 : (⟨S100000x512, .f32⟩ : BufTy).Contents (Elt F)) (x1 : (⟨S512x16, .f32⟩ : BufTy).Contents (Elt F)) (x2 : (⟨S16, .f32⟩ : BufTy).Contents (Elt F)) (x3 : (⟨S16x40, .f32⟩ : BufTy).Contents (Elt F)) (x5 : (⟨S2x3200000, .i32⟩ : BufTy).Contents (Elt F))
    (h48 : W (Proc.devRef .tc main_v48) = Read.val_main_v48 x0 x1 x2 x3 x5)
    (h3 : W (Proc.devRef .tc main_v3) = Read.val_main_v3 x5)
    (h6 : W (Proc.devRef .tc main_v6) = Read.val_main_v6 x5)
    (h29 : W (Proc.devRef .tc main_v29) = Read.val_main_v29 x5) :
    after opsG W (Proc.devRef .tc main_v61) = Read.val_main_v61 x0 x1 x2 x3 x5 := by
  after_results
  rw [h48, h3, h6, h29]
  rfl

theorem keepG (W : Valuation τ sig (Elt F)) :
    after opsG W (Proc.devRef .tc main_arg4) = W (Proc.devRef .tc main_arg4) :=
  by after_results <;> rfl

end Cert.ReferenceIdeal.HostRun

end
-- ==== Proof.RefStages2.lean ====
import proofs.«171940_j1838246003236_1_alg».proof.Proof.RefProgram
import proofs.«171940_j1838246003236_1_alg».proof.Proof.RefRead

noncomputable section

namespace Cert.ReferenceIdeal.HostRun

open Cert.ReferenceIdeal Cert.ReferenceIdeal.Gen Idealize.ShloMosaic Idealize.ShloMosaic.TcCoe Idealize.SL.Sem Idealize.ShloMosaic.StableHlo

variable {F : FTy → Type} [FloatOps F]

/-! The graph's normalisation: the endpoint lists with the self loops appended and the edge weights, from the edge list. -/

set_option maxHeartbeats 4000000 in
/-- The sources with the self loops appended. -/
theorem stageA_v3 (W : Valuation τ sig (Elt F)) (x5 : (⟨S2x3200000, .i32⟩ : BufTy).Contents (Elt F)) (h5 : W (Proc.devRef .tc main_arg5) = x5) :
    after opsA W (Proc.devRef .tc main_v3) = Read.val_main_v3 x5 := by
  subst h5
  after_results
  rfl

set_option maxHeartbeats 4000000 in
/-- The destinations with the self loops appended. -/
theorem stageA_v6 (W : Valuation τ sig (Elt F)) (x5 : (⟨S2x3200000, .i32⟩ : BufTy).Contents (Elt F)) (h5 : W (Proc.devRef .tc main_arg5) = x5) :
    after opsA W (Proc.devRef .tc main_v6) = Read.val_main_v6 x5 := by
  subst h5
  after_results
  rfl

set_option maxHeartbeats 8000000 in
theorem keepA (W : Valuation τ sig (Elt F)) :
    after opsA W (Proc.devRef .tc main_arg0) = W (Proc.devRef .tc main_arg0)
    ∧ after opsA W (Proc.devRef .tc main_arg1) = W (Proc.devRef .tc main_arg1)
    ∧ after opsA W (Proc.devRef .tc main_arg2) = W (Proc.devRef .tc main_arg2)
    ∧ after opsA W (Proc.devRef .tc main_arg3) = W (Proc.devRef .tc main_arg3)
    ∧ after opsA W (Proc.devRef .tc main_arg4) = W (Proc.devRef .tc main_arg4) :=
  ⟨by after_results <;> rfl,
   by after_results <;> rfl,
   by after_results <;> rfl,
   by after_results <;> rfl,
   by after_results <;> rfl⟩

end Cert.ReferenceIdeal.HostRun

end
-- ==== Proof.RefStages3.lean ====
import proofs.«171940_j1838246003236_1_alg».proof.Proof.RefProgram
import proofs.«171940_j1838246003236_1_alg».proof.Proof.RefRead

noncomputable section

namespace Cert.ReferenceIdeal.HostRun

open Cert.ReferenceIdeal Cert.ReferenceIdeal.Gen Idealize.ShloMosaic Idealize.ShloMosaic.TcCoe Idealize.SL.Sem Idealize.ShloMosaic.StableHlo

variable {F : FTy → Type} [FloatOps F]

/-! The normalisation stretch cut in three: the endpoint lists with the self loops appended; the inverse square-root
    degrees; the edge weights. -/

/-- The two endpoint lists with the self loops appended. -/
abbrev opsA1 : List (HloOp τ sig (Elt F)) :=
  [ nullary main_v0 (iotaInDim S100000 32 0),
    unary main_arg5 main_v1 ((extractStridedSlice S1x3200000 ![0, 0] · slices_S2x3200000_S1x3200000_0_0) : (⟨S2x3200000, .i32⟩ : BufTy).Contents (Elt F) → (⟨S1x3200000, .i32⟩ : BufTy).Contents (Elt F)),
    reshape main_v1 main_v2 rfl shapeCasts_S1x3200000_S3200000,
    binary main_v2 main_v0 main_v3 ((fun a b => concatenate S3300000 0 [⟨S3200000, a⟩, ⟨S100000, b⟩] concatenates_S3200000_S100000_S3300000_d0) : (⟨S3200000, .i32⟩ : BufTy).Contents (Elt F) → (⟨S100000, .i32⟩ : BufTy).Contents (Elt F) → (⟨S3300000, .i32⟩ : BufTy).Contents (Elt F)),
    unary main_arg5 main_v4 ((extractStridedSlice S1x3200000 ![1, 0] · slices_S2x3200000_S1x3200000_1_0) : (⟨S2x3200000, .i32⟩ : BufTy).Contents (Elt F) → (⟨S1x3200000, .i32⟩ : BufTy).Contents (Elt F)),
    reshape main_v4 main_v5 rfl shapeCasts_S1x3200000_S3200000,
    binary main_v5 main_v0 main_v6 ((fun a b => concatenate S3300000 0 [⟨S3200000, a⟩, ⟨S100000, b⟩] concatenates_S3200000_S100000_S3300000_d0) : (⟨S3200000, .i32⟩ : BufTy).Contents (Elt F) → (⟨S100000, .i32⟩ : BufTy).Contents (Elt F) → (⟨S3300000, .i32⟩ : BufTy).Contents (Elt F)) ]

/-- The in-degrees by a scatter-add of ones at the destinations, and their inverse square roots (zero where the degree
    is not positive). -/
abbrev opsA2 : List (HloOp τ sig (Elt F)) :=
  [ nullary main_cst (constant S_ .f32 0x3F800000#32),
    unary main_cst main_v7 (broadcastInDim S3300000 ![] bcast_S_S3300000 : (⟨S_, .f32⟩ : BufTy).Contents (Elt F) → (⟨S3300000, .f32⟩ : BufTy).Contents (Elt F)),
    nullary main_cst_0 (constant S_ .f32 0x00000000#32),
    unary main_cst_0 main_v8 (broadcastInDim S100000 ![] bcast_S_S100000 : (⟨S_, .f32⟩ : BufTy).Contents (Elt F) → (⟨S100000, .f32⟩ : BufTy).Contents (Elt F)),
    unary main_v6 main_v9 (broadcastInDim S3300000x1 ![0] bcast_S3300000_S3300000x1_0 : (⟨S3300000, .i32⟩ : BufTy).Contents (Elt F) → (⟨S3300000x1, .i32⟩ : BufTy).Contents (Elt F)),
    ternary main_v8 main_v9 main_v7 main_v10 ((fun x i u => Host.scatterAdd scatter_S100000_S3300000x1_S3300000_n_0_0_1 x i u) : (⟨S100000, .f32⟩ : BufTy).Contents (Elt F) → (⟨S3300000x1, .i32⟩ : BufTy).Contents (Elt F) → (⟨S3300000, .f32⟩ : BufTy).Contents (Elt F) → (⟨S100000, .f32⟩ : BufTy).Contents (Elt F)),
    nullary main_cst_1 (constant S_ .f32 0x00000000#32),
    unary main_cst_1 main_v11 (broadcastInDim S100000 ![] bcast_S_S100000 : (⟨S_, .f32⟩ : BufTy).Contents (Elt F) → (⟨S100000, .f32⟩ : BufTy).Contents (Elt F)),
    binary main_v10 main_v11 main_v12 (cmpf .ogt : (⟨S100000, .f32⟩ : BufTy).Contents (Elt F) → (⟨S100000, .f32⟩ : BufTy).Contents (Elt F) → (⟨S100000, .i1⟩ : BufTy).Contents (Elt F)),
    unary main_v10 main_v13 (Host.rsqrt : (⟨S100000, .f32⟩ : BufTy).Contents (Elt F) → (⟨S100000, .f32⟩ : BufTy).Contents (Elt F)),
    nullary main_cst_2 (constant S_ .f32 0x00000000#32),
    TRef.unary (TRef.of (T := ⟨S_, .f32⟩) main_cst_2) (TRef.of (T := ⟨S_, .f32⟩) main_call0_v0) id,
    TRef.unary (TRef.of (T := ⟨S_, .f32⟩) main_call0_v0) (TRef.of (T := ⟨S100000, .f32⟩) main_call0_v1) (broadcastInDim S100000 ![] bcast_S_S100000),
    TRef.ternary (TRef.of (T := ⟨S100000, .i1⟩) main_v12) (TRef.of (T := ⟨S100000, .f32⟩) main_v13) (TRef.of (T := ⟨S100000, .f32⟩) main_call0_v1) (TRef.of (T := ⟨S100000, .f32⟩) main_v14) select ]

/-- The edge weights: the inverse square-root degrees gathered at both endpoints (indices wrapped as the gather asks)
    and multiplied. -/
abbrev opsA3 : List (HloOp τ sig (Elt F)) :=
  [ nullary main_c (constantI S_ 32 0#32),
    unary main_c main_v15 (broadcastInDim S3300000 ![] bcast_S_S3300000 : (⟨S_, .i32⟩ : BufTy).Contents (Elt F) → (⟨S3300000, .i32⟩ : BufTy).Contents (Elt F)),
    binary main_v3 main_v15 main_v16 (cmpi .slt : (⟨S3300000, .i32⟩ : BufTy).Contents (Elt F) → (⟨S3300000, .i32⟩ : BufTy).Contents (Elt F) → (⟨S3300000, .i1⟩ : BufTy).Contents (Elt F)),
    nullary main_c_3 (constantI S_ 32 100000#32),
    unary main_c_3 main_v17 (broadcastInDim S3300000 ![] bcast_S_S3300000 : (⟨S_, .i32⟩ : BufTy).Contents (Elt F) → (⟨S3300000, .i32⟩ : BufTy).Contents (Elt F)),
    binary main_v3 main_v17 main_v18 (addi : (⟨S3300000, .i32⟩ : BufTy).Contents (Elt F) → (⟨S3300000, .i32⟩ : BufTy).Contents (Elt F) → (⟨S3300000, .i32⟩ : BufTy).Contents (Elt F)),
    ternary main_v16 main_v18 main_v3 main_v19 (select : (⟨S3300000, .i1⟩ : BufTy).Contents (Elt F) → (⟨S3300000, .i32⟩ : BufTy).Contents (Elt F) → (⟨S3300000, .i32⟩ : BufTy).Contents (Elt F) → (⟨S3300000, .i32⟩ : BufTy).Contents (Elt F)),
    unary main_v19 main_v20 (broadcastInDim S3300000x1 ![0] bcast_S3300000_S3300000x1_0 : (⟨S3300000, .i32⟩ : BufTy).Contents (Elt F) → (⟨S3300000x1, .i32⟩ : BufTy).Contents (Elt F)),
    binary main_v14 main_v20 main_v21 ((fun x i => Host.gather gather_S100000_S3300000x1_S3300000_n_0_n_n_0_1_1 x i) : (⟨S100000, .f32⟩ : BufTy).Contents (Elt F) → (⟨S3300000x1, .i32⟩ : BufTy).Contents (Elt F) → (⟨S3300000, .f32⟩ : BufTy).Contents (Elt F)),
    nullary main_c_4 (constantI S_ 32 0#32),
    unary main_c_4 main_v22 (broadcastInDim S3300000 ![] bcast_S_S3300000 : (⟨S_, .i32⟩ : BufTy).Contents (Elt F) → (⟨S3300000, .i32⟩ : BufTy).Contents (Elt F)),
    binary main_v6 main_v22 main_v23 (cmpi .slt : (⟨S3300000, .i32⟩ : BufTy).Contents (Elt F) → (⟨S3300000, .i32⟩ : BufTy).Contents (Elt F) → (⟨S3300000, .i1⟩ : BufTy).Contents (Elt F)),
    nullary main_c_5 (constantI S_ 32 100000#32),
    unary main_c_5 main_v24 (broadcastInDim S3300000 ![] bcast_S_S3300000 : (⟨S_, .i32⟩ : BufTy).Contents (Elt F) → (⟨S3300000, .i32⟩ : BufTy).Contents (Elt F)),
    binary main_v6 main_v24 main_v25 (addi : (⟨S3300000, .i32⟩ : BufTy).Contents (Elt F) → (⟨S3300000, .i32⟩ : BufTy).Contents (Elt F) → (⟨S3300000, .i32⟩ : BufTy).Contents (Elt F)),
    ternary main_v23 main_v25 main_v6 main_v26 (select : (⟨S3300000, .i1⟩ : BufTy).Contents (Elt F) → (⟨S3300000, .i32⟩ : BufTy).Contents (Elt F) → (⟨S3300000, .i32⟩ : BufTy).Contents (Elt F) → (⟨S3300000, .i32⟩ : BufTy).Contents (Elt F)),
    unary main_v26 main_v27 (broadcastInDim S3300000x1 ![0] bcast_S3300000_S3300000x1_0 : (⟨S3300000, .i32⟩ : BufTy).Contents (Elt F) → (⟨S3300000x1, .i32⟩ : BufTy).Contents (Elt F)),
    binary main_v14 main_v27 main_v28 ((fun x i => Host.gather gather_S100000_S3300000x1_S3300000_n_0_n_n_0_1_1 x i) : (⟨S100000, .f32⟩ : BufTy).Contents (Elt F) → (⟨S3300000x1, .i32⟩ : BufTy).Contents (Elt F) → (⟨S3300000, .f32⟩ : BufTy).Contents (Elt F)),
    binary main_v21 main_v28 main_v29 (mulf : (⟨S3300000, .f32⟩ : BufTy).Contents (Elt F) → (⟨S3300000, .f32⟩ : BufTy).Contents (Elt F) → (⟨S3300000, .f32⟩ : BufTy).Contents (Elt F)) ]

set_option maxRecDepth 8192 in
theorem opsA_split : (opsA : List (HloOp τ sig (Elt F))) = opsA1 ++ (opsA2 ++ opsA3) := rfl

set_option maxHeartbeats 4000000 in
theorem stageA1_v3 (W : Valuation τ sig (Elt F)) (x5 : (⟨S2x3200000, .i32⟩ : BufTy).Contents (Elt F)) (h5 : W (Proc.devRef .tc main_arg5) = x5) :
    after opsA1 W (Proc.devRef .tc main_v3) = Read.val_main_v3 x5 := by
  subst h5
  after_results
  rfl

set_option maxHeartbeats 4000000 in
theorem stageA1_v6 (W : Valuation τ sig (Elt F)) (x5 : (⟨S2x3200000, .i32⟩ : BufTy).Contents (Elt F)) (h5 : W (Proc.devRef .tc main_arg5) = x5) :
    after opsA1 W (Proc.devRef .tc main_v6) = Read.val_main_v6 x5 := by
  subst h5
  after_results
  rfl

set_option maxHeartbeats 4000000 in
theorem keepA2 (W : Valuation τ sig (Elt F)) :
    after opsA2 W (Proc.devRef .tc main_v3) = W (Proc.devRef .tc main_v3)
    ∧ after opsA2 W (Proc.devRef .tc main_v6) = W (Proc.devRef .tc main_v6) :=
  ⟨by after_results <;> rfl,
   by after_results <;> rfl⟩

set_option maxRecDepth 8192 in
set_option maxHeartbeats 4000000 in
theorem stageA2_v14 (W : Valuation τ sig (Elt F)) (x5 : (⟨S2x3200000, .i32⟩ : BufTy).Contents (Elt F)) (h6 : W (Proc.devRef .tc main_v6) = Read.val_main_v6 x5) :
    after opsA2 W (Proc.devRef .tc main_v14) = Read.val_main_v14 x5 := by
  after_results
  rw [h6]
  simp only [cast_cast, cast_eq]
  rfl

set_option maxRecDepth 8192 in
set_option maxHeartbeats 8000000 in
theorem stageA3_v29 (W : Valuation τ sig (Elt F)) (x5 : (⟨S2x3200000, .i32⟩ : BufTy).Contents (Elt F))
    (h3 : W (Proc.devRef .tc main_v3) = Read.val_main_v3 x5)
    (h6 : W (Proc.devRef .tc main_v6) = Read.val_main_v6 x5)
    (h14 : W (Proc.devRef .tc main_v14) = Read.val_main_v14 x5) :
    after opsA3 W (Proc.devRef .tc main_v29) = Read.val_main_v29 x5 := by
  after_results
  rw [h3, h6, h14]
  rfl

/-- The edge weights: the product of the two endpoints' inverse square-root degrees. -/
theorem stageA_v29 (W : Valuation τ sig (Elt F)) (x5 : (⟨S2x3200000, .i32⟩ : BufTy).Contents (Elt F)) (h5 : W (Proc.devRef .tc main_arg5) = x5) :
    after opsA W (Proc.devRef .tc main_v29) = Read.val_main_v29 x5 := by
  rw [opsA_split, after_append, after_append]
  have a3 := stageA1_v3 W x5 h5
  have a6 := stageA1_v6 W x5 h5
  have k2 := keepA2 (after opsA1 W)
  exact stageA3_v29 _ x5 (k2.1.trans a3) (k2.2.trans a6) (stageA2_v14 _ x5 a6)

end Cert.ReferenceIdeal.HostRun

end
-- ==== Proof.RefStages4.lean ====
import proofs.«171940_j1838246003236_1_alg».proof.Proof.RefProgram
import proofs.«171940_j1838246003236_1_alg».proof.Proof.RefRead

noncomputable section

namespace Cert.ReferenceIdeal.HostRun

open Cert.ReferenceIdeal Cert.ReferenceIdeal.Gen Idealize.ShloMosaic Idealize.ShloMosaic.TcCoe Idealize.SL.Sem Idealize.ShloMosaic.StableHlo

variable {F : FTy → Type} [FloatOps F]

/-! The last stretch cut in five: the bias added; the rows' maxima; the rows shifted by their maxima; the rows' sums of
    exponentials; the logarithms of the sums subtracted. -/

/-- The second bias, broadcast along the rows and added. -/
abbrev opsH1 : List (HloOp τ sig (Elt F)) :=
  [ unary main_arg4 main_v62 (broadcastInDim S1x40 ![1] bcast_S40_S1x40_1 : (⟨S40, .f32⟩ : BufTy).Contents (Elt F) → (⟨S1x40, .f32⟩ : BufTy).Contents (Elt F)),
    unary main_v62 main_v63 (broadcastInDim S100000x40 ![0, 1] bcast_S1x40_S100000x40_0_1 : (⟨S1x40, .f32⟩ : BufTy).Contents (Elt F) → (⟨S100000x40, .f32⟩ : BufTy).Contents (Elt F)),
    binary main_v61 main_v63 main_v64 (addf : (⟨S100000x40, .f32⟩ : BufTy).Contents (Elt F) → (⟨S100000x40, .f32⟩ : BufTy).Contents (Elt F) → (⟨S100000x40, .f32⟩ : BufTy).Contents (Elt F)) ]

/-- Each row's maximum (the fold from minus infinity, then the maximum with minus infinity again). -/
abbrev opsH2 : List (HloOp τ sig (Elt F)) :=
  [ TRef.nullary (TRef.of (T := ⟨S_, .f32⟩) main_call2_cst) (constant S_ .f32 0xFF800000#32),
    TRef.binary (TRef.of (T := ⟨S100000x40, .f32⟩) main_v64) (TRef.of (T := ⟨S_, .f32⟩) main_call2_cst) (TRef.of (T := ⟨S100000, .f32⟩) main_call2_v0) (fun x v => Host.reduce FloatOps.maximumf x v reducesTo_S100000x40_S100000_d1 h_S_),
    TRef.nullary (TRef.of (T := ⟨S_, .f32⟩) main_call2_cst_0) (constant S_ .f32 0xFF800000#32),
    TRef.unary (TRef.of (T := ⟨S_, .f32⟩) main_call2_cst_0) (TRef.of (T := ⟨S100000, .f32⟩) main_call2_v1) (broadcastInDim S100000 ![] bcast_S_S100000),
    TRef.binary (TRef.of (T := ⟨S100000, .f32⟩) main_call2_v1) (TRef.of (T := ⟨S100000, .f32⟩) main_call2_v0) (TRef.of (T := ⟨S100000, .f32⟩) main_call2_v2) maximumf ]

/-- Each row shifted by its maximum. -/
abbrev opsH3 : List (HloOp τ sig (Elt F)) :=
  [ TRef.unary (TRef.of (T := ⟨S100000, .f32⟩) main_call2_v2) (TRef.of (T := ⟨S100000x1, .f32⟩) main_call2_v3) (broadcastInDim S100000x1 ![0] bcast_S100000_S100000x1_0),
    TRef.unary (TRef.of (T := ⟨S100000x1, .f32⟩) main_call2_v3) (TRef.of (T := ⟨S100000x40, .f32⟩) main_call2_v4) (broadcastInDim S100000x40 ![0, 1] bcast_S100000x1_S100000x40_0_1),
    TRef.binary (TRef.of (T := ⟨S100000x40, .f32⟩) main_v64) (TRef.of (T := ⟨S100000x40, .f32⟩) main_call2_v4) (TRef.of (T := ⟨S100000x40, .f32⟩) main_call2_v5) subf ]

/-- Each row's sum of the exponentials of the shifted entries. -/
abbrev opsH4 : List (HloOp τ sig (Elt F)) :=
  [ TRef.unary (TRef.of (T := ⟨S100000x40, .f32⟩) main_call2_v5) (TRef.of (T := ⟨S100000x40, .f32⟩) main_call2_v6) Host.exp,
    TRef.nullary (TRef.of (T := ⟨S_, .f32⟩) main_call2_cst_1) (constant S_ .f32 0x00000000#32),
    TRef.binary (TRef.of (T := ⟨S100000x40, .f32⟩) main_call2_v6) (TRef.of (T := ⟨S_, .f32⟩) main_call2_cst_1) (TRef.of (T := ⟨S100000, .f32⟩) main_call2_v7) (fun x v => Host.reduceAdd x v reducesTo_S100000x40_S100000_d1 h_S_) ]

/-- The logarithm of each row's sum, subtracted from the shifted row. -/
abbrev opsH5 : List (HloOp τ sig (Elt F)) :=
  [ TRef.unary (TRef.of (T := ⟨S100000, .f32⟩) main_call2_v7) (TRef.of (T := ⟨S100000x1, .f32⟩) main_call2_v8) (broadcastInDim S100000x1 ![0] bcast_S100000_S100000x1_0),
    TRef.unary (TRef.of (T := ⟨S100000x1, .f32⟩) main_call2_v8) (TRef.of (T := ⟨S100000x1, .f32⟩) main_call2_v9) Host.log,
    TRef.unary (TRef.of (T := ⟨S100000x1, .f32⟩) main_call2_v9) (TRef.of (T := ⟨S100000x40, .f32⟩) main_call2_v10) (broadcastInDim S100000x40 ![0, 1] bcast_S100000x1_S100000x40_0_1),
    TRef.binary (TRef.of (T := ⟨S100000x40, .f32⟩) main_call2_v5) (TRef.of (T := ⟨S100000x40, .f32⟩) main_call2_v10) (TRef.of (T := ⟨S100000x40, .f32⟩) main_v65) subf ]

set_option maxRecDepth 8192 in
theorem opsH_split : (opsH : List (HloOp τ sig (Elt F))) = opsH1 ++ (opsH2 ++ (opsH3 ++ (opsH4 ++ opsH5))) := rfl

set_option maxHeartbeats 4000000 in
theorem stageH1 (W : Valuation τ sig (Elt F)) (x0 : (⟨S100000x512, .f32⟩ : BufTy).Contents (Elt F)) (x1 : (⟨S512x16, .f32⟩ : BufTy).Contents (Elt F)) (x2 : (⟨S16, .f32⟩ : BufTy).Contents (Elt F)) (x3 : (⟨S16x40, .f32⟩ : BufTy).Contents (Elt F)) (x4 : (⟨S40, .f32⟩ : BufTy).Contents (Elt F)) (x5 : (⟨S2x3200000, .i32⟩ : BufTy).Contents (Elt F))
    (h61 : W (Proc.devRef .tc main_v61) = Read.val_main_v61 x0 x1 x2 x3 x5)
    (h4 : W (Proc.devRef .tc main_arg4) = x4) :
    after opsH1 W (Proc.devRef .tc main_v64) = Read.val_main_v64 x0 x1 x2 x3 x4 x5 := by
  subst h4
  after_results
  rw [h61]
  rfl

set_option maxHeartbeats 4000000 in
theorem keepH2 (W : Valuation τ sig (Elt F)) :
    after opsH2 W (Proc.devRef .tc main_v64) = W (Proc.devRef .tc main_v64) :=
  by after_results <;> rfl

/-- The row-maximum stretch with the fold along the rows an arbitrary function `R` of the matrix and the starting value. -/
abbrev opsH2' (R : (⟨S100000x40, .f32⟩ : BufTy).Contents (Elt F) → (⟨S_, .f32⟩ : BufTy).Contents (Elt F) → (⟨S100000, .f32⟩ : BufTy).Contents (Elt F)) : List (HloOp τ sig (Elt F)) :=
  [ TRef.nullary (TRef.of (T := ⟨S_, .f32⟩) main_call2_cst) (constant S_ .f32 0xFF800000#32),
    TRef.binary (TRef.of (T := ⟨S100000x40, .f32⟩) main_v64) (TRef.of (T := ⟨S_, .f32⟩) main_call2_cst) (TRef.of (T := ⟨S100000, .f32⟩) main_call2_v0) R,
    TRef.nullary (TRef.of (T := ⟨S_, .f32⟩) main_call2_cst_0) (constant S_ .f32 0xFF800000#32),
    TRef.unary (TRef.of (T := ⟨S_, .f32⟩) main_call2_cst_0) (TRef.of (T := ⟨S100000, .f32⟩) main_call2_v1) (broadcastInDim S100000 ![] bcast_S_S100000),
    TRef.binary (TRef.of (T := ⟨S100000, .f32⟩) main_call2_v1) (TRef.of (T := ⟨S100000, .f32⟩) main_call2_v0) (TRef.of (T := ⟨S100000, .f32⟩) main_call2_v2) maximumf ]

/-- The stretch is that list at the left fold of the maximum along each row. -/
theorem opsH2_eq : (opsH2 : List (HloOp τ sig (Elt F)))
    = opsH2' (fun x v => Host.reduce FloatOps.maximumf x v reducesTo_S100000x40_S100000_d1 h_S_) := rfl

set_option maxRecDepth 8192 in
set_option maxHeartbeats 4000000 in
/-- Whatever the fold `R` is, the stretch leaves the maximum of minus infinity (broadcast) and `R` of the matrix it
    starts from and minus infinity: the values only pass through the called function's buffers. Stated for an arbitrary
    `R` so that comparing the two sides never opens the fold, which runs over all four million positions of the
    matrix to pick out each row's forty. -/
theorem stageH2_any (R : (⟨S100000x40, .f32⟩ : BufTy).Contents (Elt F) → (⟨S_, .f32⟩ : BufTy).Contents (Elt F) → (⟨S100000, .f32⟩ : BufTy).Contents (Elt F)) (W : Valuation τ sig (Elt F)) :
    after (opsH2' R) W (Proc.devRef .tc main_call2_v2)
      = (maximumf (broadcastInDim S100000 ![] bcast_S_S100000 (constant S_ .f32 0xFF800000#32 : (⟨S_, .f32⟩ : BufTy).Contents (Elt F)))
          (R (W (Proc.devRef .tc main_v64) : (⟨S100000x40, .f32⟩ : BufTy).Contents (Elt F)) (constant S_ .f32 0xFF800000#32 : (⟨S_, .f32⟩ : BufTy).Contents (Elt F))) : (⟨S100000, .f32⟩ : BufTy).Contents (Elt F)) := by
  after_results
  rfl

set_option maxRecDepth 8192 in
set_option maxHeartbeats 4000000 in
theorem stageH2 (W : Valuation τ sig (Elt F)) (x0 : (⟨S100000x512, .f32⟩ : BufTy).Contents (Elt F)) (x1 : (⟨S512x16, .f32⟩ : BufTy).Contents (Elt F)) (x2 : (⟨S16, .f32⟩ : BufTy).Contents (Elt F)) (x3 : (⟨S16x40, .f32⟩ : BufTy).Contents (Elt F)) (x4 : (⟨S40, .f32⟩ : BufTy).Contents (Elt F)) (x5 : (⟨S2x3200000, .i32⟩ : BufTy).Contents (Elt F))
    (h64 : W (Proc.devRef .tc main_v64) = Read.val_main_v64 x0 x1 x2 x3 x4 x5) :
    after opsH2 W (Proc.devRef .tc main_call2_v2) = Read.val_main_call2_v2 x0 x1 x2 x3 x4 x5 := by
  rw [opsH2_eq, stageH2_any, h64]
  rfl

set_option maxRecDepth 8192 in
set_option maxHeartbeats 4000000 in
theorem stageH3 (W : Valuation τ sig (Elt F)) (x0 : (⟨S100000x512, .f32⟩ : BufTy).Contents (Elt F)) (x1 : (⟨S512x16, .f32⟩ : BufTy).Contents (Elt F)) (x2 : (⟨S16, .f32⟩ : BufTy).Contents (Elt F)) (x3 : (⟨S16x40, .f32⟩ : BufTy).Contents (Elt F)) (x4 : (⟨S40, .f32⟩ : BufTy).Contents (Elt F)) (x5 : (⟨S2x3200000, .i32⟩ : BufTy).Contents (Elt F))
    (h2 : W (Proc.devRef .tc main_call2_v2) = Read.val_main_call2_v2 x0 x1 x2 x3 x4 x5)
    (h64 : W (Proc.devRef .tc main_v64) = Read.val_main_v64 x0 x1 x2 x3 x4 x5) :
    after opsH3 W (Proc.devRef .tc main_call2_v5) = Read.val_main_call2_v5 x0 x1 x2 x3 x4 x5 := by
  after_results
  rw [h2, h64]
  rfl

set_option maxHeartbeats 4000000 in
theorem keepH4 (W : Valuation τ sig (Elt F)) :
    after opsH4 W (Proc.devRef .tc main_call2_v5) = W (Proc.devRef .tc main_call2_v5) :=
  by after_results <;> rfl

set_option maxRecDepth 8192 in
set_option maxHeartbeats 4000000 in
theorem stageH4 (W : Valuation τ sig (Elt F)) (x0 : (⟨S100000x512, .f32⟩ : BufTy).Contents (Elt F)) (x1 : (⟨S512x16, .f32⟩ : BufTy).Contents (Elt F)) (x2 : (⟨S16, .f32⟩ : BufTy).Contents (Elt F)) (x3 : (⟨S16x40, .f32⟩ : BufTy).Contents (Elt F)) (x4 : (⟨S40, .f32⟩ : BufTy).Contents (Elt F)) (x5 : (⟨S2x3200000, .i32⟩ : BufTy).Contents (Elt F))
    (h5 : W (Proc.devRef .tc main_call2_v5) = Read.val_main_call2_v5 x0 x1 x2 x3 x4 x5) :
    after opsH4 W (Proc.devRef .tc main_call2_v7) = Read.val_main_call2_v7 x0 x1 x2 x3 x4 x5 := by
  after_results
  rw [h5]
  rfl

set_option maxRecDepth 8192 in
set_option maxHeartbeats 4000000 in
theorem stageH5 (W : Valuation τ sig (Elt F)) (x0 : (⟨S100000x512, .f32⟩ : BufTy).Contents (Elt F)) (x1 : (⟨S512x16, .f32⟩ : BufTy).Contents (Elt F)) (x2 : (⟨S16, .f32⟩ : BufTy).Contents (Elt F)) (x3 : (⟨S16x40, .f32⟩ : BufTy).Contents (Elt F)) (x4 : (⟨S40, .f32⟩ : BufTy).Contents (Elt F)) (x5 : (⟨S2x3200000, .i32⟩ : BufTy).Contents (Elt F))
    (h7 : W (Proc.devRef .tc main_call2_v7) = Read.val_main_call2_v7 x0 x1 x2 x3 x4 x5)
    (h5 : W (Proc.devRef .tc main_call2_v5) = Read.val_main_call2_v5 x0 x1 x2 x3 x4 x5) :
    after opsH5 W (Proc.devRef .tc main_v65) = Read.val_main_v65 x0 x1 x2 x3 x4 x5 := by
  after_results
  rw [h7, h5]
  rfl

/-- The second bias and the rows' log-softmax. -/
theorem stageH (W : Valuation τ sig (Elt F)) (x0 : (⟨S100000x512, .f32⟩ : BufTy).Contents (Elt F)) (x1 : (⟨S512x16, .f32⟩ : BufTy).Contents (Elt F)) (x2 : (⟨S16, .f32⟩ : BufTy).Contents (Elt F)) (x3 : (⟨S16x40, .f32⟩ : BufTy).Contents (Elt F)) (x4 : (⟨S40, .f32⟩ : BufTy).Contents (Elt F)) (x5 : (⟨S2x3200000, .i32⟩ : BufTy).Contents (Elt F))
    (h61 : W (Proc.devRef .tc main_v61) = Read.val_main_v61 x0 x1 x2 x3 x5)
    (h4 : W (Proc.devRef .tc main_arg4) = x4) :
    after opsH W (Proc.devRef .tc main_v65) = Read.val_main_v65 x0 x1 x2 x3 x4 x5 := by
  rw [opsH_split, after_append, after_append, after_append, after_append]
  have s1 := stageH1 W x0 x1 x2 x3 x4 x5 h61 h4
  have s2 := stageH2 (after opsH1 W) x0 x1 x2 x3 x4 x5 s1
  have k2 := (keepH2 (after opsH1 W)).trans s1
  have s3 := stageH3 (after opsH2 (after opsH1 W)) x0 x1 x2 x3 x4 x5 s2 k2
  have s4 := stageH4 (after opsH3 (after opsH2 (after opsH1 W))) x0 x1 x2 x3 x4 x5 s3
  have k4 := (keepH4 (after opsH3 (after opsH2 (after opsH1 W)))).trans s3
  exact stageH5 (after opsH4 (after opsH3 (after opsH2 (after opsH1 W)))) x0 x1 x2 x3 x4 x5 s4 k4

end Cert.ReferenceIdeal.HostRun

end
-- ==== Proof.RefStages.lean ====
import proofs.«171940_j1838246003236_1_alg».proof.Proof.RefProgram
import proofs.«171940_j1838246003236_1_alg».proof.Proof.RefRead
import proofs.«171940_j1838246003236_1_alg».proof.Proof.RefStages1
import proofs.«171940_j1838246003236_1_alg».proof.Proof.RefStages2
import proofs.«171940_j1838246003236_1_alg».proof.Proof.RefStages3
import proofs.«171940_j1838246003236_1_alg».proof.Proof.RefStages4

noncomputable section

namespace Cert.ReferenceIdeal.HostRun

open Cert.ReferenceIdeal Cert.ReferenceIdeal.Gen Idealize.ShloMosaic Idealize.ShloMosaic.TcCoe Idealize.SL.Sem Idealize.ShloMosaic.StableHlo

variable {F : FTy → Type} [FloatOps F]

/-! The reference's value: the seven stretches run in a row from any contents give the result buffer the stage value
    of the six arguments read from those contents. -/

/-- The seven stretches in a row. Each stretch's result is its stage value by the stretch's lemma; what a later stretch
    reads of an earlier one (the two endpoint lists, the edge weights, the remaining arguments) is carried across the
    stretches between, none of which writes it. -/
theorem ref_chain (W0 : Valuation τ sig (Elt F)) :
    after opsH (after opsG (after opsE (after opsD (after opsC (after opsB (after opsA W0)))))) (Proc.devRef .tc main_v65)
      = Read.val_main_v65 (F := F) (W0 (Proc.devRef .tc main_arg0)) (W0 (Proc.devRef .tc main_arg1)) (W0 (Proc.devRef .tc main_arg2)) (W0 (Proc.devRef .tc main_arg3)) (W0 (Proc.devRef .tc main_arg4)) (W0 (Proc.devRef .tc main_arg5)) := by
  have kA := keepA W0
  have kB := keepB (after opsA W0)
  have kC := keepC (after opsB (after opsA W0))
  have kD := keepD (after opsC (after opsB (after opsA W0)))
  have kE := keepE (after opsD (after opsC (after opsB (after opsA W0))))
  have kG := keepG (after opsE (after opsD (after opsC (after opsB (after opsA W0)))))
  -- after the normalisation
  have a3 := stageA_v3 W0 _ rfl
  have a6 := stageA_v6 W0 _ rfl
  have a29 := stageA_v29 W0 _ rfl
  -- after the first product
  have b30 := stageB (after opsA W0) _ _ kA.1 kA.2.1
  have b3 := kB.1.trans a3
  have b6 := kB.2.1.trans a6
  have b29 := kB.2.2.1.trans a29
  have bx2 := kB.2.2.2.1.trans kA.2.2.1
  have bx3 := kB.2.2.2.2.1.trans kA.2.2.2.1
  have bx4 := kB.2.2.2.2.2.trans kA.2.2.2.2
  -- after the first aggregation
  have c43 := stageC (after opsB (after opsA W0)) _ _ _ b30 b3 b6 b29
  have c3 := kC.1.trans b3
  have c6 := kC.2.1.trans b6
  have c29 := kC.2.2.1.trans b29
  have cx2 := kC.2.2.2.1.trans bx2
  have cx3 := kC.2.2.2.2.1.trans bx3
  have cx4 := kC.2.2.2.2.2.trans bx4
  -- after the bias and the clamp
  have d47 := stageD (after opsC (after opsB (after opsA W0))) _ _ _ _ c43 cx2
  have d3 := kD.1.trans c3
  have d6 := kD.2.1.trans c6
  have d29 := kD.2.2.1.trans c29
  have dx3 := kD.2.2.2.1.trans cx3
  have dx4 := kD.2.2.2.2.trans cx4
  -- after the second product
  have e48 := stageE (after opsD (after opsC (after opsB (after opsA W0)))) _ _ _ _ _ d47 dx3
  have e3 := kE.1.trans d3
  have e6 := kE.2.1.trans d6
  have e29 := kE.2.2.1.trans d29
  have ex4 := kE.2.2.2.trans dx4
  -- after the second aggregation
  have g61 := stageG (after opsE (after opsD (after opsC (after opsB (after opsA W0))))) _ _ _ _ _ e48 e3 e6 e29
  have gx4 := kG.trans ex4
  exact stageH (after opsG (after opsE (after opsD (after opsC (after opsB (after opsA W0)))))) _ _ _ _ _ _ g61 gx4

/-- The reference's result buffer, after all its operations from the launch contents, holds the stage value of the six
    arguments as launched. -/
theorem ref_value (m : (ℓ : Loc nD τ sig) → Buf (Elt F) ℓ) (c : Dev nD) :
    after (ops (F := F)) (launchContents m c) (Proc.devRef .tc main_v65)
      = Cert.ReferenceIdeal.Read.val_main_v65 (F := F) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) := by
  rw [ops_split, after_append, after_append, after_append, after_append, after_append, after_append]
  exact ref_chain (launchContents m c)

end Cert.ReferenceIdeal.HostRun

end
-- ==== Proof.lean ====
/-
  A two-layer graph convolution, kernel against reference, over the extended reals.

  Both programs normalise the graph with the same host operations (sources and destinations with self loops, in-degrees,
  the edge weights deg^(-1/2)·deg^(-1/2)), and aggregate along the edges with the same gather, scaling and scatter-add.
  They differ in the four dense stages, which the kernel sweeps block of rows by block of rows: x·W1 (a product of a block
  of rows is those rows of the whole product; a change of float format is the identity on the extended reals), bias and
  clamp at zero (entry by entry), ·W2, and bias with each row's log-softmax (a row lies inside one block, so its maximum
  and its sum of exponentials are the reference's). No law used needs finiteness: the precondition is never opened.

  The three frames: the two kernel programs' are the generated frame certificates; the reference's is its run with the
  result dropped. The idealization rewrote nothing, so `preserves` is trivial. For `algebraic` both runs end with the
  result array at the reference's last stage of the launch arrays, which agree.
-/
import proofs.«171940_j1838246003236_1_alg».proof.Defs
import proofs.«171940_j1838246003236_1_alg».proof.Proof.Gen.Kernel
import proofs.«171940_j1838246003236_1_alg».proof.Proof.Gen.Kernel.Skeleton
import proofs.«171940_j1838246003236_1_alg».proof.Proof.Gen.Kernel.Launch
import proofs.«171940_j1838246003236_1_alg».proof.Proof.Gen.Kernel.Points
import proofs.«171940_j1838246003236_1_alg».proof.Proof.Gen.Kernel.Frame
import proofs.«171940_j1838246003236_1_alg».proof.Proof.Gen.KernelIdeal
import proofs.«171940_j1838246003236_1_alg».proof.Proof.Gen.KernelIdeal.Skeleton
import proofs.«171940_j1838246003236_1_alg».proof.Proof.Gen.KernelIdeal.Launch
import proofs.«171940_j1838246003236_1_alg».proof.Proof.Gen.KernelIdeal.Points
import proofs.«171940_j1838246003236_1_alg».proof.Proof.Gen.KernelIdeal.Frame
import proofs.«171940_j1838246003236_1_alg».proof.Proof.Gen.ReferenceIdeal
import proofs.«171940_j1838246003236_1_alg».proof.Proof.Gen.Pre_finite_inputs
import proofs.«171940_j1838246003236_1_alg».proof.Proof.KernelRun
import proofs.«171940_j1838246003236_1_alg».proof.Proof.KernelValue
import proofs.«171940_j1838246003236_1_alg».proof.Proof.RefProgram
import proofs.«171940_j1838246003236_1_alg».proof.Proof.RefStages
import Idealize.ShloMosaic.Adequacy
import Idealize.ShloMosaic.Init

noncomputable section

namespace Cert.Proof

open Idealize.ShloMosaic Idealize.SL.Sem

theorem frame_kernel : Cert.frame_Kernel := fun m ρ _ => Cert.Kernel.Gen.frame m ρ

theorem frame_kernelIdeal : Cert.frame_KernelIdeal := fun m ρ _ => Cert.KernelIdeal.Gen.frame m ρ

theorem frame_referenceIdeal : Cert.frame_ReferenceIdeal := fun m ρ _ =>
  (θ_run Cert.ReferenceIdeal.defs _ _).mono (fun _ h c => (h c).2) (Cert.ReferenceIdeal.HostRun.run (F := Ideal) m ρ)

theorem preserves : Cert.preserves_Kernel_KernelIdeal := trivial

/-- Both runs end with the result array at the reference's last stage of the launch arrays, and those agree. -/
theorem algebraic : Cert.algebraic_KernelIdeal_ReferenceIdeal := by
  intro m ρ m' ρ' _ hagree
  refine ⟨fun c => Cert.KernelIdeal.Gen.W9 m ρ c (Proc.devRef .tc Cert.KernelIdeal.main_v61),
    Cert.KernelIdeal.RunValue.run_result m ρ, ?_⟩
  refine (θ_run Cert.ReferenceIdeal.defs _ _).mono (fun _ h c => ⟨(h c).1.trans ?_, (h c).2⟩)
    (Cert.ReferenceIdeal.HostRun.run (F := Ideal) m' ρ')
  refine (Cert.ReferenceIdeal.HostRun.ref_value m' c).trans (Eq.trans ?_ (Cert.KernelIdeal.KValue.kernel_value m ρ c).symm)
  rw [(hagree c).1, (hagree c).2.1, (hagree c).2.2.1, (hagree c).2.2.2.1, (hagree c).2.2.2.2.1, (hagree c).2.2.2.2.2]

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, preserves, algebraic⟩

end Cert.Proof

end
